-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S8192x2 : Shape := ⟨2, ![8192, 2]⟩
abbrev S1024x128 : Shape := ⟨2, ![1024, 128]⟩
abbrev S2048x128 : Shape := ⟨2, ![2048, 128]⟩
abbrev S1024x1 : Shape := ⟨2, ![1024, 1]⟩
abbrev S1x2048 : Shape := ⟨2, ![1, 2048]⟩
abbrev S1024x2 : Shape := ⟨2, ![1024, 2]⟩
abbrev S128x2048 : Shape := ⟨2, ![128, 2048]⟩
abbrev S1024x2048 : Shape := ⟨2, ![1024, 2048]⟩
abbrev S1024 : Shape := ⟨1, ![1024]⟩

abbrev nBuf : Space → Nat
  | .hbm => 25
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x2, .f32⟩
  | .hbm, ⟨10, _⟩ => ⟨S8192x1, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S8192x1, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S2048x128, .f32⟩
  | .local _ .vmem, ⟨3, _⟩ => ⟨S2048x128, .f32⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S1024x1, .i32⟩
  | .local _ .vmem, ⟨9, _⟩ => ⟨S1024x1, .i32⟩
  | .local _ .vmem, ⟨10, _⟩ => ⟨S1x2048, .i32⟩
  | .local _ .vmem, ⟨11, _⟩ => ⟨S1x2048, .i32⟩
  | .local _ .vmem, ⟨12, _⟩ => ⟨S1024x2, .f32⟩
  | .local _ .vmem, ⟨13, _⟩ => ⟨S1024x2, .f32⟩
  | .local _ .vmem, ⟨14, _⟩ => ⟨S1024x1, .f32⟩
  | .local _ .vmem, ⟨15, _⟩ => ⟨S1024x1, .f32⟩
  | .local _ .vmem, ⟨16, _⟩ => ⟨S1024x1, .i32⟩
  | .local _ .vmem, ⟨17, _⟩ => ⟨S1024x1, .i32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg0 : BitVec 32 := BitVec.ofNat 32 (i 0).val
  let c1024_i32 : BitVec 32 := 1024#32
  let v19 : BitVec 32 := Scalar.muli arg0 c1024_i32
  v19
def k0_mult2 (i : grid0.Coords) : BitVec 32 :=
  let arg1 : BitVec 32 := BitVec.ofNat 32 (i 1).val
  let c2048_i32 : BitVec 32 := 2048#32
  let v21 : BitVec 32 := Scalar.muli arg1 c2048_i32
  v21
def k0_cond2 (i : grid0.Coords) : BitVec 1 :=
  let arg1 : BitVec 32 := BitVec.ofNat 32 (i 1).val
  let c3_i32 : BitVec 32 := 3#32
  let v86 : BitVec 1 := Scalar.cmpi .eq arg1 c3_i32
  let v87 : BitVec 32 := Scalar.extui v86
  let c0_i32_44 : BitVec 32 := 0#32
  let v88 : BitVec 1 := Scalar.cmpi .ne v87 c0_i32_44
  v88

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8192_S8192x1 : S8192.ShapeCasts S8192x1
  shapeCasts_S8192_S1x8192 : S8192.ShapeCasts S1x8192
  reducesTo_S8192x128_S8192_d1 : S8192x128.ReducesTo [1] S8192
  h_S_ : 0 < S_.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  inb_S2048x128_S2048x128_0_0 : ∀ a, (![0, 0] : Fin 2 → Nat) a + S2048x128.size a ≤ S2048x128.size a
  h_S2048x128 : 0 < S2048x128.numel
  transposes_S2048x128_p1_0_S128x2048 : S2048x128.Transposes [1, 0] S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  iota_S1024x1_d0_w32 : S1024x1.Iotas .tc 32 [0]
  iota_S1x2048_d1_w32 : S1x2048.Iotas .tc 32 [1]
  reduces_S1024x2048_S1024 : S1024x2048.Reduces [1] S1024
  shapeCasts_S1024_S1024x1 : S1024.ShapeCasts S1024x1
  natLt_1_32 : 1 < 32
  concatenates_S1024x1_S1024x1_S1024x2_d1 : Shape.Concatenates [S1024x1, S1024x1] S1024x2 1
  inb_S1024x2_S1024x2_0_0 : ∀ a, (![0, 0] : Fin 2 → Nat) a + S1024x2.size a ≤ S1024x2.size a
  h_S1024x2 : 0 < S1024x2.numel
  slices_S8192x2_S8192x1_0_0 : S8192x2.Slices ![0, 0] S8192x1
  shapeCasts_S8192x1_S8192 : S8192x1.ShapeCasts S8192
  reducesTo_S8192_S_d0 : S8192.ReducesTo [0] S_
  slices_S8192x2_S8192x1_0_1 : S8192x2.Slices ![0, 1] S8192x1
  dot_S1024x128_S128x2048_S1024x2048_1_0_0_1_n_n_wf : DotDims.WF S1024x128 S128x2048 S1024x2048 [1] [0] [0] [1] [] []
  hrank0 : 0 < grid0.rank
  k0_mult1_dvd : ∀ i : grid0.Coords, 1024 ∣ (k0_mult1 i).toNat
  k0_mult2_dvd : ∀ i : grid0.Coords, 2048 ∣ (k0_mult2 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x8192.size a
  hwx0_5 : ∀ i : grid0.Coords, EltTy.bits .i32 = 32 ∨ (Rect.block (s := S1x8192) S1x2048.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x2.size a ≤ S8192x2.size a
  hwx0_6 : ∀ i : grid0.Coords, EltTy.bits .f32 = 32 ∨ (Rect.block (s := S8192x2) S1024x2.size (cc0_transform_6 i) (hinb0_6 i)).WholeWords (EltTy.packing .f32)

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 88
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x1, .i32⟩
  | .hbm, ⟨32, _⟩ => ⟨S1x8192, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .i32⟩
  | .hbm, ⟨37, _⟩ => ⟨S8192x8192, .i32⟩
  | .hbm, ⟨38, _⟩ => ⟨S_, .i32⟩
  | .hbm, ⟨39, _⟩ => ⟨S8192x8192, .i32⟩
  | .hbm, ⟨40, _⟩ => ⟨S8192x8192, .i32⟩
  | .hbm, ⟨41, _⟩ => ⟨S8192x8192, .i1⟩
  | .hbm, ⟨42, _⟩ => ⟨S8192x8192, .i1⟩
  | .hbm, ⟨43, _⟩ => ⟨S8192x8192, .i1⟩
  | .hbm, ⟨44, _⟩ => ⟨S8192x8192, .i1⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S_, .i1⟩
  | .hbm, ⟨56, _⟩ => ⟨S8192, .i1⟩
  | .hbm, ⟨57, _⟩ => ⟨S_, .i1⟩
  | .hbm, ⟨58, _⟩ => ⟨S8192, .i1⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192, .i1⟩
  | .hbm, ⟨67, _⟩ => ⟨S_, .f32⟩
  | .hbm, ⟨68, _⟩ => ⟨S8192, .f32⟩
  | .hbm, ⟨69, _⟩ => ⟨S8192, .i1⟩
  | .hbm, ⟨70, _⟩ => ⟨S8192, .i1⟩
  | .hbm, ⟨71, _⟩ => ⟨S_, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S_, .f32⟩
  | .hbm, ⟨76, _⟩ => ⟨S_, .f32⟩
  | .hbm, ⟨77, _⟩ => ⟨S8192, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_call2_v0 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_cst_7 : Ref sig .tc := ⟨.hbm, 50, rfl⟩
abbrev main_call3_v0 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_c_10 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_call4_cst : Ref sig .tc := ⟨.hbm, 63, rfl⟩
abbrev main_call4_v0 : Ref sig .tc := ⟨.hbm, 64, rfl⟩
abbrev main_v41 : Ref sig .tc := ⟨.hbm, 65, rfl⟩
abbrev main_v42 : Ref sig .tc := ⟨.hbm, 66, rfl⟩
abbrev main_cst_12 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_13 : Ref sig .tc := ⟨.hbm, 71, rfl⟩
abbrev main_call5_v0 : Ref sig .tc := ⟨.hbm, 72, rfl⟩
abbrev main_call5_v1 : Ref sig .tc := ⟨.hbm, 73, rfl⟩
abbrev main_v46 : Ref sig .tc := ⟨.hbm, 74, rfl⟩
abbrev main_cst_14 : Ref sig .tc := ⟨.hbm, 75, rfl⟩
abbrev main_v47 : Ref sig .tc := ⟨.hbm, 76, rfl⟩
abbrev main_v48 : Ref sig .tc := ⟨.hbm, 77, rfl⟩
abbrev main_c_15 : Ref sig .tc := ⟨.hbm, 78, rfl⟩
abbrev main_v49 : Ref sig .tc := ⟨.hbm, 79, rfl⟩
abbrev main_c_16 : Ref sig .tc := ⟨.hbm, 80, rfl⟩
abbrev main_v50 : Ref sig .tc := ⟨.hbm, 81, rfl⟩
abbrev main_c_17 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_18 : Ref sig .tc := ⟨.hbm, 86, rfl⟩
abbrev main_v54 : Ref sig .tc := ⟨.hbm, 87, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  natLt_1_32 : 1 < 32
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Kit.lean ====
/- The kernel body's shared vocabulary: the two branch conditions of the body in closed form over the grid,
   where the output window is idle, the staging memrefs the pipeline passes at a point, the four accumulators as
   whole memrefs, each window's block read off the contents `V` the region finds in the arrays, and the region
   invariant with the four accumulators owned. -/
import proofs.«108932_j15444702397006_2_alg».proof.Proof.Gen.Kernel.Launch
import proofs.«108932_j15444702397006_2_alg».proof.Proof.Gen.Kernel.Skeleton
import proofs.«108932_j15444702397006_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- the blocks have production extents: 1024, 2048 and 8192 along the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is the region-entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (the reset of the accumulators), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4): the first key tile of each query tile. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second conditional (the finalization), from the grid coordinates. -/
abbrev cond0_1 (i : grid0.Coords) : Prop := k0_cond2 i = 1#1
/-- It holds at the points ≡ 3 (mod 4): the last key tile of each query tile. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- At the points of case A the output window is idle: the case stores nothing into it. -/
theorem idleAt0_6_A : ∀ t : Fin cfg0.N, cond0_0 (grid0.coords t) → ¬cond0_1 (grid0.coords t) → cfg0.idle 6 (grid0.coords t) = true := by decide +kernel
/-- At the points of case A the output window's block is not written back. -/
theorem noFlush0_6_A : ∀ t : Fin cfg0.N, cond0_0 (grid0.coords t) → ¬cond0_1 (grid0.coords t) → (cfg0.win 6).flush t = false := by decide +kernel
/-- At the points of case B the output window is idle: the case stores nothing into it. -/
theorem idleAt0_6_B : ∀ t : Fin cfg0.N, ¬cond0_0 (grid0.coords t) → ¬cond0_1 (grid0.coords t) → cfg0.idle 6 (grid0.coords t) = true := by decide +kernel
/-- At the points of case B the output window's block is not written back. -/
theorem noFlush0_6_B : ∀ t : Fin cfg0.N, ¬cond0_0 (grid0.coords t) → ¬cond0_1 (grid0.coords t) → (cfg0.win 6).flush t = false := by decide +kernel
/-- At the points of case C the output window is live: the case stores into it. -/
theorem liveAt0_6_C : ∀ t : Fin cfg0.N, ¬cond0_0 (grid0.coords t) → cond0_1 (grid0.coords t) → cfg0.idle 6 (grid0.coords t) = false := by decide +kernel

/-! ## The memrefs the body is called with -/

/-- One staging buffer of the output window, through which its contents are stated (the choice does not matter). -/
abbrev VO0_6 : View sig .tc .vmem S1024x2 .f32 := (Memref.whole cc0_stg6_0 : Memref sig .tc .vmem S1024x2 .f32).view
/-- Window 0's current staging memref at point `t`, as the pipeline passes it, and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
/-- Window 1's current staging memref at point `t`, as the pipeline passes it, and its wholeness. -/
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
/-- Window 2's current staging memref at point `t`, as the pipeline passes it, and its wholeness. -/
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- Window 3's current staging memref at point `t`, as the pipeline passes it, and its wholeness. -/
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
/-- Window 4's current staging memref at point `t`, as the pipeline passes it, and its wholeness. -/
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
/-- Window 5's current staging memref at point `t`, as the pipeline passes it, and its wholeness. -/
abbrev ms0_5 (t : Fin cfg0.N) : Memref sig .tc .vmem S1x2048 .i32 := win0_5.stage (cfg0.slots t 5)
abbrev hs0_5 (t : Fin cfg0.N) : (ms0_5 t).IsWhole := hstage0_5 ((cfg0.slots t 5).cast nbuf0_5)
/-- Window 6's current staging memref at point `t`, as the pipeline passes it, and its wholeness. -/
abbrev ms0_6 (t : Fin cfg0.N) : Memref sig .tc .vmem S1024x2 .f32 := win0_6.stage (cfg0.slots t 6)
abbrev hs0_6 (t : Fin cfg0.N) : (ms0_6 t).IsWhole := hstage0_6 ((cfg0.slots t 6).cast nbuf0_6)
/-- Accumulator 0 (the running maximum over positives): a whole scoped buffer of the kernel's own, carried between points. -/
abbrev scM0_0 : Memref sig .tc .vmem S1024x1 .f32 := Memref.whole cc0_scratch0
/-- The same as a view: what it holds is stated through it. -/
abbrev VS0_0 : View sig .tc .vmem S1024x1 .f32 := scM0_0.view
/-- Accumulator 1 (the running minimum over negatives): a whole scoped buffer of the kernel's own, carried between points. -/
abbrev scM0_1 : Memref sig .tc .vmem S1024x1 .f32 := Memref.whole cc0_scratch1
/-- The same as a view: what it holds is stated through it. -/
abbrev VS0_1 : View sig .tc .vmem S1024x1 .f32 := scM0_1.view
/-- Accumulator 2 (the flag that a positive was met): a whole scoped buffer of the kernel's own, carried between points. -/
abbrev scM0_2 : Memref sig .tc .vmem S1024x1 .i32 := Memref.whole cc0_scratch2
/-- The same as a view: what it holds is stated through it. -/
abbrev VS0_2 : View sig .tc .vmem S1024x1 .i32 := scM0_2.view
/-- Accumulator 3 (the flag that a negative was met): a whole scoped buffer of the kernel's own, carried between points. -/
abbrev scM0_3 : Memref sig .tc .vmem S1024x1 .i32 := Memref.whole cc0_scratch3
/-- The same as a view: what it holds is stated through it. -/
abbrev VS0_3 : View sig .tc .vmem S1024x1 .i32 := scM0_3.view

/-- The region invariant with the four accumulators as memrefs owned at some contents: what the body obligation
    hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.K.RunA.lean ====
/- The kernel body's run in case A: the body's triple over its memory operations, the pieces each buffer ends
   with being the witness. The cases are told apart by the point's residue modulo 4. -/
import proofs.«108932_j15444702397006_2_alg».proof.Proof.K.Kit

-- the blocks have production extents: 1024, 2048 and 8192 along the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

-- (the body is long: 149 statements over eleven buffers)
set_option maxHeartbeats 4000000 in
/-- What the body's stores leave in the output's staging memref and in the four accumulators, as pieces (last
    first), IN CASE A (the first key tile of a query tile: the accumulators are reset, then accumulate), WITH the proof that on whole memrefs — the six inputs' at their contents
    `x·`, the output's, into which the case stores nothing, at contents `xi6` handed back untouched, the accumulators at anything — the body runs to the continuation holding
    the inputs' as they were and each accumulator with its pieces written. -/
noncomputable def kernelRun0_A (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) :
    Σ' (L6 : List (View.Piece (Elt F) S1024x2 .f32)) (LS0 : List (View.Piece (Elt F) S1024x1 .f32)) (LS1 : List (View.Piece (Elt F) S1024x1 .f32)) (LS2 : List (View.Piece (Elt F) S1024x1 .i32)), { LS3 : List (View.Piece (Elt F) S1024x1 .i32) //
      ∀ (xi6 : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0_triplet_kernel i arg2 harg2 arg3 harg3 arg4 harg4 arg5 harg5 arg6 harg6 arg7 harg7 arg8 harg8 arg9 harg9 arg10 harg10 arg11 harg11 arg12 harg12) K } := by
  refine ⟨[], ?_, ?_, ?_, ?_, fun xi6 E K => ?run⟩
  case run =>
    simp only [cc0_triplet_kernel_eq_skeleton]; unfold cc0_triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Hand

end
-- ==== Proof.K.RunB.lean ====
/- The kernel body's run in case B: the body's triple over its memory operations, the pieces each buffer ends
   with being the witness. The cases are told apart by the point's residue modulo 4. -/
import proofs.«108932_j15444702397006_2_alg».proof.Proof.K.RunA

-- the blocks have production extents: 1024, 2048 and 8192 along the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

-- (the body is long: 149 statements over eleven buffers)
set_option maxHeartbeats 4000000 in
/-- What the body's stores leave in the output's staging memref and in the four accumulators, as pieces (last
    first), IN CASE B (a middle key tile: the accumulators go on from what the point before left), WITH the proof that on whole memrefs — the six inputs' at their contents
    `x·`, the output's, into which the case stores nothing, at contents `xi6` handed back untouched, the accumulators at the contents `xs·` the point before left — the body runs to the continuation holding
    the inputs' as they were and each accumulator with its pieces written. -/
noncomputable def kernelRun0_B (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) :
    Σ' (L6 : List (View.Piece (Elt F) S1024x2 .f32)) (LS0 : List (View.Piece (Elt F) S1024x1 .f32)) (LS1 : List (View.Piece (Elt F) S1024x1 .f32)) (LS2 : List (View.Piece (Elt F) S1024x1 .i32)), { LS3 : List (View.Piece (Elt F) S1024x1 .i32) //
      ∀ (xi6 : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0_triplet_kernel i arg2 harg2 arg3 harg3 arg4 harg4 arg5 harg5 arg6 harg6 arg7 harg7 arg8 harg8 arg9 harg9 arg10 harg10 arg11 harg11 arg12 harg12) K } := by
  refine ⟨[], ?_, ?_, ?_, ?_, fun xi6 E K => ?run⟩
  case run =>
    simp only [cc0_triplet_kernel_eq_skeleton]; unfold cc0_triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Hand

end
-- ==== Proof.K.RunC.lean ====
/- The kernel body's run in case C: the body's triple over its memory operations, the pieces each buffer ends
   with being the witness. The cases are told apart by the point's residue modulo 4. -/
import proofs.«108932_j15444702397006_2_alg».proof.Proof.K.RunB

-- the blocks have production extents: 1024, 2048 and 8192 along the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

-- (the body is long: 149 statements over eleven buffers)
set_option maxHeartbeats 4000000 in
/-- What the body's stores leave in the output's staging memref and in the four accumulators, as pieces (last
    first), IN CASE C (the last key tile of a query tile: the accumulators go on, then the output block is computed from them and stored), WITH the proof that on whole memrefs — the six inputs' at their contents
    `x·`, the output's at anything, the accumulators at the contents `xs·` the point before left — the body runs to the continuation holding
    the inputs' as they were, the output's with its pieces written and each accumulator with its pieces written. -/
noncomputable def kernelRun0_C (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) :
    Σ' (L6 : List (View.Piece (Elt F) S1024x2 .f32)) (LS0 : List (View.Piece (Elt F) S1024x1 .f32)) (LS1 : List (View.Piece (Elt F) S1024x1 .f32)) (LS2 : List (View.Piece (Elt F) S1024x1 .i32)), { LS3 : List (View.Piece (Elt F) S1024x1 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0_triplet_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_triplet_kernel_eq_skeleton]; unfold cc0_triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]; · iexists _; iexact HS2
    iexists _; iexact HS3

end Cert.Kernel.Hand

end
-- ==== Proof.K.Body.lean ====
/- The kernel body at every point of the grid: what each case of the body leaves in the output's staging buffer and
   in the four accumulators, what they hold after each point (by recursion on the point: a query tile's first
   key tile resets the accumulators, the next ones go on from what the point before left, the last one also
   stores the output block), the pipeline's proof data, and the body obligation. -/
import proofs.«108932_j15444702397006_2_alg».proof.Proof.K.RunC

-- the blocks have production extents: 1024, 2048 and 8192 along the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! ## What each case leaves -/

/-- Case A (the first key tile of a query tile) stores nothing into the output (the window is idle at its points and not written
    back there): no pieces — a placeholder (junk read back) that nothing consults. -/
def out0_A_6 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) : Vec F S1024x2 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1)

/-- Case A's pieces for accumulator 0 cover it (whole-buffer stores). -/
theorem scover0_A_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1 S1024x1.size (by sl_kernel_rfl) y

/-- What case A leaves in accumulator 0: its pieces read back over junk. -/
def sout0_A_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Case A's pieces for accumulator 1 cover it (whole-buffer stores). -/
theorem scover0_A_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1 S1024x1.size (by sl_kernel_rfl) y

/-- What case A leaves in accumulator 1: its pieces read back over junk. -/
def sout0_A_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Case A's pieces for accumulator 2 cover it (whole-buffer stores). -/
theorem scover0_A_2 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1 S1024x1.size (by sl_kernel_rfl) y

/-- What case A leaves in accumulator 2: its pieces read back over junk. -/
def sout0_A_2 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) : Vec F S1024x1 .i32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

/-- Case A's pieces for accumulator 3 cover it (whole-buffer stores). -/
theorem scover0_A_3 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1 S1024x1.size (by sl_kernel_rfl) y

/-- What case A leaves in accumulator 3: its pieces read back over junk. -/
def sout0_A_3 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) : Vec F S1024x1 .i32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

/-- Case B (a middle key tile) stores nothing into the output (the window is idle at its points and not written
    back there): no pieces — a placeholder (junk read back) that nothing consults. -/
def out0_B_6 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x2 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).1)

/-- Case B's pieces for accumulator 0 cover it (whole-buffer stores). -/
theorem scover0_B_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1 S1024x1.size (by sl_kernel_rfl) y

/-- What case B leaves in accumulator 0: its pieces read back over junk. -/
def sout0_B_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1)

/-- Case B's pieces for accumulator 1 cover it (whole-buffer stores). -/
theorem scover0_B_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1 S1024x1.size (by sl_kernel_rfl) y

/-- What case B leaves in accumulator 1: its pieces read back over junk. -/
def sout0_B_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1)

/-- Case B's pieces for accumulator 2 cover it (whole-buffer stores). -/
theorem scover0_B_2 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1 S1024x1.size (by sl_kernel_rfl) y

/-- What case B leaves in accumulator 2: its pieces read back over junk. -/
def sout0_B_2 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x1 .i32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1)

/-- Case B's pieces for accumulator 3 cover it (whole-buffer stores). -/
theorem scover0_B_3 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1 S1024x1.size (by sl_kernel_rfl) y

/-- What case B leaves in accumulator 3: its pieces read back over junk. -/
def sout0_B_3 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x1 .i32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1)

/-- Case C's pieces for the output tile its block (one store of the whole block), so they cover it. -/
theorem cover0_C_6 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x2.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).1 S1024x2.size (by sl_kernel_rfl) y

/-- What case C leaves in the output's staging buffer: its pieces read back over junk. -/
def out0_C_6 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x2 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).1)

/-- Case C's pieces for accumulator 0 cover it (whole-buffer stores). -/
theorem scover0_C_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1 S1024x1.size (by sl_kernel_rfl) y

/-- What case C leaves in accumulator 0: its pieces read back over junk. -/
def sout0_C_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1)

/-- Case C's pieces for accumulator 1 cover it (whole-buffer stores). -/
theorem scover0_C_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1 S1024x1.size (by sl_kernel_rfl) y

/-- What case C leaves in accumulator 1: its pieces read back over junk. -/
def sout0_C_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1)

/-- Case C's pieces for accumulator 2 cover it (whole-buffer stores). -/
theorem scover0_C_2 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1 S1024x1.size (by sl_kernel_rfl) y

/-- What case C leaves in accumulator 2: its pieces read back over junk. -/
def sout0_C_2 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x1 .i32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1)

/-- Case C's pieces for accumulator 3 cover it (whole-buffer stores). -/
theorem scover0_C_3 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1 S1024x1.size (by sl_kernel_rfl) y

/-- What case C leaves in accumulator 3: its pieces read back over junk. -/
def sout0_C_3 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x1 .i32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1)

/-! ## What the output's buffer and the accumulators hold after each point -/

/-- THE ACCUMULATION. What the output's staging buffer and the four accumulators hold after the body at position `n`
    (a tuple: the output, then the accumulators): the case the closed forms select at `n`, run at the point's memrefs
    and input blocks, the accumulators at what this leaves at `n - 1` (nothing touches them between two points).
    An assignment of the conditions no point meets is no case. -/
def outsAt0 (c : Dev nD) : (n : ℕ) → n < cfg0.N → Vec F S1024x2 .f32 × Vec F S1024x1 .f32 × Vec F S1024x1 .f32 × Vec F S1024x1 .i32 × Vec F S1024x1 .i32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 4 = 0 then
      if h1 : (n + 1) % 4 = 3 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 4 = 0) (h1 : ¬t.val % 4 = 3) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every accumulator at anything);
    afterwards each accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2)) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2)) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2.1) ∗ owns (c : Thread nD τ) scM0_3 fullShare ((outsAt0 V c (n - 1) (by omega)).2.2.2.2)) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at `outsAt0`'s first component; the invariant `PhiS`;
    nothing owed; of the one array that two windows read, half a share each, the full share of every other. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The proof data's arrays are the region-entry contents (by the definition of the proof data). -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the windows one by one), -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the inputs' memrefs hold their blocks; the closed forms say which case the point is in;
    so that case's run applies; the invariant hands the body the accumulators at what the point before left (at
    anything at the first point) and the generator register at some state, and takes the accumulators back at this
    point's contents; the output's buffer comes back untouched where the case stores nothing into it, and at the
    stored block where it does; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  rw [show (dat0 V c).leavesExact 3 t = owns (c : Thread nD τ) (ms0_3 t) fullShare ((dat0 V c).after 3 t) from by
        unfold Dat.leavesExact; rw [liveAt0_3 t], after0_3]
  rw [show (dat0 V c).leavesExact 4 t = owns (c : Thread nD τ) (ms0_4 t) fullShare ((dat0 V c).after 4 t) from by
        unfold Dat.leavesExact; rw [liveAt0_4 t], after0_4]
  rw [show (dat0 V c).leavesExact 5 t = owns (c : Thread nD τ) (ms0_5 t) fullShare ((dat0 V c).after 5 t) from by
        unfold Dat.leavesExact; rw [liveAt0_5 t], after0_5]
  by_cases h0 : t.val % 4 = 0
  · by_cases h1 : t.val % 4 = 3
    · exfalso; omega
    · rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold sout0_A_0 sout0_A_1 sout0_A_2 sout0_A_3; (try dsimp only)
      by_cases hz : t.val = 0
      · rw [PhiS_castSucc V c t, PhiS_zero V c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iintro ⟨H0, H1, H2, H3, H4, H5, H6, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    · rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold out0_C_6 sout0_C_0 sout0_C_1 sout0_C_2 sout0_C_3; (try dsimp only)
      have hz : t.val ≠ 0 := fun e => h0 (by rw [e])
      rw [PhiS_castSucc V c t, PhiS_pos V c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%e6, H6⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_C_3 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _ _ _ _ _ _ _ _ _ _)
    · rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold sout0_B_0 sout0_B_1 sout0_B_2 sout0_B_3; (try dsimp only)
      have hz : t.val ≠ 0 := fun e => h0 (by rw [e])
      rw [PhiS_castSucc V c t, PhiS_pos V c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _ _ _).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_B_3 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- The same after the last point. -/
theorem hout0 (c : Dev nD) : (dat0 V c).Φ (Fin.last cfg0.N) ⊢ Pipeline.ΦA spec0 c :=
  Phi_out V c _ (by rw [Fin.val_last]; have : cfg0.N = 32 := N_0; omega)

end Cert.Kernel.Hand

end
-- ==== Proof.K.Launch.lean ====
/-
  The whole run of the program: the host lines before the kernel's region, the region, and the host lines after it,
  composed in order, at any float instance.

  Between two segments the core holds every one of its unscoped buffers whole, at contents named by a fold through
  @main: `W0` the launch memory, `W1` after the seven host lines before the region (the labels reshaped twice, the
  rows' squared norms reshaped twice), `W2` as the region leaves them, `W3` and `W4` after the two stretches of host
  lines that follow.

  The region's seven windows lie on SIX arrays: the query tile and the key tile are both blocks of the embeddings.
  On entering the region the embeddings' buffer, held whole, is therefore split along its share into a left and a
  right half, one for each of the two windows (both only read it); the other five arrays go to their windows whole.
  On leaving the region the two halves hold the same contents — no write-back touches an input's array — and are
  joined again; the output's array holds the write-backs folded, and every other buffer is as the region found it.
  So `W2` is `W1` with the output's buffer replaced.

  No host line and no write-back writes an argument's buffer, so both arguments end as launched: the frame.
-/
import proofs.«108932_j15444702397006_2_alg».proof.Proof.K.Body
import proofs.«108932_j15444702397006_2_alg».proof.Proof.Gen.Kernel.Launch
import proofs.«108932_j15444702397006_2_alg».proof.Proof.Gen.Kernel.Skeleton
import proofs.«108932_j15444702397006_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares
variable (V : (c : Dev nD) → (b : Ref sig .tc) → Buf (Elt F) ((c : Thread nD τ).loc b))

theorem share0_0 (c : Dev nD) : (dat0 V c).share 0 = fullShare.left := rfl
theorem share0_1 (c : Dev nD) : (dat0 V c).share 1 = fullShare.right := rfl
theorem share0_2 (c : Dev nD) : (dat0 V c).share 2 = fullShare := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl

/-- The windows' arrays one by one: the two windows on the embeddings hold a half share each, the others their
    array whole. -/
theorem arrays0_eq (c : Dev nD) (Fa : (w : Fin cfg0.W) → Buf (Elt F) ((cfg0.win w).arr.view.loc (c.tc : Thread nD τ))) :
    ((dat0 V c).arrays Fa : sProp 𝕄)
      = iprop((((c.tc : Thread nD τ).loc main_arg0) ↦{fullShare.left} Fa 0) ∗ (((c.tc : Thread nD τ).loc main_arg0) ↦{fullShare.right} Fa 1)
          ∗ (((c.tc : Thread nD τ).loc main_v4) ↦{fullShare} Fa 2) ∗ (((c.tc : Thread nD τ).loc main_v5) ↦{fullShare} Fa 3)
          ∗ (((c.tc : Thread nD τ).loc main_v0) ↦{fullShare} Fa 4) ∗ (((c.tc : Thread nD τ).loc main_v1) ↦{fullShare} Fa 5)
          ∗ (((c.tc : Thread nD τ).loc main_v6) ↦{fullShare} Fa 6)) := by
  unfold Dat.arrays
  rw [bigSep_W0, share0_0, share0_1, share0_2, share0_3, share0_4, share0_5, share0_6,
    (arr_whole0 0).set_eq_univ, (arr_whole0 2).set_eq_univ, (arr_whole0 3).set_eq_univ,
    (arr_whole0 4).set_eq_univ, (arr_whole0 5).set_eq_univ, (arr_whole0 6).set_eq_univ]

end Shares

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The core's buffers when the region is left: the output's array at what the write-backs folded, every other
    buffer as the region found it. -/
def W2 (c : Dev nD) : Valuation τ sig (Elt F) :=
  Function.update (W1 m ρ c) (Proc.devRef .tc main_v6) ((dat0 (V1 m ρ) c).arrAt 6 cfg0.N)
theorem W2_out (c : Dev nD) : W2 m ρ c (Proc.devRef .tc main_v6) = (dat0 (V1 m ρ) c).arrAt 6 cfg0.N :=
  Function.update_self ..
theorem W2_of_ne (c : Dev nD) (b : Ref sig .tc) (hb : b ≠ main_v6) :
    W2 m ρ c (Proc.devRef .tc b) = W1 m ρ c (Proc.devRef .tc b) :=
  Function.update_of_ne (StableHlo.devRef_ne_of_ne hb) ..
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev W4 : Dev nD → Valuation τ sig (Elt F) := fun c => StableHlo.after hostOps1_1 (W3 m ρ c)

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

theorem arrBufs0_eq (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      = iprop((((c.tc : Thread nD τ).loc main_arg0) ↦{fullShare} V main_arg0) ∗ (((c.tc : Thread nD τ).loc main_v4) ↦{fullShare} V main_v4)
          ∗ (((c.tc : Thread nD τ).loc main_v5) ↦{fullShare} V main_v5) ∗ (((c.tc : Thread nD τ).loc main_v0) ↦{fullShare} V main_v0)
          ∗ (((c.tc : Thread nD τ).loc main_v1) ↦{fullShare} V main_v1) ∗ (((c.tc : Thread nD τ).loc main_v6) ↦{fullShare} V main_v6)) := by
  unfold Pipeline.arrBufs
  exact bigSep_eq_bigSepL_of_eq [main_arg0, main_v4, main_v5, main_v0, main_v1, main_v6] (by decide) (by decide) _

theorem exit0 (c : Dev nD) : (dat0 (V1 m ρ) c).arrAt 0 cfg0.N = W2 m ρ c (Proc.devRef .tc main_arg0) :=
  ((dat0 (V1 m ρ) c).arrAt_in 0 rfl _).trans ((A_eq0 (V1 m ρ) c 0).trans (W2_of_ne m ρ c main_arg0 (by decide)).symm)
theorem exit1 (c : Dev nD) : (dat0 (V1 m ρ) c).arrAt 1 cfg0.N = W2 m ρ c (Proc.devRef .tc main_arg0) :=
  ((dat0 (V1 m ρ) c).arrAt_in 1 rfl _).trans ((A_eq0 (V1 m ρ) c 1).trans (W2_of_ne m ρ c main_arg0 (by decide)).symm)
theorem exit2 (c : Dev nD) : (dat0 (V1 m ρ) c).arrAt 2 cfg0.N = W2 m ρ c (Proc.devRef .tc main_v4) :=
  ((dat0 (V1 m ρ) c).arrAt_in 2 rfl _).trans ((A_eq0 (V1 m ρ) c 2).trans (W2_of_ne m ρ c main_v4 (by decide)).symm)
theorem exit3 (c : Dev nD) : (dat0 (V1 m ρ) c).arrAt 3 cfg0.N = W2 m ρ c (Proc.devRef .tc main_v5) :=
  ((dat0 (V1 m ρ) c).arrAt_in 3 rfl _).trans ((A_eq0 (V1 m ρ) c 3).trans (W2_of_ne m ρ c main_v5 (by decide)).symm)
theorem exit4 (c : Dev nD) : (dat0 (V1 m ρ) c).arrAt 4 cfg0.N = W2 m ρ c (Proc.devRef .tc main_v0) :=
  ((dat0 (V1 m ρ) c).arrAt_in 4 rfl _).trans ((A_eq0 (V1 m ρ) c 4).trans (W2_of_ne m ρ c main_v0 (by decide)).symm)
theorem exit5 (c : Dev nD) : (dat0 (V1 m ρ) c).arrAt 5 cfg0.N = W2 m ρ c (Proc.devRef .tc main_v1) :=
  ((dat0 (V1 m ρ) c).arrAt_in 5 rfl _).trans ((A_eq0 (V1 m ρ) c 5).trans (W2_of_ne m ρ c main_v1 (by decide)).symm)

theorem rest_eq (c : Dev nD) :
    (Pipeline.unscopedRest (Ix := Unit) (Name := ℕ) (U := UR sig nD τ) (Lvl := ℕ) spec0 c (V2 m ρ c) : sProp 𝕄)
      = Pipeline.unscopedRest spec0 c (V1 m ρ c) := by
  unfold Pipeline.unscopedRest
  refine bigSep_congr fun b hb => ?_
  have hne : b ≠ main_v6 := fun e => (Finset.mem_sdiff.mp hb).2 (Finset.mem_image.mpr ⟨6, Finset.mem_univ _, e ▸ rfl⟩)
  show ((c.tc : Thread nD τ).loc b ↦{fullShare} W2 m ρ c (Proc.devRef .tc b) : sProp 𝕄) = _
  rw [W2_of_ne m ρ c b hne]

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (StableHlo.held (c : Thread nD τ) (Pipeline.ucRefs τ sig) (W1 m ρ c) : sProp 𝕄)
        ⊢ iprop((pdats m ρ 0 c).arrays ((pdats m ρ 0 c).arrAt · 0) ∗ Pipeline.unscopedRest spec0 c (V1 m ρ c)) := by
      rw [← Pipeline.unscopedBufs_held c (W1 m ρ c), Pipeline.unscopedBufs_split₀ cfgs 0 winFacts₀0.arr_unscoped c, arrBufs0_eq,
        show (pdats m ρ 0 c).arrays _ = _ from arrays0_eq (V1 m ρ) c _]
      have hs : (((c.tc : Thread nD τ).loc main_arg0) ↦{fullShare} W1 m ρ c (Proc.devRef .tc main_arg0) : sProp 𝕄)
          ⊣⊢ iprop((((c.tc : Thread nD τ).loc main_arg0) ↦{fullShare.left} W1 m ρ c (Proc.devRef .tc main_arg0))
            ∗ (((c.tc : Thread nD τ).loc main_arg0) ↦{fullShare.right} W1 m ρ c (Proc.devRef .tc main_arg0))) :=
        pointsTo_share (PosShare.mem_left_op_right fullShare)
      iintro ⟨⟨Ha0, Hv4, Hv5, Hv0, Hv1, Hv6⟩, Hrest⟩
      ihave Hs := hs.1 $$ Ha0
      icases Hs with ⟨Hl, Hr⟩
      isplitr [Hrest]
      · isplitl [Hl]; · iexact Hl
        isplitl [Hr]; · iexact Hr
        isplitl [Hv4]; · iexact Hv4
        isplitl [Hv5]; · iexact Hv5
        isplitl [Hv0]; · iexact Hv0
        isplitl [Hv1]; · iexact Hv1
        iexact Hv6
      · iexact Hrest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (StableHlo.held (c : Thread nD τ) (Pipeline.ucRefs τ sig) (W2 m ρ c) : sProp 𝕄) := by
      rw [← Pipeline.unscopedBufs_held c (W2 m ρ c), Pipeline.unscopedBufs_split₀ cfgs 0 winFacts₀0.arr_unscoped c, arrBufs0_eq,
        show (pdats m ρ 0 c).arrays _ = _ from arrays0_eq (V1 m ρ) c _, rest_eq m ρ c]
      dsimp only
      rw [show (pdats m ρ 0 c).arrAt 0 cfg0.N = W2 m ρ c (Proc.devRef .tc main_arg0) from exit0 m ρ c,
        show (pdats m ρ 0 c).arrAt 1 cfg0.N = W2 m ρ c (Proc.devRef .tc main_arg0) from exit1 m ρ c,
        show (pdats m ρ 0 c).arrAt 2 cfg0.N = W2 m ρ c (Proc.devRef .tc main_v4) from exit2 m ρ c,
        show (pdats m ρ 0 c).arrAt 3 cfg0.N = W2 m ρ c (Proc.devRef .tc main_v5) from exit3 m ρ c,
        show (pdats m ρ 0 c).arrAt 4 cfg0.N = W2 m ρ c (Proc.devRef .tc main_v0) from exit4 m ρ c,
        show (pdats m ρ 0 c).arrAt 5 cfg0.N = W2 m ρ c (Proc.devRef .tc main_v1) from exit5 m ρ c,
        show (pdats m ρ 0 c).arrAt 6 cfg0.N = W2 m ρ c (Proc.devRef .tc main_v6) from (W2_out m ρ c).symm]
      have hs : (((c.tc : Thread nD τ).loc main_arg0) ↦{fullShare} W2 m ρ c (Proc.devRef .tc main_arg0) : sProp 𝕄)
          ⊣⊢ iprop((((c.tc : Thread nD τ).loc main_arg0) ↦{fullShare.left} W2 m ρ c (Proc.devRef .tc main_arg0))
            ∗ (((c.tc : Thread nD τ).loc main_arg0) ↦{fullShare.right} W2 m ρ c (Proc.devRef .tc main_arg0))) :=
        pointsTo_share (PosShare.mem_left_op_right fullShare)
      iintro ⟨⟨Hl, Hr, Hv4, Hv5, Hv0, Hv1, Hv6⟩, Hrest⟩
      ihave Ha0 := hs.2 $$ [Hl Hr]
      · isplitl [Hl] <;> iassumption
      isplitr [Hrest]
      · isplitl [Ha0]; · iexact Ha0
        isplitl [Hv4]; · iexact Hv4
        isplitl [Hv5]; · iexact Hv5
        isplitl [Hv0]; · iexact Hv0
        isplitl [Hv1]; · iexact Hv1
        iexact Hv6
      · iexact Hrest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)) ]
theorem main_run (c : Dev nD) : main (F := F) c = Pipeline.Seg.run (segs m ρ) := (main_chain c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

/-- No host line writes the embeddings, and the region only reads them. -/
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := by
          show StableHlo.after hostOps1_1 (W3 m ρ c) (Proc.devRef .tc main_arg0) = _
          after_results
    _ = W2 m ρ c (Proc.devRef .tc main_arg0) := by
          show StableHlo.after hostOps1 (W2 m ρ c) (Proc.devRef .tc main_arg0) = _
          after_results
    _ = W1 m ρ c (Proc.devRef .tc main_arg0) := W2_of_ne m ρ c main_arg0 (by decide)
    _ = W0 m ρ c (Proc.devRef .tc main_arg0) := by
          show StableHlo.after hostOps0 (W0 m ρ c) (Proc.devRef .tc main_arg0) = _
          after_results
    _ = m ((c : Thread nD τ).loc main_arg0) := rfl

/-- Nor the labels. -/
theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := by
          show StableHlo.after hostOps1_1 (W3 m ρ c) (Proc.devRef .tc main_arg1) = _
          after_results
    _ = W2 m ρ c (Proc.devRef .tc main_arg1) := by
          show StableHlo.after hostOps1 (W2 m ρ c) (Proc.devRef .tc main_arg1) = _
          after_results
    _ = W1 m ρ c (Proc.devRef .tc main_arg1) := W2_of_ne m ρ c main_arg1 (by decide)
    _ = W0 m ρ c (Proc.devRef .tc main_arg1) := by
          show StableHlo.after hostOps0 (W0 m ρ c) (Proc.devRef .tc main_arg1) = _
          after_results
    _ = m ((c : Thread nD τ).loc main_arg1) := rfl

/-- The run with the result and both arguments read off the last valuation. -/
theorem run_result : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v16 (by decide)),
     (h c _ (mem_uc main_arg0 (by decide))).trans (W4_arg0 m ρ c),
     (h c _ (mem_uc main_arg1 (by decide))).trans (W4_arg1 m ρ c)⟩) (run_main m ρ)

/-- THE FRAME: every weakly fair execution terminates, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.Kernel.Hand
end
-- ==== Proof.KI.Kit.lean ====
/- The kernel body's shared vocabulary: the two branch conditions of the body in closed form over the grid,
   where the output window is idle, the staging memrefs the pipeline passes at a point, the four accumulators as
   whole memrefs, each window's block read off the contents `V` the region finds in the arrays, and the region
   invariant with the four accumulators owned. -/
import proofs.«108932_j15444702397006_2_alg».proof.Proof.Gen.KernelIdeal.Launch
import proofs.«108932_j15444702397006_2_alg».proof.Proof.Gen.KernelIdeal.Skeleton
import proofs.«108932_j15444702397006_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- the blocks have production extents: 1024, 2048 and 8192 along the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is the region-entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (the reset of the accumulators), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4): the first key tile of each query tile. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second conditional (the finalization), from the grid coordinates. -/
abbrev cond0_1 (i : grid0.Coords) : Prop := k0_cond2 i = 1#1
/-- It holds at the points ≡ 3 (mod 4): the last key tile of each query tile. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- At the points of case A the output window is idle: the case stores nothing into it. -/
theorem idleAt0_6_A : ∀ t : Fin cfg0.N, cond0_0 (grid0.coords t) → ¬cond0_1 (grid0.coords t) → cfg0.idle 6 (grid0.coords t) = true := by decide +kernel
/-- At the points of case A the output window's block is not written back. -/
theorem noFlush0_6_A : ∀ t : Fin cfg0.N, cond0_0 (grid0.coords t) → ¬cond0_1 (grid0.coords t) → (cfg0.win 6).flush t = false := by decide +kernel
/-- At the points of case B the output window is idle: the case stores nothing into it. -/
theorem idleAt0_6_B : ∀ t : Fin cfg0.N, ¬cond0_0 (grid0.coords t) → ¬cond0_1 (grid0.coords t) → cfg0.idle 6 (grid0.coords t) = true := by decide +kernel
/-- At the points of case B the output window's block is not written back. -/
theorem noFlush0_6_B : ∀ t : Fin cfg0.N, ¬cond0_0 (grid0.coords t) → ¬cond0_1 (grid0.coords t) → (cfg0.win 6).flush t = false := by decide +kernel
/-- At the points of case C the output window is live: the case stores into it. -/
theorem liveAt0_6_C : ∀ t : Fin cfg0.N, ¬cond0_0 (grid0.coords t) → cond0_1 (grid0.coords t) → cfg0.idle 6 (grid0.coords t) = false := by decide +kernel

/-! ## The memrefs the body is called with -/

/-- One staging buffer of the output window, through which its contents are stated (the choice does not matter). -/
abbrev VO0_6 : View sig .tc .vmem S1024x2 .f32 := (Memref.whole cc0_stg6_0 : Memref sig .tc .vmem S1024x2 .f32).view
/-- Window 0's current staging memref at point `t`, as the pipeline passes it, and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
/-- Window 1's current staging memref at point `t`, as the pipeline passes it, and its wholeness. -/
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
/-- Window 2's current staging memref at point `t`, as the pipeline passes it, and its wholeness. -/
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- Window 3's current staging memref at point `t`, as the pipeline passes it, and its wholeness. -/
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
/-- Window 4's current staging memref at point `t`, as the pipeline passes it, and its wholeness. -/
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
/-- Window 5's current staging memref at point `t`, as the pipeline passes it, and its wholeness. -/
abbrev ms0_5 (t : Fin cfg0.N) : Memref sig .tc .vmem S1x2048 .i32 := win0_5.stage (cfg0.slots t 5)
abbrev hs0_5 (t : Fin cfg0.N) : (ms0_5 t).IsWhole := hstage0_5 ((cfg0.slots t 5).cast nbuf0_5)
/-- Window 6's current staging memref at point `t`, as the pipeline passes it, and its wholeness. -/
abbrev ms0_6 (t : Fin cfg0.N) : Memref sig .tc .vmem S1024x2 .f32 := win0_6.stage (cfg0.slots t 6)
abbrev hs0_6 (t : Fin cfg0.N) : (ms0_6 t).IsWhole := hstage0_6 ((cfg0.slots t 6).cast nbuf0_6)
/-- Accumulator 0 (the running maximum over positives): a whole scoped buffer of the kernel's own, carried between points. -/
abbrev scM0_0 : Memref sig .tc .vmem S1024x1 .f32 := Memref.whole cc0_scratch0
/-- The same as a view: what it holds is stated through it. -/
abbrev VS0_0 : View sig .tc .vmem S1024x1 .f32 := scM0_0.view
/-- Accumulator 1 (the running minimum over negatives): a whole scoped buffer of the kernel's own, carried between points. -/
abbrev scM0_1 : Memref sig .tc .vmem S1024x1 .f32 := Memref.whole cc0_scratch1
/-- The same as a view: what it holds is stated through it. -/
abbrev VS0_1 : View sig .tc .vmem S1024x1 .f32 := scM0_1.view
/-- Accumulator 2 (the flag that a positive was met): a whole scoped buffer of the kernel's own, carried between points. -/
abbrev scM0_2 : Memref sig .tc .vmem S1024x1 .i32 := Memref.whole cc0_scratch2
/-- The same as a view: what it holds is stated through it. -/
abbrev VS0_2 : View sig .tc .vmem S1024x1 .i32 := scM0_2.view
/-- Accumulator 3 (the flag that a negative was met): a whole scoped buffer of the kernel's own, carried between points. -/
abbrev scM0_3 : Memref sig .tc .vmem S1024x1 .i32 := Memref.whole cc0_scratch3
/-- The same as a view: what it holds is stated through it. -/
abbrev VS0_3 : View sig .tc .vmem S1024x1 .i32 := scM0_3.view

/-- The region invariant with the four accumulators as memrefs owned at some contents: what the body obligation
    hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.KI.RunA.lean ====
/- The kernel body's run in case A: the body's triple over its memory operations, the pieces each buffer ends
   with being the witness. The cases are told apart by the point's residue modulo 4. -/
import proofs.«108932_j15444702397006_2_alg».proof.Proof.KI.Kit

-- the blocks have production extents: 1024, 2048 and 8192 along the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

-- (the body is long: 149 statements over eleven buffers)
set_option maxHeartbeats 4000000 in
/-- What the body's stores leave in the output's staging memref and in the four accumulators, as pieces (last
    first), IN CASE A (the first key tile of a query tile: the accumulators are reset, then accumulate), WITH the proof that on whole memrefs — the six inputs' at their contents
    `x·`, the output's, into which the case stores nothing, at contents `xi6` handed back untouched, the accumulators at anything — the body runs to the continuation holding
    the inputs' as they were and each accumulator with its pieces written. -/
noncomputable def kernelRun0_A (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) :
    Σ' (L6 : List (View.Piece (Elt F) S1024x2 .f32)) (LS0 : List (View.Piece (Elt F) S1024x1 .f32)) (LS1 : List (View.Piece (Elt F) S1024x1 .f32)) (LS2 : List (View.Piece (Elt F) S1024x1 .i32)), { LS3 : List (View.Piece (Elt F) S1024x1 .i32) //
      ∀ (xi6 : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0_triplet_kernel i arg2 harg2 arg3 harg3 arg4 harg4 arg5 harg5 arg6 harg6 arg7 harg7 arg8 harg8 arg9 harg9 arg10 harg10 arg11 harg11 arg12 harg12) K } := by
  refine ⟨[], ?_, ?_, ?_, ?_, fun xi6 E K => ?run⟩
  case run =>
    simp only [cc0_triplet_kernel_eq_skeleton]; unfold cc0_triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Hand

end
-- ==== Proof.KI.RunB.lean ====
/- The kernel body's run in case B: the body's triple over its memory operations, the pieces each buffer ends
   with being the witness. The cases are told apart by the point's residue modulo 4. -/
import proofs.«108932_j15444702397006_2_alg».proof.Proof.KI.RunA

-- the blocks have production extents: 1024, 2048 and 8192 along the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

-- (the body is long: 149 statements over eleven buffers)
set_option maxHeartbeats 4000000 in
/-- What the body's stores leave in the output's staging memref and in the four accumulators, as pieces (last
    first), IN CASE B (a middle key tile: the accumulators go on from what the point before left), WITH the proof that on whole memrefs — the six inputs' at their contents
    `x·`, the output's, into which the case stores nothing, at contents `xi6` handed back untouched, the accumulators at the contents `xs·` the point before left — the body runs to the continuation holding
    the inputs' as they were and each accumulator with its pieces written. -/
noncomputable def kernelRun0_B (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) :
    Σ' (L6 : List (View.Piece (Elt F) S1024x2 .f32)) (LS0 : List (View.Piece (Elt F) S1024x1 .f32)) (LS1 : List (View.Piece (Elt F) S1024x1 .f32)) (LS2 : List (View.Piece (Elt F) S1024x1 .i32)), { LS3 : List (View.Piece (Elt F) S1024x1 .i32) //
      ∀ (xi6 : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0_triplet_kernel i arg2 harg2 arg3 harg3 arg4 harg4 arg5 harg5 arg6 harg6 arg7 harg7 arg8 harg8 arg9 harg9 arg10 harg10 arg11 harg11 arg12 harg12) K } := by
  refine ⟨[], ?_, ?_, ?_, ?_, fun xi6 E K => ?run⟩
  case run =>
    simp only [cc0_triplet_kernel_eq_skeleton]; unfold cc0_triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Hand

end
-- ==== Proof.KI.RunC.lean ====
/- The kernel body's run in case C: the body's triple over its memory operations, the pieces each buffer ends
   with being the witness. The cases are told apart by the point's residue modulo 4. -/
import proofs.«108932_j15444702397006_2_alg».proof.Proof.KI.RunB

-- the blocks have production extents: 1024, 2048 and 8192 along the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

-- (the body is long: 149 statements over eleven buffers)
set_option maxHeartbeats 4000000 in
/-- What the body's stores leave in the output's staging memref and in the four accumulators, as pieces (last
    first), IN CASE C (the last key tile of a query tile: the accumulators go on, then the output block is computed from them and stored), WITH the proof that on whole memrefs — the six inputs' at their contents
    `x·`, the output's at anything, the accumulators at the contents `xs·` the point before left — the body runs to the continuation holding
    the inputs' as they were, the output's with its pieces written and each accumulator with its pieces written. -/
noncomputable def kernelRun0_C (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) :
    Σ' (L6 : List (View.Piece (Elt F) S1024x2 .f32)) (LS0 : List (View.Piece (Elt F) S1024x1 .f32)) (LS1 : List (View.Piece (Elt F) S1024x1 .f32)) (LS2 : List (View.Piece (Elt F) S1024x1 .i32)), { LS3 : List (View.Piece (Elt F) S1024x1 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0_triplet_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_triplet_kernel_eq_skeleton]; unfold cc0_triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]; · iexists _; iexact HS2
    iexists _; iexact HS3

end Cert.KernelIdeal.Hand

end
-- ==== Proof.KI.Body.lean ====
/- The kernel body at every point of the grid: what each case of the body leaves in the output's staging buffer and
   in the four accumulators, what they hold after each point (by recursion on the point: a query tile's first
   key tile resets the accumulators, the next ones go on from what the point before left, the last one also
   stores the output block), the pipeline's proof data, and the body obligation. -/
import proofs.«108932_j15444702397006_2_alg».proof.Proof.KI.RunC

-- the blocks have production extents: 1024, 2048 and 8192 along the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! ## What each case leaves -/

/-- Case A (the first key tile of a query tile) stores nothing into the output (the window is idle at its points and not written
    back there): no pieces — a placeholder (junk read back) that nothing consults. -/
def out0_A_6 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) : Vec F S1024x2 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1)

/-- Case A's pieces for accumulator 0 cover it (whole-buffer stores). -/
theorem scover0_A_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1 S1024x1.size (by sl_kernel_rfl) y

/-- What case A leaves in accumulator 0: its pieces read back over junk. -/
def sout0_A_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Case A's pieces for accumulator 1 cover it (whole-buffer stores). -/
theorem scover0_A_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1 S1024x1.size (by sl_kernel_rfl) y

/-- What case A leaves in accumulator 1: its pieces read back over junk. -/
def sout0_A_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Case A's pieces for accumulator 2 cover it (whole-buffer stores). -/
theorem scover0_A_2 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1 S1024x1.size (by sl_kernel_rfl) y

/-- What case A leaves in accumulator 2: its pieces read back over junk. -/
def sout0_A_2 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) : Vec F S1024x1 .i32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

/-- Case A's pieces for accumulator 3 cover it (whole-buffer stores). -/
theorem scover0_A_3 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1 S1024x1.size (by sl_kernel_rfl) y

/-- What case A leaves in accumulator 3: its pieces read back over junk. -/
def sout0_A_3 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) : Vec F S1024x1 .i32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

/-- Case B (a middle key tile) stores nothing into the output (the window is idle at its points and not written
    back there): no pieces — a placeholder (junk read back) that nothing consults. -/
def out0_B_6 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x2 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).1)

/-- Case B's pieces for accumulator 0 cover it (whole-buffer stores). -/
theorem scover0_B_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1 S1024x1.size (by sl_kernel_rfl) y

/-- What case B leaves in accumulator 0: its pieces read back over junk. -/
def sout0_B_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1)

/-- Case B's pieces for accumulator 1 cover it (whole-buffer stores). -/
theorem scover0_B_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1 S1024x1.size (by sl_kernel_rfl) y

/-- What case B leaves in accumulator 1: its pieces read back over junk. -/
def sout0_B_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1)

/-- Case B's pieces for accumulator 2 cover it (whole-buffer stores). -/
theorem scover0_B_2 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1 S1024x1.size (by sl_kernel_rfl) y

/-- What case B leaves in accumulator 2: its pieces read back over junk. -/
def sout0_B_2 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x1 .i32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1)

/-- Case B's pieces for accumulator 3 cover it (whole-buffer stores). -/
theorem scover0_B_3 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1 S1024x1.size (by sl_kernel_rfl) y

/-- What case B leaves in accumulator 3: its pieces read back over junk. -/
def sout0_B_3 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x1 .i32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1)

/-- Case C's pieces for the output tile its block (one store of the whole block), so they cover it. -/
theorem cover0_C_6 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x2.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).1 S1024x2.size (by sl_kernel_rfl) y

/-- What case C leaves in the output's staging buffer: its pieces read back over junk. -/
def out0_C_6 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x2 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).1)

/-- Case C's pieces for accumulator 0 cover it (whole-buffer stores). -/
theorem scover0_C_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1 S1024x1.size (by sl_kernel_rfl) y

/-- What case C leaves in accumulator 0: its pieces read back over junk. -/
def sout0_C_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1)

/-- Case C's pieces for accumulator 1 cover it (whole-buffer stores). -/
theorem scover0_C_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1 S1024x1.size (by sl_kernel_rfl) y

/-- What case C leaves in accumulator 1: its pieces read back over junk. -/
def sout0_C_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1)

/-- Case C's pieces for accumulator 2 cover it (whole-buffer stores). -/
theorem scover0_C_2 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1 S1024x1.size (by sl_kernel_rfl) y

/-- What case C leaves in accumulator 2: its pieces read back over junk. -/
def sout0_C_2 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x1 .i32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1)

/-- Case C's pieces for accumulator 3 cover it (whole-buffer stores). -/
theorem scover0_C_3 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1 S1024x1.size (by sl_kernel_rfl) y

/-- What case C leaves in accumulator 3: its pieces read back over junk. -/
def sout0_C_3 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) : Vec F S1024x1 .i32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1)

/-! ## What the output's buffer and the accumulators hold after each point -/

/-- THE ACCUMULATION. What the output's staging buffer and the four accumulators hold after the body at position `n`
    (a tuple: the output, then the accumulators): the case the closed forms select at `n`, run at the point's memrefs
    and input blocks, the accumulators at what this leaves at `n - 1` (nothing touches them between two points).
    An assignment of the conditions no point meets is no case. -/
def outsAt0 (c : Dev nD) : (n : ℕ) → n < cfg0.N → Vec F S1024x2 .f32 × Vec F S1024x1 .f32 × Vec F S1024x1 .f32 × Vec F S1024x1 .i32 × Vec F S1024x1 .i32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 4 = 0 then
      if h1 : (n + 1) % 4 = 3 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 4 = 0) (h1 : ¬t.val % 4 = 3) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every accumulator at anything);
    afterwards each accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2)) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2)) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2.1) ∗ owns (c : Thread nD τ) scM0_3 fullShare ((outsAt0 V c (n - 1) (by omega)).2.2.2.2)) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at `outsAt0`'s first component; the invariant `PhiS`;
    nothing owed; of the one array that two windows read, half a share each, the full share of every other. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The proof data's arrays are the region-entry contents (by the definition of the proof data). -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the windows one by one), -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the inputs' memrefs hold their blocks; the closed forms say which case the point is in;
    so that case's run applies; the invariant hands the body the accumulators at what the point before left (at
    anything at the first point) and the generator register at some state, and takes the accumulators back at this
    point's contents; the output's buffer comes back untouched where the case stores nothing into it, and at the
    stored block where it does; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  rw [show (dat0 V c).leavesExact 3 t = owns (c : Thread nD τ) (ms0_3 t) fullShare ((dat0 V c).after 3 t) from by
        unfold Dat.leavesExact; rw [liveAt0_3 t], after0_3]
  rw [show (dat0 V c).leavesExact 4 t = owns (c : Thread nD τ) (ms0_4 t) fullShare ((dat0 V c).after 4 t) from by
        unfold Dat.leavesExact; rw [liveAt0_4 t], after0_4]
  rw [show (dat0 V c).leavesExact 5 t = owns (c : Thread nD τ) (ms0_5 t) fullShare ((dat0 V c).after 5 t) from by
        unfold Dat.leavesExact; rw [liveAt0_5 t], after0_5]
  by_cases h0 : t.val % 4 = 0
  · by_cases h1 : t.val % 4 = 3
    · exfalso; omega
    · rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold sout0_A_0 sout0_A_1 sout0_A_2 sout0_A_3; (try dsimp only)
      by_cases hz : t.val = 0
      · rw [PhiS_castSucc V c t, PhiS_zero V c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iintro ⟨H0, H1, H2, H3, H4, H5, H6, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    · rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold out0_C_6 sout0_C_0 sout0_C_1 sout0_C_2 sout0_C_3; (try dsimp only)
      have hz : t.val ≠ 0 := fun e => h0 (by rw [e])
      rw [PhiS_castSucc V c t, PhiS_pos V c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%e6, H6⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_C_3 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _ _ _ _ _ _ _ _ _ _)
    · rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold sout0_B_0 sout0_B_1 sout0_B_2 sout0_B_3; (try dsimp only)
      have hz : t.val ≠ 0 := fun e => h0 (by rw [e])
      rw [PhiS_castSucc V c t, PhiS_pos V c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _ _ _).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_B_3 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- The same after the last point. -/
theorem hout0 (c : Dev nD) : (dat0 V c).Φ (Fin.last cfg0.N) ⊢ Pipeline.ΦA spec0 c :=
  Phi_out V c _ (by rw [Fin.val_last]; have : cfg0.N = 32 := N_0; omega)

end Cert.KernelIdeal.Hand

end
-- ==== Proof.KI.Launch.lean ====
/-
  The whole run of the program: the host lines before the kernel's region, the region, and the host lines after it,
  composed in order, at any float instance.

  Between two segments the core holds every one of its unscoped buffers whole, at contents named by a fold through
  @main: `W0` the launch memory, `W1` after the seven host lines before the region (the labels reshaped twice, the
  rows' squared norms reshaped twice), `W2` as the region leaves them, `W3` and `W4` after the two stretches of host
  lines that follow.

  The region's seven windows lie on SIX arrays: the query tile and the key tile are both blocks of the embeddings.
  On entering the region the embeddings' buffer, held whole, is therefore split along its share into a left and a
  right half, one for each of the two windows (both only read it); the other five arrays go to their windows whole.
  On leaving the region the two halves hold the same contents — no write-back touches an input's array — and are
  joined again; the output's array holds the write-backs folded, and every other buffer is as the region found it.
  So `W2` is `W1` with the output's buffer replaced.

  No host line and no write-back writes an argument's buffer, so both arguments end as launched: the frame.
-/
import proofs.«108932_j15444702397006_2_alg».proof.Proof.KI.Body
import proofs.«108932_j15444702397006_2_alg».proof.Proof.Gen.KernelIdeal.Launch
import proofs.«108932_j15444702397006_2_alg».proof.Proof.Gen.KernelIdeal.Skeleton
import proofs.«108932_j15444702397006_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares
variable (V : (c : Dev nD) → (b : Ref sig .tc) → Buf (Elt F) ((c : Thread nD τ).loc b))

theorem share0_0 (c : Dev nD) : (dat0 V c).share 0 = fullShare.left := rfl
theorem share0_1 (c : Dev nD) : (dat0 V c).share 1 = fullShare.right := rfl
theorem share0_2 (c : Dev nD) : (dat0 V c).share 2 = fullShare := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl

/-- The windows' arrays one by one: the two windows on the embeddings hold a half share each, the others their
    array whole. -/
theorem arrays0_eq (c : Dev nD) (Fa : (w : Fin cfg0.W) → Buf (Elt F) ((cfg0.win w).arr.view.loc (c.tc : Thread nD τ))) :
    ((dat0 V c).arrays Fa : sProp 𝕄)
      = iprop((((c.tc : Thread nD τ).loc main_arg0) ↦{fullShare.left} Fa 0) ∗ (((c.tc : Thread nD τ).loc main_arg0) ↦{fullShare.right} Fa 1)
          ∗ (((c.tc : Thread nD τ).loc main_v4) ↦{fullShare} Fa 2) ∗ (((c.tc : Thread nD τ).loc main_v5) ↦{fullShare} Fa 3)
          ∗ (((c.tc : Thread nD τ).loc main_v0) ↦{fullShare} Fa 4) ∗ (((c.tc : Thread nD τ).loc main_v1) ↦{fullShare} Fa 5)
          ∗ (((c.tc : Thread nD τ).loc main_v6) ↦{fullShare} Fa 6)) := by
  unfold Dat.arrays
  rw [bigSep_W0, share0_0, share0_1, share0_2, share0_3, share0_4, share0_5, share0_6,
    (arr_whole0 0).set_eq_univ, (arr_whole0 2).set_eq_univ, (arr_whole0 3).set_eq_univ,
    (arr_whole0 4).set_eq_univ, (arr_whole0 5).set_eq_univ, (arr_whole0 6).set_eq_univ]

end Shares

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The core's buffers when the region is left: the output's array at what the write-backs folded, every other
    buffer as the region found it. -/
def W2 (c : Dev nD) : Valuation τ sig (Elt F) :=
  Function.update (W1 m ρ c) (Proc.devRef .tc main_v6) ((dat0 (V1 m ρ) c).arrAt 6 cfg0.N)
theorem W2_out (c : Dev nD) : W2 m ρ c (Proc.devRef .tc main_v6) = (dat0 (V1 m ρ) c).arrAt 6 cfg0.N :=
  Function.update_self ..
theorem W2_of_ne (c : Dev nD) (b : Ref sig .tc) (hb : b ≠ main_v6) :
    W2 m ρ c (Proc.devRef .tc b) = W1 m ρ c (Proc.devRef .tc b) :=
  Function.update_of_ne (StableHlo.devRef_ne_of_ne hb) ..
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev W4 : Dev nD → Valuation τ sig (Elt F) := fun c => StableHlo.after hostOps1_1 (W3 m ρ c)

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

theorem arrBufs0_eq (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      = iprop((((c.tc : Thread nD τ).loc main_arg0) ↦{fullShare} V main_arg0) ∗ (((c.tc : Thread nD τ).loc main_v4) ↦{fullShare} V main_v4)
          ∗ (((c.tc : Thread nD τ).loc main_v5) ↦{fullShare} V main_v5) ∗ (((c.tc : Thread nD τ).loc main_v0) ↦{fullShare} V main_v0)
          ∗ (((c.tc : Thread nD τ).loc main_v1) ↦{fullShare} V main_v1) ∗ (((c.tc : Thread nD τ).loc main_v6) ↦{fullShare} V main_v6)) := by
  unfold Pipeline.arrBufs
  exact bigSep_eq_bigSepL_of_eq [main_arg0, main_v4, main_v5, main_v0, main_v1, main_v6] (by decide) (by decide) _

theorem exit0 (c : Dev nD) : (dat0 (V1 m ρ) c).arrAt 0 cfg0.N = W2 m ρ c (Proc.devRef .tc main_arg0) :=
  ((dat0 (V1 m ρ) c).arrAt_in 0 rfl _).trans ((A_eq0 (V1 m ρ) c 0).trans (W2_of_ne m ρ c main_arg0 (by decide)).symm)
theorem exit1 (c : Dev nD) : (dat0 (V1 m ρ) c).arrAt 1 cfg0.N = W2 m ρ c (Proc.devRef .tc main_arg0) :=
  ((dat0 (V1 m ρ) c).arrAt_in 1 rfl _).trans ((A_eq0 (V1 m ρ) c 1).trans (W2_of_ne m ρ c main_arg0 (by decide)).symm)
theorem exit2 (c : Dev nD) : (dat0 (V1 m ρ) c).arrAt 2 cfg0.N = W2 m ρ c (Proc.devRef .tc main_v4) :=
  ((dat0 (V1 m ρ) c).arrAt_in 2 rfl _).trans ((A_eq0 (V1 m ρ) c 2).trans (W2_of_ne m ρ c main_v4 (by decide)).symm)
theorem exit3 (c : Dev nD) : (dat0 (V1 m ρ) c).arrAt 3 cfg0.N = W2 m ρ c (Proc.devRef .tc main_v5) :=
  ((dat0 (V1 m ρ) c).arrAt_in 3 rfl _).trans ((A_eq0 (V1 m ρ) c 3).trans (W2_of_ne m ρ c main_v5 (by decide)).symm)
theorem exit4 (c : Dev nD) : (dat0 (V1 m ρ) c).arrAt 4 cfg0.N = W2 m ρ c (Proc.devRef .tc main_v0) :=
  ((dat0 (V1 m ρ) c).arrAt_in 4 rfl _).trans ((A_eq0 (V1 m ρ) c 4).trans (W2_of_ne m ρ c main_v0 (by decide)).symm)
theorem exit5 (c : Dev nD) : (dat0 (V1 m ρ) c).arrAt 5 cfg0.N = W2 m ρ c (Proc.devRef .tc main_v1) :=
  ((dat0 (V1 m ρ) c).arrAt_in 5 rfl _).trans ((A_eq0 (V1 m ρ) c 5).trans (W2_of_ne m ρ c main_v1 (by decide)).symm)

theorem rest_eq (c : Dev nD) :
    (Pipeline.unscopedRest (Ix := Unit) (Name := ℕ) (U := UR sig nD τ) (Lvl := ℕ) spec0 c (V2 m ρ c) : sProp 𝕄)
      = Pipeline.unscopedRest spec0 c (V1 m ρ c) := by
  unfold Pipeline.unscopedRest
  refine bigSep_congr fun b hb => ?_
  have hne : b ≠ main_v6 := fun e => (Finset.mem_sdiff.mp hb).2 (Finset.mem_image.mpr ⟨6, Finset.mem_univ _, e ▸ rfl⟩)
  show ((c.tc : Thread nD τ).loc b ↦{fullShare} W2 m ρ c (Proc.devRef .tc b) : sProp 𝕄) = _
  rw [W2_of_ne m ρ c b hne]

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (StableHlo.held (c : Thread nD τ) (Pipeline.ucRefs τ sig) (W1 m ρ c) : sProp 𝕄)
        ⊢ iprop((pdats m ρ 0 c).arrays ((pdats m ρ 0 c).arrAt · 0) ∗ Pipeline.unscopedRest spec0 c (V1 m ρ c)) := by
      rw [← Pipeline.unscopedBufs_held c (W1 m ρ c), Pipeline.unscopedBufs_split₀ cfgs 0 winFacts₀0.arr_unscoped c, arrBufs0_eq,
        show (pdats m ρ 0 c).arrays _ = _ from arrays0_eq (V1 m ρ) c _]
      have hs : (((c.tc : Thread nD τ).loc main_arg0) ↦{fullShare} W1 m ρ c (Proc.devRef .tc main_arg0) : sProp 𝕄)
          ⊣⊢ iprop((((c.tc : Thread nD τ).loc main_arg0) ↦{fullShare.left} W1 m ρ c (Proc.devRef .tc main_arg0))
            ∗ (((c.tc : Thread nD τ).loc main_arg0) ↦{fullShare.right} W1 m ρ c (Proc.devRef .tc main_arg0))) :=
        pointsTo_share (PosShare.mem_left_op_right fullShare)
      iintro ⟨⟨Ha0, Hv4, Hv5, Hv0, Hv1, Hv6⟩, Hrest⟩
      ihave Hs := hs.1 $$ Ha0
      icases Hs with ⟨Hl, Hr⟩
      isplitr [Hrest]
      · isplitl [Hl]; · iexact Hl
        isplitl [Hr]; · iexact Hr
        isplitl [Hv4]; · iexact Hv4
        isplitl [Hv5]; · iexact Hv5
        isplitl [Hv0]; · iexact Hv0
        isplitl [Hv1]; · iexact Hv1
        iexact Hv6
      · iexact Hrest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (StableHlo.held (c : Thread nD τ) (Pipeline.ucRefs τ sig) (W2 m ρ c) : sProp 𝕄) := by
      rw [← Pipeline.unscopedBufs_held c (W2 m ρ c), Pipeline.unscopedBufs_split₀ cfgs 0 winFacts₀0.arr_unscoped c, arrBufs0_eq,
        show (pdats m ρ 0 c).arrays _ = _ from arrays0_eq (V1 m ρ) c _, rest_eq m ρ c]
      dsimp only
      rw [show (pdats m ρ 0 c).arrAt 0 cfg0.N = W2 m ρ c (Proc.devRef .tc main_arg0) from exit0 m ρ c,
        show (pdats m ρ 0 c).arrAt 1 cfg0.N = W2 m ρ c (Proc.devRef .tc main_arg0) from exit1 m ρ c,
        show (pdats m ρ 0 c).arrAt 2 cfg0.N = W2 m ρ c (Proc.devRef .tc main_v4) from exit2 m ρ c,
        show (pdats m ρ 0 c).arrAt 3 cfg0.N = W2 m ρ c (Proc.devRef .tc main_v5) from exit3 m ρ c,
        show (pdats m ρ 0 c).arrAt 4 cfg0.N = W2 m ρ c (Proc.devRef .tc main_v0) from exit4 m ρ c,
        show (pdats m ρ 0 c).arrAt 5 cfg0.N = W2 m ρ c (Proc.devRef .tc main_v1) from exit5 m ρ c,
        show (pdats m ρ 0 c).arrAt 6 cfg0.N = W2 m ρ c (Proc.devRef .tc main_v6) from (W2_out m ρ c).symm]
      have hs : (((c.tc : Thread nD τ).loc main_arg0) ↦{fullShare} W2 m ρ c (Proc.devRef .tc main_arg0) : sProp 𝕄)
          ⊣⊢ iprop((((c.tc : Thread nD τ).loc main_arg0) ↦{fullShare.left} W2 m ρ c (Proc.devRef .tc main_arg0))
            ∗ (((c.tc : Thread nD τ).loc main_arg0) ↦{fullShare.right} W2 m ρ c (Proc.devRef .tc main_arg0))) :=
        pointsTo_share (PosShare.mem_left_op_right fullShare)
      iintro ⟨⟨Hl, Hr, Hv4, Hv5, Hv0, Hv1, Hv6⟩, Hrest⟩
      ihave Ha0 := hs.2 $$ [Hl Hr]
      · isplitl [Hl] <;> iassumption
      isplitr [Hrest]
      · isplitl [Ha0]; · iexact Ha0
        isplitl [Hv4]; · iexact Hv4
        isplitl [Hv5]; · iexact Hv5
        isplitl [Hv0]; · iexact Hv0
        isplitl [Hv1]; · iexact Hv1
        iexact Hv6
      · iexact Hrest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)) ]
theorem main_run (c : Dev nD) : main (F := F) c = Pipeline.Seg.run (segs m ρ) := (main_chain c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

/-- No host line writes the embeddings, and the region only reads them. -/
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := by
          show StableHlo.after hostOps1_1 (W3 m ρ c) (Proc.devRef .tc main_arg0) = _
          after_results
    _ = W2 m ρ c (Proc.devRef .tc main_arg0) := by
          show StableHlo.after hostOps1 (W2 m ρ c) (Proc.devRef .tc main_arg0) = _
          after_results
    _ = W1 m ρ c (Proc.devRef .tc main_arg0) := W2_of_ne m ρ c main_arg0 (by decide)
    _ = W0 m ρ c (Proc.devRef .tc main_arg0) := by
          show StableHlo.after hostOps0 (W0 m ρ c) (Proc.devRef .tc main_arg0) = _
          after_results
    _ = m ((c : Thread nD τ).loc main_arg0) := rfl

/-- Nor the labels. -/
theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := by
          show StableHlo.after hostOps1_1 (W3 m ρ c) (Proc.devRef .tc main_arg1) = _
          after_results
    _ = W2 m ρ c (Proc.devRef .tc main_arg1) := by
          show StableHlo.after hostOps1 (W2 m ρ c) (Proc.devRef .tc main_arg1) = _
          after_results
    _ = W1 m ρ c (Proc.devRef .tc main_arg1) := W2_of_ne m ρ c main_arg1 (by decide)
    _ = W0 m ρ c (Proc.devRef .tc main_arg1) := by
          show StableHlo.after hostOps0 (W0 m ρ c) (Proc.devRef .tc main_arg1) = _
          after_results
    _ = m ((c : Thread nD τ).loc main_arg1) := rfl

/-- The run with the result and both arguments read off the last valuation. -/
theorem run_result : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v16 (by decide)),
     (h c _ (mem_uc main_arg0 (by decide))).trans (W4_arg0 m ρ c),
     (h c _ (mem_uc main_arg1 (by decide))).trans (W4_arg1 m ρ c)⟩) (run_main m ρ)

/-- THE FRAME: every weakly fair execution terminates, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.KernelIdeal.Hand
end
-- ==== Proof.KI.Blocks.lean ====
/-
  The input blocks at a grid point, read at their global coordinates.

  Point `t` of the 8 × 4 grid is query tile `t / 4` and key tile `t % 4`. The query-side windows (the query
  embeddings, the query rows' squared norms, the query labels) stage block `t / 4` of their arrays along the rows;
  the key-side windows (the key embeddings, the key columns' squared norms, the key labels) stage block `t % 4`.
  So element `(r, k)` of the query embeddings' block is row `1024·(t/4) + r` of the embeddings, element `(cc, k)`
  of the key embeddings' block is row `2048·(t%4) + cc`, and likewise for the four vectors.
-/
import proofs.«108932_j15444702397006_2_alg».proof.Proof.KI.Kit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable {F : FTy → Type} [FloatOps F]
variable (V : (c : Dev nD) → (b : Ref sig .tc) → Buf (Elt F) ((c : Thread nD τ).loc b))

/-- The printed index maps, decided once over the 32 grid points. -/
theorem idx_facts : ∀ t : Fin cfg0.N,
      win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0
    ∧ win0_5.index t (0 : Fin 2) = 0 ∧ win0_5.index t (1 : Fin 2) = t.val % 4
    ∧ win0_6.index t (0 : Fin 2) = t.val / 4 ∧ win0_6.index t (1 : Fin 2) = 0 :=
  (by decide +kernel : ∀ t : Fin grid0.N, _)

theorem tN (t : Fin cfg0.N) : t.val < 32 := lt_of_lt_of_eq t.isLt (show cfg0.N = 32 from N_0)

/-- The global row of local row `r` of the query tile at point `t`, -/
def qrow (t : Fin cfg0.N) (r : Fin 1024) : Fin 8192 := ⟨1024 * (t.val / 4) + r.val, by have := tN t; have := r.isLt; omega⟩
/-- and the global column of local column `cc` of the key tile. -/
def kcol (t : Fin cfg0.N) (cc : Fin 2048) : Fin 8192 := ⟨2048 * (t.val % 4) + cc.val, by have := cc.isLt; omega⟩

/-- The query embeddings' block. -/
theorem iblk0_0_apply (c : Dev nD) (t : Fin cfg0.N) (r : Fin 1024) (k : Fin 128) :
    iblk0 V c 0 t (ix2 r k) = V c main_arg0 (ix2 (qrow t r) k) := by
  obtain ⟨e0, e1, -⟩ := idx_facts t
  unfold iblk0
  show V c main_arg0 (((cfg0.win 0).blk t).view.emb (ix2 r k)) = _
  congr 1
  funext a; apply Fin.ext
  match a with
  | ⟨0, _⟩ => show win0_0.index t (0 : Fin 2) * 1024 + 1 * r.val = 1024 * (t.val / 4) + r.val; omega
  | ⟨1, _⟩ => show win0_0.index t (1 : Fin 2) * 128 + 1 * k.val = k.val; omega

/-- The key embeddings' block. -/
theorem iblk0_1_apply (c : Dev nD) (t : Fin cfg0.N) (cc : Fin 2048) (k : Fin 128) :
    iblk0 V c 1 t (ix2 cc k) = V c main_arg0 (ix2 (kcol t cc) k) := by
  obtain ⟨-, -, e0, e1, -⟩ := idx_facts t
  unfold iblk0
  show V c main_arg0 (((cfg0.win 1).blk t).view.emb (ix2 cc k)) = _
  congr 1
  funext a; apply Fin.ext
  match a with
  | ⟨0, _⟩ => show win0_1.index t (0 : Fin 2) * 2048 + 1 * cc.val = 2048 * (t.val % 4) + cc.val; omega
  | ⟨1, _⟩ => show win0_1.index t (1 : Fin 2) * 128 + 1 * k.val = k.val; omega

/-- The query rows' squared norms. -/
theorem iblk0_2_apply (c : Dev nD) (t : Fin cfg0.N) (r : Fin 1024) :
    iblk0 V c 2 t (ix2 r (0 : Fin 1)) = V c main_v4 (ix2 (qrow t r) (0 : Fin 1)) := by
  obtain ⟨-, -, -, -, e0, e1, -⟩ := idx_facts t
  unfold iblk0
  show V c main_v4 (((cfg0.win 2).blk t).view.emb (ix2 r (0 : Fin 1))) = _
  congr 1
  funext a; apply Fin.ext
  match a with
  | ⟨0, _⟩ => show win0_2.index t (0 : Fin 2) * 1024 + 1 * r.val = 1024 * (t.val / 4) + r.val; omega
  | ⟨1, _⟩ => show win0_2.index t (1 : Fin 2) * 1 + 1 * 0 = 0; omega

/-- The key columns' squared norms. -/
theorem iblk0_3_apply (c : Dev nD) (t : Fin cfg0.N) (cc : Fin 2048) :
    iblk0 V c 3 t (ix2 (0 : Fin 1) cc) = V c main_v5 (ix2 (0 : Fin 1) (kcol t cc)) := by
  obtain ⟨-, -, -, -, -, -, e0, e1, -⟩ := idx_facts t
  unfold iblk0
  show V c main_v5 (((cfg0.win 3).blk t).view.emb (ix2 (0 : Fin 1) cc)) = _
  congr 1
  funext a; apply Fin.ext
  match a with
  | ⟨0, _⟩ => show win0_3.index t (0 : Fin 2) * 1 + 1 * 0 = 0; omega
  | ⟨1, _⟩ => show win0_3.index t (1 : Fin 2) * 2048 + 1 * cc.val = 2048 * (t.val % 4) + cc.val; omega

/-- The query labels. -/
theorem iblk0_4_apply (c : Dev nD) (t : Fin cfg0.N) (r : Fin 1024) :
    iblk0 V c 4 t (ix2 r (0 : Fin 1)) = V c main_v0 (ix2 (qrow t r) (0 : Fin 1)) := by
  obtain ⟨-, -, -, -, -, -, -, -, e0, e1, -⟩ := idx_facts t
  unfold iblk0
  show V c main_v0 (((cfg0.win 4).blk t).view.emb (ix2 r (0 : Fin 1))) = _
  congr 1
  funext a; apply Fin.ext
  match a with
  | ⟨0, _⟩ => show win0_4.index t (0 : Fin 2) * 1024 + 1 * r.val = 1024 * (t.val / 4) + r.val; omega
  | ⟨1, _⟩ => show win0_4.index t (1 : Fin 2) * 1 + 1 * 0 = 0; omega

/-- The key labels. -/
theorem iblk0_5_apply (c : Dev nD) (t : Fin cfg0.N) (cc : Fin 2048) :
    iblk0 V c 5 t (ix2 (0 : Fin 1) cc) = V c main_v1 (ix2 (0 : Fin 1) (kcol t cc)) := by
  obtain ⟨-, -, -, -, -, -, -, -, -, -, e0, e1, -⟩ := idx_facts t
  unfold iblk0
  show V c main_v1 (((cfg0.win 5).blk t).view.emb (ix2 (0 : Fin 1) cc)) = _
  congr 1
  funext a; apply Fin.ext
  match a with
  | ⟨0, _⟩ => show win0_5.index t (0 : Fin 2) * 1 + 1 * 0 = 0; omega
  | ⟨1, _⟩ => show win0_5.index t (1 : Fin 2) * 2048 + 1 * cc.val = 2048 * (t.val % 4) + cc.val; omega

end Cert.KernelIdeal.Hand

end
-- ==== Proof.Spec.lean ====
/-
  The mathematics both programs compute, over plain functions: `X i k` the embeddings (8192 rows of 128
  extended reals) and `lab i` the labels (8192 words).

  Both programs form the squared distances `d2 i j = max (|x_i|² + |x_j|² - 2·<x_i, x_j>) 0` with the same
  expression. A column `j` is a POSITIVE of row `i` when the labels agree and `j ≠ i`, a NEGATIVE when the
  labels differ.

  The reference takes square roots first (`dist`), then per row the largest positive distance and the smallest
  negative distance. The kernel mines on the squared distances (the largest `d2` among the positives, the smallest
  among the negatives), and takes the square root of each row's two extremes afterwards, clamped at zero.
  The square root is monotone on `[0, ⊤]` with `√0 = 0` and `√⊤ = ⊤`, and `d2 ≥ 0`, so on a row that has
  a positive and a negative the two agree; a row lacking either is masked out by `valid` on both sides.
  The loss of a valid row is `max (hardest_pos - hardest_neg + 1) 0`; the result is the mean of the losses over the
  valid rows (zero when there is none).
-/
import Idealize.ShloMosaic.PureOps.Ideal

noncomputable section

open scoped Classical

namespace Cert.Spec

open Idealize.ShloMosaic

/-- The f32 words the two programs spell, read at the extended reals. -/
def zero : EReal := Ideal.ofBits .f32 0x00000000#32
def one : EReal := Ideal.ofBits .f32 0x3F800000#32
def two : EReal := Ideal.ofBits .f32 0x40000000#32

variable (X : Fin 8192 → Fin 128 → EReal) (lab : Fin 8192 → BitVec 32)

/-- A row's squared norm: the host's sum from the zero word. -/
def sq (i : Fin 8192) : EReal := zero + ∑ k : Fin 128, X i k * X i k
/-- The Gram entry. -/
def dot (i j : Fin 8192) : EReal := ∑ k : Fin 128, X i k * X j k
/-- The squared distance by the Gram trick, clamped at zero. -/
def d2 (i j : Fin 8192) : EReal := max (sq X i + sq X j - two * dot X i j) zero

/-- Column `j` is a positive of row `i`: same label, another row. -/
def pos (i j : Fin 8192) : Prop := lab i = lab j ∧ i ≠ j
/-- Column `j` is a negative of row `i`: another label. -/
def neg (i j : Fin 8192) : Prop := lab i ≠ lab j

/-! ## The reference's rows: square roots first -/

/-- The distance: the square root where the squared distance is positive, zero elsewhere. -/
def dist (i j : Fin 8192) : EReal := if zero < d2 X i j then Ideal.sqrt (d2 X i j) else zero
def hpR (i : Fin 8192) : EReal := Finset.univ.sup fun j => if pos lab i j then dist X i j else ⊥
def hnR (i : Fin 8192) : EReal := Finset.univ.inf fun j => if neg lab i j then dist X i j else ⊤
def tlR (i : Fin 8192) : EReal := max (hpR X lab i - hnR X lab i + one) zero
def validR (i : Fin 8192) : Prop := (∃ j, pos lab i j) ∧ (∃ j, neg lab i j) ∧ zero < tlR X lab i
def lossR (i : Fin 8192) : EReal := if validR X lab i then tlR X lab i else zero

/-! ## The kernel's rows: extremes of the squared distances first -/

def mposK (i : Fin 8192) : EReal := Finset.univ.sup fun j => if pos lab i j then d2 X i j else ⊥
def mnegK (i : Fin 8192) : EReal := Finset.univ.inf fun j => if neg lab i j then d2 X i j else ⊤
def tlK (i : Fin 8192) : EReal :=
  max (Ideal.sqrt (max (mposK X lab i) zero) - Ideal.sqrt (max (mnegK X lab i) zero) + one) zero
def validK (i : Fin 8192) : Prop := (∃ j, pos lab i j) ∧ (∃ j, neg lab i j) ∧ zero < tlK X lab i
def lossK (i : Fin 8192) : EReal := if validK X lab i then tlK X lab i else zero
/-- The kernel's second output column: the valid bit as the float 1 or 0. -/
def flagK (i : Fin 8192) : EReal := if validK X lab i then 1 else 0

/-! ## The results -/

/-- The kernel's result: both sums are float sums from the zero word. -/
def resultK : EReal :=
  if zero < zero + ∑ i : Fin 8192, flagK X lab i then
    Ideal.div (zero + ∑ i : Fin 8192, lossK X lab i) (max (zero + ∑ i : Fin 8192, flagK X lab i) one)
  else zero

/-- The number of valid rows (the reference counts them in integers). -/
def countR : ℕ := (Finset.univ.filter fun i : Fin 8192 => validR X lab i).card

/-- The reference's result. -/
def resultR : EReal :=
  if 0 < countR X lab then
    Ideal.div (zero + ∑ i : Fin 8192, lossR X lab i) (((max (countR X lab) 1 : ℕ) : ℝ) : EReal)
  else zero

end Cert.Spec

end
-- ==== Proof.SpecMath.lean ====
/-
  The two row-wise computations of `Spec.lean` give the same result.

  The three spelled words are the reals 0, 1 and 2. Every squared distance `d2` is `≥ 0` (it is a maximum with
  zero). The square root of the extended reals is monotone on the whole line (below zero it is `⊥`), sends `⊥` to
  `⊥`, `0` to `0` and `⊤` to `⊤`; a monotone map of a linear order commutes with finite suprema when it keeps
  `⊥`, and with finite infima when it keeps `⊤`. Hence the square root of the smallest negative squared distance is
  the smallest negative distance on every row, and the square root of the largest positive squared distance is the
  largest positive distance on every row that has a positive. A row without a positive is invalid on both sides.
  The number of valid rows is the same, the sum of the 0/1 flags is that number, and the two means agree.
-/
import proofs.«108932_j15444702397006_2_alg».proof.Proof.Spec
import Idealize.ShloMosaic.Lib.IdealHost
import Mathlib

noncomputable section

open scoped Classical

namespace Cert.Spec

open Idealize.ShloMosaic

/-! ## The three words -/

theorem zero_eq : Cert.Spec.zero = 0 := Ideal.ofBits_zero_f32

theorem one_eq : Cert.Spec.one = 1 := Ideal.ofBits_one_f32

/-- The word `0x40000000` is the real 2. -/
theorem two_eq : Cert.Spec.two = 2 := by
  unfold Cert.Spec.two
  rw [show (2 : EReal) = ((2 : ℝ) : EReal) by norm_cast]
  simp [Ideal.ofBits, Ideal.ieee, -EReal.coe_mul]; norm_num

variable (X : Fin 8192 → Fin 128 → EReal) (lab : Fin 8192 → BitVec 32)

/-! ## Squared distances and the square root -/

/-- A squared distance is a maximum with zero. -/
theorem d2_nonneg (i j : Fin 8192) : 0 ≤ Cert.Spec.d2 X i j := by
  unfold Cert.Spec.d2
  rw [zero_eq]
  exact le_max_right _ _

/-- `√0 = 0`. -/
theorem sqrt_zero : Ideal.sqrt 0 = 0 := by
  rw [show (0 : EReal) = ((0 : ℝ) : EReal) from rfl, Ideal.sqrt_coe]
  simp

/-- The square root is monotone on the whole extended line: below zero it is `⊥`, on `[0, ⊤)` it is the real
square root, and `√⊤ = ⊤`. -/
theorem sqrt_mono : Monotone Ideal.sqrt := by
  intro a b hab
  induction a with
  | bot => rw [Ideal.sqrt_bot]; exact bot_le
  | top =>
    have hb : b = ⊤ := top_le_iff.mp hab
    rw [hb]
  | coe r =>
    induction b with
    | bot => exact absurd hab (by simp)
    | top => rw [Ideal.sqrt_top]; exact le_top
    | coe s =>
      have hrs : r ≤ s := EReal.coe_le_coe_iff.mp hab
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- On `[0, ⊤]` in particular. -/
theorem sqrt_mono_of_nonneg {a b : EReal} (_ha : 0 ≤ a) (hab : a ≤ b) : Ideal.sqrt a ≤ Ideal.sqrt b :=
  sqrt_mono hab

/-- The reference's distance is the square root of the squared distance: where the squared distance is not positive
it is zero, and `√0 = 0`. -/
theorem dist_eq_sqrt (i j : Fin 8192) : Cert.Spec.dist X i j = Ideal.sqrt (Cert.Spec.d2 X i j) := by
  unfold Cert.Spec.dist
  rw [zero_eq]
  by_cases h : 0 < d2 X i j
  · rw [if_pos h]
  · rw [if_neg h]
    have h0 : d2 X i j = 0 := le_antisymm (not_lt.mp h) (d2_nonneg X i j)
    rw [h0, sqrt_zero]

/-! ## Rows -/

/-- The smallest negative squared distance is never below zero (an empty infimum is `⊤`). -/
theorem mnegK_nonneg (i : Fin 8192) : 0 ≤ Cert.Spec.mnegK X lab i := by
  unfold Cert.Spec.mnegK
  apply Finset.le_inf
  intro j _
  by_cases h : neg lab i j
  · simp only [if_pos h]; exact d2_nonneg X i j
  · simp only [if_neg h]; exact le_top

/-- The square root commutes with the infimum over the negatives, on every row. -/
theorem sqrt_mnegK (i : Fin 8192) :
    Ideal.sqrt (max (Cert.Spec.mnegK X lab i) Cert.Spec.zero) = Cert.Spec.hnR X lab i := by
  rw [zero_eq, max_eq_left (mnegK_nonneg X lab i)]
  unfold Cert.Spec.mnegK Cert.Spec.hnR
  rw [Finset.apply_inf_eq_inf_comp_of_linearOrder Ideal.sqrt sqrt_mono Ideal.sqrt_top]
  refine Finset.inf_congr rfl ?_
  intro j _
  simp only [Function.comp]
  by_cases h : neg lab i j
  · simp only [if_pos h, dist_eq_sqrt]
  · simp only [if_neg h, Ideal.sqrt_top]

/-- On a row with a positive, the largest positive squared distance is not below zero. -/
theorem mposK_nonneg (i : Fin 8192) (hp : ∃ j, pos lab i j) : 0 ≤ Cert.Spec.mposK X lab i := by
  obtain ⟨j0, hj0⟩ := hp
  refine le_trans (d2_nonneg X i j0) ?_
  unfold Cert.Spec.mposK
  have h := Finset.le_sup (f := fun j => if pos lab i j then d2 X i j else ⊥) (Finset.mem_univ j0)
  simpa only [if_pos hj0] using h

/-- The square root commutes with the supremum over the positives, on a row that has one. -/
theorem sqrt_mposK (i : Fin 8192) (hp : ∃ j, pos lab i j) :
    Ideal.sqrt (max (Cert.Spec.mposK X lab i) Cert.Spec.zero) = Cert.Spec.hpR X lab i := by
  rw [zero_eq, max_eq_left (mposK_nonneg X lab i hp)]
  unfold Cert.Spec.mposK Cert.Spec.hpR
  rw [Finset.apply_sup_eq_sup_comp_of_linearOrder Ideal.sqrt sqrt_mono Ideal.sqrt_bot]
  refine Finset.sup_congr rfl ?_
  intro j _
  simp only [Function.comp]
  by_cases h : pos lab i j
  · simp only [if_pos h, dist_eq_sqrt]
  · simp only [if_neg h, Ideal.sqrt_bot]

/-- On a row with a positive the two margins are the same number. -/
theorem tl_eq (i : Fin 8192) (hp : ∃ j, pos lab i j) : Cert.Spec.tlK X lab i = Cert.Spec.tlR X lab i := by
  unfold Cert.Spec.tlK Cert.Spec.tlR
  rw [sqrt_mposK X lab i hp, sqrt_mnegK X lab i]

theorem valid_iff (i : Fin 8192) : Cert.Spec.validK X lab i ↔ Cert.Spec.validR X lab i := by
  unfold Cert.Spec.validK Cert.Spec.validR
  constructor
  · rintro ⟨hp, hn, h⟩
    exact ⟨hp, hn, by rwa [← tl_eq X lab i hp]⟩
  · rintro ⟨hp, hn, h⟩
    exact ⟨hp, hn, by rwa [tl_eq X lab i hp]⟩

theorem loss_eq (i : Fin 8192) : Cert.Spec.lossK X lab i = Cert.Spec.lossR X lab i := by
  unfold Cert.Spec.lossK Cert.Spec.lossR
  by_cases h : validR X lab i
  · rw [if_pos h, if_pos ((valid_iff X lab i).mpr h), tl_eq X lab i h.1]
  · rw [if_neg h, if_neg (fun hk => h ((valid_iff X lab i).mp hk))]

/-- A row is valid on one side exactly when it is on the other, and its loss is the same. -/
theorem row_eq (i : Fin 8192) :
    (Cert.Spec.validK X lab i ↔ Cert.Spec.validR X lab i) ∧ Cert.Spec.lossK X lab i = Cert.Spec.lossR X lab i :=
  ⟨valid_iff X lab i, loss_eq X lab i⟩

/-! ## The count and the result -/

theorem flagK_eq (i : Fin 8192) : Cert.Spec.flagK X lab i = if Cert.Spec.validR X lab i then 1 else 0 := by
  unfold Cert.Spec.flagK
  by_cases h : validR X lab i
  · rw [if_pos h, if_pos ((valid_iff X lab i).mpr h)]
  · rw [if_neg h, if_neg (fun hk => h ((valid_iff X lab i).mp hk))]

/-- The sum of the 0/1 flags is the number of valid rows. -/
theorem flag_sum : (∑ i, Cert.Spec.flagK X lab i) = ((Cert.Spec.countR X lab : ℕ) : EReal) := by
  simp only [flagK_eq]
  unfold Cert.Spec.countR
  exact Finset.sum_boole _ _

theorem natCast_pos_iff (n : ℕ) : (0 : EReal) < (n : EReal) ↔ 0 < n := by
  have h := @EReal.natCast_lt_iff 0 n
  rwa [Nat.cast_zero] at h

theorem natCast_max_one (n : ℕ) : max (n : EReal) 1 = (((max n 1 : ℕ) : ℝ) : EReal) := by
  rw [EReal.coe_natCast]
  rcases le_total n 1 with h | h
  · have h' : (n : EReal) ≤ 1 := by
      have h2 := (@EReal.natCast_le_iff n 1).mpr h
      rwa [Nat.cast_one] at h2
    rw [max_eq_right h, max_eq_right h', Nat.cast_one]
  · have h' : (1 : EReal) ≤ (n : EReal) := by
      have h2 := (@EReal.natCast_le_iff 1 n).mpr h
      rwa [Nat.cast_one] at h2
    rw [max_eq_left h, max_eq_left h']

/-- The two programs' results agree. -/
theorem result_eq : Cert.Spec.resultK X lab = Cert.Spec.resultR X lab := by
  unfold Cert.Spec.resultK Cert.Spec.resultR
  simp only [zero_eq, one_eq, zero_add, flag_sum, loss_eq]
  by_cases h : 0 < countR X lab
  · rw [if_pos h, if_pos ((natCast_pos_iff _).mpr h), natCast_max_one]
  · rw [if_neg h, if_neg (fun hk => h ((natCast_pos_iff _).mp hk))]

end Cert.Spec

end
-- ==== Proof.KI.Entry.lean ====
/-
  What the region finds in memory: the host operations before the region reshape the labels to a column and to a
  row, square the embeddings entry by entry, sum each row of squares from the zero word (the squared norm), and
  reshape that vector to a column and to a row. They write neither argument.
-/
import proofs.«108932_j15444702397006_2_alg».proof.Proof.Gen.KernelIdeal.Launch
import proofs.«108932_j15444702397006_2_alg».proof.Proof.SpecMath
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.IdealHost

set_option maxRecDepth 16384

noncomputable section

namespace Cert.KernelIdeal.Val

open Idealize.ShloMosaic Idealize.SL.Sem
open Cert.KernelIdeal Cert.KernelIdeal.Gen
open Idealize.ShloMosaic.ValueIdx

/-- The embeddings array read as a function of row and coordinate. -/
def Xof (A : (⟨S8192x128, .f32⟩ : BufTy).Contents (Elt Ideal)) : Fin 8192 → Fin 128 → EReal := fun i k => A (ix2 i k)
/-- The labels array read as a function of the row. -/
def labOf (B : (⟨S8192, .i32⟩ : BufTy).Contents (Elt Ideal)) : Fin 8192 → BitVec 32 := fun i => B (ix1 i)

/-- The host's vector of squared norms. -/
def sqVec (A : (⟨S8192x128, .f32⟩ : BufTy).Contents (Elt Ideal)) : (⟨S8192, .f32⟩ : BufTy).Contents (Elt Ideal) :=
  Host.reduceAdd (F := Ideal) (mulf (F := Ideal) (s := S8192x128) (φ := .f32) A A) (constant (F := Ideal) S_ .f32 0x00000000#32) reducesTo_S8192x128_S8192_d1 h_S_

/-- Its entry `i` is the zero word plus the sum of the squares of row `i`. -/
theorem sqVec_apply (A : (⟨S8192x128, .f32⟩ : BufTy).Contents (Elt Ideal)) (i : Fin 8192) :
    sqVec A (ix1 i) = Cert.Spec.sq (Xof A) i := by
  unfold sqVec
  generalize hy : mulf (F := Ideal) (s := S8192x128) (φ := .f32) A A = y0
  simp only [Host.reduceAdd, Ideal.hostReduceAdd_def]
  rw [Ideal.hostReduceAdd_single reducesTo_S8192x128_S8192_d1 (by decide)]
  unfold Cert.Spec.sq Xof
  refine congrArg₂ (· + ·) rfl (Finset.sum_congr rfl fun k _ => ?_)
  rw [← hy]
  exact congrArg (fun j => A j * A j) (funext fun a => Fin.ext (by match a with | ⟨0, _⟩ => rfl | ⟨1, _⟩ => rfl))

variable (W : Valuation τ sig (Elt Ideal))

/-- No host operation before the region writes an argument. -/
theorem entry_arg0 :
    StableHlo.after (hostOps0 (F := Ideal)) W (Proc.devRef .tc main_arg0) = W (Proc.devRef .tc main_arg0) := by
  after_results

theorem entry_arg1 :
    StableHlo.after (hostOps0 (F := Ideal)) W (Proc.devRef .tc main_arg1) = W (Proc.devRef .tc main_arg1) := by
  after_results

/-- The column of squared norms. -/
theorem entry_v4 (i : Fin 8192) :
    (StableHlo.after (hostOps0 (F := Ideal)) W (Proc.devRef .tc main_v4) : S8192x1.Idx → EReal) (ix2 i (0 : Fin 1))
      = Cert.Spec.sq (Xof (W (Proc.devRef .tc main_arg0))) i := by
  have e : (StableHlo.after (hostOps0 (F := Ideal)) W (Proc.devRef .tc main_v4) : S8192x1.Idx → EReal)
      = fun j => shapeCast S8192x1 (sqVec (W (Proc.devRef .tc main_arg0))) shapeCasts_S8192_S8192x1 j := by
    unfold sqVec
    after_results
    rfl
  rw [e, ← sqVec_apply]
  refine shapeCast_apply _ _ (ix2 i (0 : Fin 1)) (ix1 i) ?_
  rw [Shape.rowMajor_val_two, Shape.rowMajor_val_one]
  show i.val = i.val * 1 + 0
  omega

/-- The row of squared norms. -/
theorem entry_v5 (j : Fin 8192) :
    (StableHlo.after (hostOps0 (F := Ideal)) W (Proc.devRef .tc main_v5) : S1x8192.Idx → EReal) (ix2 (0 : Fin 1) j)
      = Cert.Spec.sq (Xof (W (Proc.devRef .tc main_arg0))) j := by
  have e : (StableHlo.after (hostOps0 (F := Ideal)) W (Proc.devRef .tc main_v5) : S1x8192.Idx → EReal)
      = fun k => shapeCast S1x8192 (sqVec (W (Proc.devRef .tc main_arg0))) shapeCasts_S8192_S1x8192 k := by
    unfold sqVec
    after_results
    rfl
  rw [e, ← sqVec_apply]
  refine shapeCast_apply _ _ (ix2 (0 : Fin 1) j) (ix1 j) ?_
  rw [Shape.rowMajor_val_two, Shape.rowMajor_val_one]
  show j.val = 0 * 8192 + j.val
  omega

/-- The column of labels. -/
theorem entry_v0 (i : Fin 8192) :
    (StableHlo.after (hostOps0 (F := Ideal)) W (Proc.devRef .tc main_v0) : S8192x1.Idx → BitVec 32) (ix2 i (0 : Fin 1))
      = labOf (W (Proc.devRef .tc main_arg1)) i := by
  have e : (StableHlo.after (hostOps0 (F := Ideal)) W (Proc.devRef .tc main_v0) : S8192x1.Idx → BitVec 32)
      = fun j => shapeCast S8192x1 (W (Proc.devRef .tc main_arg1) : S8192.Idx → BitVec 32) shapeCasts_S8192_S8192x1 j := by
    after_results
    rfl
  rw [e]
  unfold labOf
  refine shapeCast_apply _ _ (ix2 i (0 : Fin 1)) (ix1 i) ?_
  rw [Shape.rowMajor_val_two, Shape.rowMajor_val_one]
  show i.val = i.val * 1 + 0
  omega

/-- The row of labels. -/
theorem entry_v1 (j : Fin 8192) :
    (StableHlo.after (hostOps0 (F := Ideal)) W (Proc.devRef .tc main_v1) : S1x8192.Idx → BitVec 32) (ix2 (0 : Fin 1) j)
      = labOf (W (Proc.devRef .tc main_arg1)) j := by
  have e : (StableHlo.after (hostOps0 (F := Ideal)) W (Proc.devRef .tc main_v1) : S1x8192.Idx → BitVec 32)
      = fun k => shapeCast S1x8192 (W (Proc.devRef .tc main_arg1) : S8192.Idx → BitVec 32) shapeCasts_S8192_S1x8192 k := by
    after_results
    rfl
  rw [e]
  unfold labOf
  refine shapeCast_apply _ _ (ix2 (0 : Fin 1) j) (ix1 j) ?_
  rw [Shape.rowMajor_val_two, Shape.rowMajor_val_one]
  show j.val = 0 * 8192 + j.val
  omega

end Cert.KernelIdeal.Val

end
-- ==== Proof.KI.Tail.lean ====
/-
  The host operations after the region: from the region's output array `out` (8192 rows, two columns: the masked
  loss and the valid flag) the host sums each column from the zero word, compares the flag sum with zero, takes
  its maximum with one, divides, and selects. `tailK out` is that composed term; on an output whose columns are
  the rows' losses and flags it is the specification's `resultK`.
-/
import proofs.«108932_j15444702397006_2_alg».proof.Proof.Gen.KernelIdeal.Launch
import proofs.«108932_j15444702397006_2_alg».proof.Proof.SpecMath
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.IdealHost

set_option maxRecDepth 16384

noncomputable section

namespace Cert.KernelIdeal.Val

open Idealize.ShloMosaic Idealize.SL.Sem
open Cert.KernelIdeal Cert.KernelIdeal.Gen
open Idealize.ShloMosaic.ValueIdx

/-- The composed term of the host operations after the region, applied to the region's output array. -/
def tailK (out : (⟨S8192x2, .f32⟩ : BufTy).Contents (Elt Ideal)) : (⟨S_, .f32⟩ : BufTy).Contents (Elt Ideal) :=
  select
    (cmpf .ogt
      (Host.reduceAdd (F := Ideal)
        (fun i => shapeCast S8192 (extractStridedSlice S8192x1 ![0, 1] out slices_S8192x2_S8192x1_0_1) shapeCasts_S8192x1_S8192 i)
        (constant (F := Ideal) S_ .f32 0x00000000#32) reducesTo_S8192_S_d0 h_S_)
      (constant (F := Ideal) S_ .f32 0x00000000#32))
    (Host.divf (F := Ideal)
      (Host.reduceAdd (F := Ideal)
        (fun i => shapeCast S8192 (extractStridedSlice S8192x1 ![0, 0] out slices_S8192x2_S8192x1_0_0) shapeCasts_S8192x1_S8192 i)
        (constant (F := Ideal) S_ .f32 0x00000000#32) reducesTo_S8192_S_d0 h_S_)
      (maximumf
        (Host.reduceAdd (F := Ideal)
          (fun i => shapeCast S8192 (extractStridedSlice S8192x1 ![0, 1] out slices_S8192x2_S8192x1_0_1) shapeCasts_S8192x1_S8192 i)
          (constant (F := Ideal) S_ .f32 0x00000000#32) reducesTo_S8192_S_d0 h_S_)
        (constant (F := Ideal) S_ .f32 0x3F800000#32)))
    (constant (F := Ideal) S_ .f32 0x00000000#32)

/-- The program's result buffer after the host tail is `tailK` of the region's output buffer. -/
theorem tail_result (W : Valuation τ sig (Elt Ideal)) :
    StableHlo.after (hostOps1_1 (F := Ideal)) (StableHlo.after (hostOps1 (F := Ideal)) W) (Proc.devRef .tc main_v16)
      = tailK (W (Proc.devRef .tc main_v6)) := by
  unfold tailK
  after_results
  rfl

/-- A vector of 8192 entries is summed over `Fin 8192`. -/
theorem sum_idx1_8192 (f : S8192.Idx → EReal) : (∑ i : S8192.Idx, f i) = ∑ a : Fin 8192, f (ix1 a) := by
  refine Fintype.sum_equiv
    { toFun := fun j => (j 0 : Fin 8192), invFun := fun a => ix1 a,
      left_inv := fun j => (eq_ix1 j).symm, right_inv := fun _ => rfl } _ _ (fun j => ?_)
  exact congrArg f (eq_ix1 j)

/-- The host's sum of column `o` of the region's output, from the zero word. -/
theorem colSum_apply (o : Nat) (ho : o < 2) (out : (⟨S8192x2, .f32⟩ : BufTy).Contents (Elt Ideal))
    (h : S8192x2.Slices ![0, o] S8192x1) (j : S_.Idx) :
    Host.reduceAdd (F := Ideal)
        (fun i => shapeCast S8192 (extractStridedSlice S8192x1 ![0, o] out h) shapeCasts_S8192x1_S8192 i)
        (constant (F := Ideal) S_ .f32 0x00000000#32) reducesTo_S8192_S_d0 h_S_ j
      = Cert.Spec.zero + ∑ a : Fin 8192, out (ix2 a ⟨o, ho⟩) := by
  rw [ValueIdx.hostReduceAdd_apply, Ideal.hostReduceAdd_total _ (fun b => b.elim0), sum_idx1_8192]
  refine congrArg₂ (· + ·) rfl (Finset.sum_congr rfl fun a _ => ?_)
  refine (shapeCast_apply _ _ (ix1 a) (ix2 a (0 : Fin 1)) ?_).trans ?_
  · rw [Shape.rowMajor_val_two, Shape.rowMajor_val_one]
    show a.val * 1 + 0 = a.val
    omega
  · exact slice2_axis1_apply o out h a (0 : Fin 1) ⟨o, ho⟩ rfl

/-- A select on the comparison "greater than", at the extended reals. -/
theorem select_ogt (x y a b : EReal) :
    Scalar.select (FloatOps.cmpf (F := Ideal) (φ := .f32) .ogt x y) a b = if y < x then a else b := by
  rw [Ideal.cmpf_def]
  unfold Scalar.select Ideal.cmp
  by_cases h : y < x
  · simp [h]
  · simp [h]

/-- On an output array whose two columns are the rows' losses and flags, the host tail is the kernel's result. -/
theorem tail_eq (X : Fin 8192 → Fin 128 → EReal) (lab : Fin 8192 → BitVec 32)
    (out : (⟨S8192x2, .f32⟩ : BufTy).Contents (Elt Ideal))
    (h0 : ∀ i : Fin 8192, out (ix2 i (0 : Fin 2)) = Cert.Spec.lossK X lab i)
    (h1 : ∀ i : Fin 8192, out (ix2 i (1 : Fin 2)) = Cert.Spec.flagK X lab i) :
    tailK out = fun _ => Cert.Spec.resultK X lab := by
  funext j
  unfold tailK
  rw [select_apply, cmpf_apply, ValueIdx.hostDivf_apply, maximumf_apply,
    colSum_apply 1 (by omega) out slices_S8192x2_S8192x1_0_1 j,
    colSum_apply 0 (by omega) out slices_S8192x2_S8192x1_0_0 j, constant_apply, constant_apply, select_ogt]
  simp only [show ∀ i : Fin 8192, out (ix2 i (⟨1, by omega⟩ : Fin 2)) = Cert.Spec.flagK X lab i from h1,
    show ∀ i : Fin 8192, out (ix2 i (⟨0, by omega⟩ : Fin 2)) = Cert.Spec.lossK X lab i from h0]
  rfl

/-- No host operation after the region writes an argument of the program. -/
theorem tail_arg0 (W : Valuation τ sig (Elt Ideal)) :
    StableHlo.after (hostOps1_1 (F := Ideal)) (StableHlo.after (hostOps1 (F := Ideal)) W) (Proc.devRef .tc main_arg0)
      = W (Proc.devRef .tc main_arg0) := by
  after_results

theorem tail_arg1 (W : Valuation τ sig (Elt Ideal)) :
    StableHlo.after (hostOps1_1 (F := Ideal)) (StableHlo.after (hostOps1 (F := Ideal)) W) (Proc.devRef .tc main_arg1)
      = W (Proc.devRef .tc main_arg1) := by
  after_results

end Cert.KernelIdeal.Val

end
-- ==== Proof.KI.Value.lean ====
/-
  The kernel's result at the extended reals, from the run: the result buffer after the last host line is the host
  tail (two column sums, a comparison, a maximum, a quotient, a selection) of the output array the region leaves,
  and that array's two columns are, row by row, the masked loss and the valid flag of the specification; so the
  result is the specification's `resultK` of the embeddings and the labels as launched.
-/
import proofs.«108932_j15444702397006_2_alg».proof.Proof.KI.Launch
import proofs.«108932_j15444702397006_2_alg».proof.Proof.KI.Tail
import proofs.«108932_j15444702397006_2_alg».proof.Proof.KI.Entry

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- The embeddings and the labels as launched, as plain functions. -/
abbrev XK (c : Dev nD) : Fin 8192 → Fin 128 → EReal := Xof (m ((c.tc : Thread nD τ).loc main_arg0))
abbrev labK (c : Dev nD) : Fin 8192 → BitVec 32 := labOf (m ((c.tc : Thread nD τ).loc main_arg1))

/-- The output array the region leaves. -/
abbrev outK (c : Dev nD) : (⟨S8192x2, .f32⟩ : BufTy).Contents (Elt Ideal) := (dat0 (V1 m ρ) c).arrAt 6 cfg0.N

/-- The result buffer is the host tail of the output array; with the array's columns the specification's rows, it is
    the specification's result. -/
theorem W4_result (c : Dev nD)
    (h0 : ∀ i : Fin 8192, outK m ρ c (ix2 i (0 : Fin 2)) = Cert.Spec.lossK (XK m c) (labK m c) i)
    (h1 : ∀ i : Fin 8192, outK m ρ c (ix2 i (1 : Fin 2)) = Cert.Spec.flagK (XK m c) (labK m c) i) :
    W4 m ρ c (Proc.devRef .tc main_v16) = fun _ => Cert.Spec.resultK (XK m c) (labK m c) := by
  have h := tail_result (W2 m ρ c)
  rw [W2_out] at h
  exact h.trans (tail_eq (XK m c) (labK m c) _ h0 h1)

end Cert.KernelIdeal.Val

end
-- ==== Proof.KI.BlocksIdeal.lean ====
/-
  The input blocks at the extended reals, in the specification's terms: at grid point `t` the query tile's rows are
  rows `1024·(t/4) + r` of the launched embeddings and the key tile's rows are rows `2048·(t%4) + cc`; the two
  squared-norm vectors hold `sq` of those rows (the host summed the squares before the region), and the two label
  vectors hold those rows' labels (the host only reshaped them).
-/
import proofs.«108932_j15444702397006_2_alg».proof.Proof.KI.Launch
import proofs.«108932_j15444702397006_2_alg».proof.Proof.KI.Blocks
import proofs.«108932_j15444702397006_2_alg».proof.Proof.KI.Entry
import proofs.«108932_j15444702397006_2_alg».proof.Proof.KI.Value

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (m : (ℓ : Loc nD τ sig) → Buf (Elt Ideal) ℓ) (ρ : Dev nD → PrngReg)

theorem blk0 (c : Dev nD) (t : Fin cfg0.N) (r : Fin 1024) (k : Fin 128) :
    iblk0 (V1 m ρ) c 0 t (ix2 r k) = XK m c (qrow t r) k := by
  rw [iblk0_0_apply]
  show StableHlo.after (hostOps0 (F := Ideal)) (W0 m ρ c) (Proc.devRef .tc main_arg0) (ix2 (qrow t r) k) = _
  rw [entry_arg0]; rfl

theorem blk1 (c : Dev nD) (t : Fin cfg0.N) (cc : Fin 2048) (k : Fin 128) :
    iblk0 (V1 m ρ) c 1 t (ix2 cc k) = XK m c (kcol t cc) k := by
  rw [iblk0_1_apply]
  show StableHlo.after (hostOps0 (F := Ideal)) (W0 m ρ c) (Proc.devRef .tc main_arg0) (ix2 (kcol t cc) k) = _
  rw [entry_arg0]; rfl

theorem blk2 (c : Dev nD) (t : Fin cfg0.N) (r : Fin 1024) :
    iblk0 (V1 m ρ) c 2 t (ix2 r (0 : Fin 1)) = Cert.Spec.sq (XK m c) (qrow t r) := by
  rw [iblk0_2_apply]
  exact entry_v4 (W0 m ρ c) (qrow t r)

theorem blk3 (c : Dev nD) (t : Fin cfg0.N) (cc : Fin 2048) :
    iblk0 (V1 m ρ) c 3 t (ix2 (0 : Fin 1) cc) = Cert.Spec.sq (XK m c) (kcol t cc) := by
  rw [iblk0_3_apply]
  exact entry_v5 (W0 m ρ c) (kcol t cc)

theorem blk4 (c : Dev nD) (t : Fin cfg0.N) (r : Fin 1024) :
    iblk0 (V1 m ρ) c 4 t (ix2 r (0 : Fin 1)) = labK m c (qrow t r) := by
  rw [iblk0_4_apply]
  exact entry_v0 (W0 m ρ c) (qrow t r)

theorem blk5 (c : Dev nD) (t : Fin cfg0.N) (cc : Fin 2048) :
    iblk0 (V1 m ρ) c 5 t (ix2 (0 : Fin 1) cc) = labK m c (kcol t cc) := by
  rw [iblk0_5_apply]
  exact entry_v1 (W0 m ρ c) (kcol t cc)

end Cert.KernelIdeal.Val

end
-- ==== Proof.KI.PayD2.lean ====
/-
  The squared-distance tile read at an entry. At row `r` and column `cc` of a 1024 × 2048 tile the payload is
  `max (sq_row + sq_col - 2 · <x_row, x_col>) 0`: the column of squared norms and the row of squared norms are
  broadcast over the tile, the product with the transposed key block is the sum over the 128 coordinates, and the
  rest is entry by entry.
-/
import proofs.«108932_j15444702397006_2_alg».proof.Proof.Gen.KernelIdeal.Skeleton
import proofs.«108932_j15444702397006_2_alg».proof.Proof.SpecMath
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.SL.Sem
open Cert.KernelIdeal Cert.KernelIdeal.Gen
open Idealize.ShloMosaic.ValueIdx

/-! ## A column and a row broadcast over the tile -/

/-- A column `[1024, 1]` broadcast to the tile reads its row's entry. -/
theorem bcol0_apply {α : Type} (x : S1024x1.Idx → α) (r : Fin 1024) (cc : Fin 2048) :
    broadcastTo S1024x2048 x broadcasts_S1024x1_S1024x2048 (ix2 r cc) = x (ix2 r (0 : Fin 1)) :=
  broadcastTo_apply x _ (ix2 r cc) (ix2 r (0 : Fin 1)) (fun a => match a with
    | ⟨0, _⟩ => by show r.val = if (1024 : Nat) = 1 then 0 else r.val; rw [if_neg (by decide)]
    | ⟨1, _⟩ => by show 0 = if (1 : Nat) = 1 then 0 else cc.val; rw [if_pos rfl])

/-- The same through the identity shape cast the program prints. -/
theorem bcol_apply {α : Type} (x : S1024x1.Idx → α) (r : Fin 1024) (cc : Fin 2048) :
    broadcastTo S1024x2048 (shapeCast S1024x1 x shapeCasts_S1024x1_S1024x1) broadcasts_S1024x1_S1024x2048 (ix2 r cc)
      = x (ix2 r (0 : Fin 1)) := by
  rw [shapeCast_self]
  exact bcol0_apply x r cc

/-- A row `[1, 2048]` broadcast to the tile reads its column's entry. -/
theorem brow0_apply {α : Type} (x : S1x2048.Idx → α) (r : Fin 1024) (cc : Fin 2048) :
    broadcastTo S1024x2048 x broadcasts_S1x2048_S1024x2048 (ix2 r cc) = x (ix2 (0 : Fin 1) cc) :=
  broadcastTo_apply x _ (ix2 r cc) (ix2 (0 : Fin 1) cc) (fun a => match a with
    | ⟨0, _⟩ => by show 0 = if (1 : Nat) = 1 then 0 else r.val; rw [if_pos rfl]
    | ⟨1, _⟩ => by show cc.val = if (2048 : Nat) = 1 then 0 else cc.val; rw [if_neg (by decide)])

/-- The same through the identity shape cast the program prints. -/
theorem brow_apply {α : Type} (x : S1x2048.Idx → α) (r : Fin 1024) (cc : Fin 2048) :
    broadcastTo S1024x2048 (shapeCast S1x2048 x shapeCasts_S1x2048_S1x2048) broadcasts_S1x2048_S1024x2048 (ix2 r cc)
      = x (ix2 (0 : Fin 1) cc) := by
  rw [shapeCast_self]
  exact brow0_apply x r cc

/-! ## The product with the transposed key block -/

theorem lhs_dot_0 (i : S1024x2048.Idx) (q : dot_S1024x128_S128x2048_S1024x2048_1_0_0_1_n_n.contr.Idx) :
    (dot_S1024x128_S128x2048_S1024x2048_1_0_0_1_n_n.lhsIdx i q 0).val = (i 0).val := by
  unfold DotDims.lhsIdx
  rw [dif_neg (show ¬(0 : Fin S1024x128.rank) ∈ dot_S1024x128_S128x2048_S1024x2048_1_0_0_1_n_n.lhsBatch by decide), dif_pos (show (0 : Fin S1024x128.rank) ∈ dot_S1024x128_S128x2048_S1024x2048_1_0_0_1_n_n.lhsNonContracting by decide)]
  rfl
theorem lhs_dot_1 (i : S1024x2048.Idx) (q : dot_S1024x128_S128x2048_S1024x2048_1_0_0_1_n_n.contr.Idx) :
    (dot_S1024x128_S128x2048_S1024x2048_1_0_0_1_n_n.lhsIdx i q 1).val = (q ⟨0, by decide⟩).val :=
  dot_S1024x128_S128x2048_S1024x2048_1_0_0_1_n_n.lhsIdx_val_of_single rfl i q
theorem rhs_dot_0 (i : S1024x2048.Idx) (q : dot_S1024x128_S128x2048_S1024x2048_1_0_0_1_n_n.contr.Idx) :
    (dot_S1024x128_S128x2048_S1024x2048_1_0_0_1_n_n.rhsIdx i q 0).val = (q ⟨0, by decide⟩).val :=
  dot_S1024x128_S128x2048_S1024x2048_1_0_0_1_n_n.rhsIdx_val_of_single rfl i q
theorem rhs_dot_1 (i : S1024x2048.Idx) (q : dot_S1024x128_S128x2048_S1024x2048_1_0_0_1_n_n.contr.Idx) :
    (dot_S1024x128_S128x2048_S1024x2048_1_0_0_1_n_n.rhsIdx i q 1).val = (i 1).val := by
  unfold DotDims.rhsIdx
  rw [dif_neg (show ¬(1 : Fin S128x2048.rank) ∈ dot_S1024x128_S128x2048_S1024x2048_1_0_0_1_n_n.rhsBatch by decide), dif_pos (show (1 : Fin S128x2048.rank) ∈ dot_S1024x128_S128x2048_S1024x2048_1_0_0_1_n_n.rhsNonContracting by decide)]
  rfl

/-- The tile of inner products: entry `(r, cc)` is the sum over the 128 coordinates of the products. -/
theorem dot_apply (X : Fin 8192 → Fin 128 → EReal) (row col : Fin 8192)
    (x0 : FVec Ideal S1024x128 .f32) (x1 : FVec Ideal S2048x128 .f32) (r : Fin 1024) (cc : Fin 2048)
    (h0 : ∀ k : Fin 128, x0 (ix2 r k) = X row k) (h1 : ∀ k : Fin 128, x1 (ix2 cc k) = X col k) :
    matmul dot_S1024x128_S128x2048_S1024x2048_1_0_0_1_n_n none x0 (transpose S128x2048 [1, 0] x1 transposes_S2048x128_p1_0_S128x2048)
        (constant (F := Ideal) S1024x2048 .f32 0x00000000#32) (ix2 r cc)
      = Cert.Spec.dot X row col := by
  generalize hy : transpose S128x2048 [1, 0] x1 transposes_S2048x128_p1_0_S128x2048 = y1
  simp only [matmul]
  rw [Ideal.matmul_constant_zero_apply, ← Equiv.sum_comp (ValueIdx.contrEquiv1 dot_S1024x128_S128x2048_S1024x2048_1_0_0_1_n_n 128 rfl rfl).symm]
  unfold Cert.Spec.dot
  refine Finset.sum_congr rfl fun k _ => ?_
  have hk := ValueIdx.contrEquiv1_symm_val dot_S1024x128_S128x2048_S1024x2048_1_0_0_1_n_n 128 rfl rfl k
  have el : dot_S1024x128_S128x2048_S1024x2048_1_0_0_1_n_n.lhsIdx (ix2 r cc) ((ValueIdx.contrEquiv1 dot_S1024x128_S128x2048_S1024x2048_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S1024x128_S128x2048_S1024x2048_1_0_0_1_n_n.rhsIdx (ix2 r cc) ((ValueIdx.contrEquiv1 dot_S1024x128_S128x2048_S1024x2048_1_0_0_1_n_n 128 rfl rfl).symm k) = ix2 k cc := funext fun a => Fin.ext (by
    match a with
    | ⟨0, _⟩ => exact (rhs_dot_0 _ _).trans hk
    | ⟨1, _⟩ => exact rhs_dot_1 _ _)
  rw [el, er, h0 k, ← hy]
  refine congrArg (X row k * ·) ?_
  exact (transpose_apply [1, 0] x1 transposes_S2048x128_p1_0_S128x2048 (ix2 k cc) (ix2 cc k) (fun b => match b with
    | ⟨0, _⟩ => rfl
    | ⟨1, _⟩ => rfl)).trans (h1 k)

/-! ## The squared distance -/

/-- The payload `k0_pay8` at entry `(r, cc)`: the specification's squared distance of the two rows. -/
theorem pay8_apply (X : Fin 8192 → Fin 128 → EReal) (row col : Fin 8192)
    (x0 : FVec Ideal S1024x128 .f32) (x1 : FVec Ideal S2048x128 .f32) (x2 : FVec Ideal S1024x1 .f32) (x3 : FVec Ideal S1x2048 .f32)
    (r : Fin 1024) (cc : Fin 2048)
    (h0 : ∀ k : Fin 128, x0 (ix2 r k) = X row k) (h1 : ∀ k : Fin 128, x1 (ix2 cc k) = X col k)
    (h2 : x2 (ix2 r (0 : Fin 1)) = Cert.Spec.sq X row) (h3 : x3 (ix2 (0 : Fin 1) cc) = Cert.Spec.sq X col) :
    k0_pay8 (F := Ideal) x0 x1 x2 x3 (ix2 r cc) = Cert.Spec.d2 X row col := by
  have hM := dot_apply X row col x0 x1 r cc h0 h1
  have hA := (bcol_apply x2 r cc).trans h2
  have hB := (brow_apply x3 r cc).trans h3
  unfold k0_pay8 Cert.Spec.d2
  exact congrArg₂ max (congrArg₂ (· - ·) (congrArg₂ (· + ·) hA hB)
    (congrArg₂ (· * ·) (rfl : broadcast S1024x2048 (Scalar.ofBits (F := Ideal) .f32 0x40000000#32) (ix2 r cc) = Cert.Spec.two) hM)) rfl

end Cert.KernelIdeal.Val

end
-- ==== Proof.KI.PayMask.lean ====
/-
  The masks of a tile read at an entry. The global row of tile row `r` at grid coordinate `q` is `1024·q + r`, the
  global column of tile column `cc` at grid coordinate `kk` is `2048·kk + cc`; both are below 8192, so as 32-bit
  words they do not wrap and the diagonal bit is the equality of the two numbers. The label tiles are a column and
  a row broadcast; "same label" is the equality of the two words; a positive is "same label and off the diagonal",
  a negative is "another label".
-/
import proofs.«108932_j15444702397006_2_alg».proof.Proof.Gen.KernelIdeal.Skeleton
import proofs.«108932_j15444702397006_2_alg».proof.Proof.SpecMath
import Idealize.ShloMosaic.Lib.ValueIdx
import Idealize.ShloMosaic.Lib.Pipeline.Value
import Idealize.ShloMosaic.Lib.ValueLayout
import Idealize.ShloMosaic.PureOps.Ideal.Laws
import proofs.«108932_j15444702397006_2_alg».proof.Proof.KI.PayD2
set_option maxRecDepth 16384

noncomputable section

namespace Cert.KernelIdeal.Val

open Idealize.ShloMosaic Idealize.SL.Sem
open Cert.KernelIdeal Cert.KernelIdeal.Gen
open Idealize.ShloMosaic.ValueIdx

/-! ## Words -/

theorem ofNat32_inj {m n : Nat} (hm : m < 2 ^ 32) (hn : n < 2 ^ 32) : BitVec.ofNat 32 m = BitVec.ofNat 32 n ↔ m = n := by
  constructor
  · intro h
    have h' := congrArg BitVec.toNat h
    simp only [BitVec.toNat_ofNat] at h'
    rwa [Nat.mod_eq_of_lt hm, Nat.mod_eq_of_lt hn] at h'
  · rintro rfl; rfl

/-- An offset `a · s + b` formed in 32-bit words is the word of that number. -/
theorem word_offset (a s b : Nat) :
    IntOp.addi (Scalar.muli (BitVec.ofNat 32 a) (BitVec.ofNat 32 s)) (BitVec.ofNat 32 b) = BitVec.ofNat 32 (a * s + b) := by
  show BitVec.ofNat 32 a * BitVec.ofNat 32 s + BitVec.ofNat 32 b = _
  rw [← BitVec.ofNat_mul, ← BitVec.ofNat_add]

theorem cmpi_eq_one_iff {w : Nat} (a b : BitVec w) : IntOp.cmpi .eq a b = 1#1 ↔ a = b := by
  show BitVec.ofBool (a == b) = 1#1 ↔ a = b
  by_cases h : a = b
  · subst h; simp
  · have hb : (a == b) = false := beq_eq_false_iff_ne.mpr h
    rw [hb]
    constructor
    · intro h'; exact absurd h' (by decide)
    · intro h'; exact absurd h' h

theorem and_xor_one_iff (a b : BitVec 1) : IntOp.andi a (IntOp.xori b 1#1) = 1#1 ↔ a = 1#1 ∧ b ≠ 1#1 := by
  rcases BitVec.eq_zero_or_eq_one a with ha | ha <;> rcases BitVec.eq_zero_or_eq_one b with hb | hb <;> subst ha <;> subst hb <;> decide

theorem xor_one_iff (a : BitVec 1) : IntOp.xori a 1#1 = 1#1 ↔ a ≠ 1#1 := by
  rcases BitVec.eq_zero_or_eq_one a with ha | ha <;> subst ha <;> decide

/-! ## The diagonal -/

/-- The diagonal bit of a tile: set exactly where the global row is the global column. -/
theorem pay9_iff (i : grid0.Coords) (r : Fin 1024) (cc : Fin 2048) :
    k0_pay9 i (ix2 r cc) = 1#1 ↔ (i 0).val * 1024 + r.val = (i 1).val * 2048 + cc.val := by
  have e : k0_pay9 i (ix2 r cc)
      = IntOp.cmpi .eq (IntOp.addi (Scalar.muli (BitVec.ofNat 32 (i 0).val) (BitVec.ofNat 32 1024)) (BitVec.ofNat 32 r.val))
          (IntOp.addi (Scalar.muli (BitVec.ofNat 32 (i 1).val) (BitVec.ofNat 32 2048)) (BitVec.ofNat 32 cc.val)) := by
    unfold k0_pay9
    exact congrArg₂ (IntOp.cmpi .eq)
      ((bcol0_apply _ r cc).trans (congrArg (IntOp.addi _) (iota_single_apply .tc S1024x1 32 0 iota_S1024x1_d0_w32 (ix2 r (0 : Fin 1)))))
      ((brow0_apply _ r cc).trans (congrArg (IntOp.addi _) (iota_single_apply .tc S1x2048 32 1 iota_S1x2048_d1_w32 (ix2 (0 : Fin 1) cc))))
  have hq : (i 0).val < 8 := (i 0).isLt
  have hk : (i 1).val < 4 := (i 1).isLt
  have hr := r.isLt
  have hc := cc.isLt
  rw [e, cmpi_eq_one_iff, word_offset, word_offset]
  exact ofNat32_inj (by omega) (by omega)

/-! ## The labels -/

theorem pay10_apply (x4 : IVec S1024x1 32) (r : Fin 1024) (cc : Fin 2048) :
    k0_pay10 (F := Ideal) x4 (ix2 r cc) = x4 (ix2 r (0 : Fin 1)) := by
  unfold k0_pay10
  exact bcol_apply x4 r cc

theorem pay11_apply (x5 : IVec S1x2048 32) (r : Fin 1024) (cc : Fin 2048) :
    k0_pay11 (F := Ideal) x5 (ix2 r cc) = x5 (ix2 (0 : Fin 1) cc) := by
  unfold k0_pay11
  exact brow_apply x5 r cc

/-! ## Same label, positive, negative -/

theorem pay12_iff (v36 v37 : IVec S1024x2048 32) (j : S1024x2048.Idx) :
    k0_pay12 v36 v37 j = 1#1 ↔ v36 j = v37 j := by
  unfold k0_pay12
  exact cmpi_eq_one_iff _ _

/-- The positive mask: same label and off the diagonal. -/
theorem pay13_iff (lab : Fin 8192 → BitVec 32) (row col : Fin 8192) (v31 : IVec S1024x2048 1) (v36 v37 : IVec S1024x2048 32)
    (j : S1024x2048.Idx) (h36 : v36 j = lab row) (h37 : v37 j = lab col) (h31 : v31 j = 1#1 ↔ row = col) :
    k0_pay13 v31 v36 v37 j = 1#1 ↔ Cert.Spec.pos lab row col := by
  have e : k0_pay13 v31 v36 v37 j = IntOp.andi (k0_pay12 v36 v37 j) (IntOp.xori (v31 j) 1#1) := by
    unfold k0_pay13; rfl
  rw [e, and_xor_one_iff, pay12_iff, h36, h37, Ne, h31]
  rfl

/-- The negative mask: another label. -/
theorem pay14_iff (lab : Fin 8192 → BitVec 32) (row col : Fin 8192) (v36 v37 : IVec S1024x2048 32)
    (j : S1024x2048.Idx) (h36 : v36 j = lab row) (h37 : v37 j = lab col) :
    k0_pay14 v36 v37 j = 1#1 ↔ Cert.Spec.neg lab row col := by
  have e : k0_pay14 v36 v37 j = IntOp.xori (k0_pay12 v36 v37 j) 1#1 := by
    unfold k0_pay14; rfl
  rw [e, xor_one_iff, Ne, pay12_iff, h36, h37]
  rfl

end Cert.KernelIdeal.Val

end
-- ==== Proof.KI.PayRed.lean ====
/-
  The row reductions of a tile and the carried accumulators, read at a row.

  A maximum over the 2048 columns of a tile from the word of `-∞` is the supremum over the columns (the word is `⊥`),
  a minimum from the word of `+∞` is the infimum (the word is `⊤`). The running maximum of the positives' squared
  distances takes the maximum with the carried value, the running minimum of the negatives' the minimum. "Some column
  of the tile is a positive" is computed as a maximum of 0/1 floats compared with zero. The carried 0/1 words take
  the signed maximum with that bit.
-/
import proofs.«108932_j15444702397006_2_alg».proof.Proof.Gen.KernelIdeal.Skeleton
import proofs.«108932_j15444702397006_2_alg».proof.Proof.SpecMath
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

open scoped Classical

namespace Cert.KernelIdeal.Val

open Idealize.ShloMosaic Idealize.SL.Sem
open Cert.KernelIdeal Cert.KernelIdeal.Gen
open Idealize.ShloMosaic.ValueIdx

/-! ## The two infinite words -/

theorem ofBits_neg_inf_f32 : Ideal.ofBits .f32 0xFF800000#32 = ⊥ := by
  simp [Ideal.ofBits, Ideal.ieee]

theorem ofBits_pos_inf_f32 : Ideal.ofBits .f32 0x7F800000#32 = ⊤ := by
  simp [Ideal.ofBits, Ideal.ieee]

/-! ## Folds of max and min are suprema and infima -/

theorem fold_max_eq_sup {ι : Type} [DecidableEq ι] (s : Finset ι) (f : ι → EReal) : s.fold max ⊥ f = s.sup f := by
  induction s using Finset.induction_on with
  | empty => simp
  | insert a s ha ih => rw [Finset.fold_insert ha, Finset.sup_insert, ih]

theorem fold_min_eq_inf {ι : Type} [DecidableEq ι] (s : Finset ι) (f : ι → EReal) : s.fold min ⊤ f = s.inf f := by
  induction s using Finset.induction_on with
  | empty => simp
  | insert a s ha ih => rw [Finset.fold_insert ha, Finset.inf_insert, ih]

/-- The index of a tile with column `c` put back into row `r`. -/
theorem lift_row (r : Fin 1024) (c : Fin 2048) :
    reduces_S1024x2048_S1024.lift (ix1 r) c = (ix2 r c : S1024x2048.Idx) :=
  funext fun a => Fin.ext (by match a with | ⟨0, _⟩ => rfl | ⟨1, _⟩ => rfl)

/-- A maximum over the columns of a tile from the word of `-∞`, at row `r`. -/
theorem rowMax_apply (src : FVec Ideal S1024x2048 .f32) (r : Fin 1024) :
    multiReduction .maximumf [1] S1024 src 0xFF800000#32 reduces_S1024x2048_S1024 (.inl rfl) rfl (ix1 r)
      = Finset.univ.sup fun c : Fin 2048 => src (ix2 r c) := by
  refine (Ideal.multiReduction_maximumf_single src 0xFF800000#32 reduces_S1024x2048_S1024 (.inl rfl) rfl (ix1 r)).trans ?_
  rw [Ideal.ofBits_def, ofBits_neg_inf_f32]
  refine (fold_max_eq_sup (Finset.univ : Finset (Fin 2048)) _).trans ?_
  refine Finset.sup_congr rfl fun c _ => ?_
  exact congrArg src (lift_row r c)

/-- A minimum over the columns of a tile from the word of `+∞`, at row `r`. -/
theorem rowMin_apply (src : FVec Ideal S1024x2048 .f32) (r : Fin 1024) :
    multiReduction .minimumf [1] S1024 src 0x7F800000#32 reduces_S1024x2048_S1024 (.inl rfl) rfl (ix1 r)
      = Finset.univ.inf fun c : Fin 2048 => src (ix2 r c) := by
  refine (multiReduction_minimumf_eq_fold src 0x7F800000#32 reduces_S1024x2048_S1024 (.inl rfl) rfl (ix1 r)).trans ?_
  refine (reduces_S1024x2048_S1024.fold_filter_drop_single _ _ src (ix1 r)).trans ?_
  rw [Ideal.ofBits_def, ofBits_pos_inf_f32]
  refine (fold_min_eq_inf (Finset.univ : Finset (Fin 2048)) _).trans ?_
  refine Finset.inf_congr rfl fun c _ => ?_
  exact congrArg src (lift_row r c)

/-- A vector `[1024]` cast to a column reads its entry. -/
theorem castCol_apply {α : Type} (x : S1024.Idx → α) (r : Fin 1024) :
    shapeCast S1024x1 x shapeCasts_S1024_S1024x1 (ix2 r (0 : Fin 1)) = x (ix1 r) := by
  refine shapeCast_apply _ _ (ix2 r (0 : Fin 1)) (ix1 r) ?_
  rw [Shape.rowMajor_val_two, Shape.rowMajor_val_one]
  show r.val = r.val * 1 + 0
  omega

/-! ## The running extremes -/

/-- The running maximum of the positives' squared distances: the carried value and the tile's row supremum. -/
theorem pay17_apply (X : Fin 8192 → Fin 128 → EReal) (lab : Fin 8192 → BitVec 32) (row : Fin 8192) (colOf : Fin 2048 → Fin 8192)
    (v18 : FVec Ideal S1024x2048 .f32) (v31 : IVec S1024x2048 1) (v36 v37 : IVec S1024x2048 32) (v64 : FVec Ideal S1024x1 .f32)
    (r : Fin 1024)
    (h18 : ∀ cc : Fin 2048, v18 (ix2 r cc) = Cert.Spec.d2 X row (colOf cc))
    (h13 : ∀ cc : Fin 2048, k0_pay13 v31 v36 v37 (ix2 r cc) = 1#1 ↔ Cert.Spec.pos lab row (colOf cc)) :
    k0_pay17 (F := Ideal) v18 v31 v36 v37 v64 (ix2 r (0 : Fin 1))
      = max (v64 (ix2 r (0 : Fin 1)))
          (Finset.univ.sup fun cc : Fin 2048 => if Cert.Spec.pos lab row (colOf cc) then Cert.Spec.d2 X row (colOf cc) else ⊥) := by
  unfold k0_pay17
  refine (congrFun (shapeCast_self _ _) _).trans ?_
  refine congrArg₂ max rfl ?_
  refine (castCol_apply _ r).trans ?_
  refine (rowMax_apply _ r).trans ?_
  refine Finset.sup_congr rfl fun cc _ => ?_
  show Scalar.select (k0_pay13 v31 v36 v37 (ix2 r cc)) (v18 (ix2 r cc)) (Scalar.ofBits (F := Ideal) .f32 0xFF800000#32) = _
  by_cases hp : Cert.Spec.pos lab row (colOf cc)
  · rw [(h13 cc).mpr hp, select_one, if_pos hp, h18]
  · rw [eq_zero_of_ne_one (fun h => hp ((h13 cc).mp h)), select_zero, if_neg hp]
    exact ofBits_neg_inf_f32

/-- The running minimum of the negatives' squared distances: the carried value and the tile's row infimum. -/
theorem pay18_apply (X : Fin 8192 → Fin 128 → EReal) (lab : Fin 8192 → BitVec 32) (row : Fin 8192) (colOf : Fin 2048 → Fin 8192)
    (v18 : FVec Ideal S1024x2048 .f32) (v36 v37 : IVec S1024x2048 32) (v69 : FVec Ideal S1024x1 .f32)
    (r : Fin 1024)
    (h18 : ∀ cc : Fin 2048, v18 (ix2 r cc) = Cert.Spec.d2 X row (colOf cc))
    (h14 : ∀ cc : Fin 2048, k0_pay14 v36 v37 (ix2 r cc) = 1#1 ↔ Cert.Spec.neg lab row (colOf cc)) :
    k0_pay18 (F := Ideal) v18 v36 v37 v69 (ix2 r (0 : Fin 1))
      = min (v69 (ix2 r (0 : Fin 1)))
          (Finset.univ.inf fun cc : Fin 2048 => if Cert.Spec.neg lab row (colOf cc) then Cert.Spec.d2 X row (colOf cc) else ⊤) := by
  unfold k0_pay18
  refine (congrFun (shapeCast_self _ _) _).trans ?_
  refine congrArg₂ min rfl ?_
  refine (castCol_apply _ r).trans ?_
  refine (rowMin_apply _ r).trans ?_
  refine Finset.inf_congr rfl fun cc _ => ?_
  show Scalar.select (k0_pay14 v36 v37 (ix2 r cc)) (v18 (ix2 r cc)) (Scalar.ofBits (F := Ideal) .f32 0x7F800000#32) = _
  by_cases hp : Cert.Spec.neg lab row (colOf cc)
  · rw [(h14 cc).mpr hp, select_one, if_pos hp, h18]
  · rw [eq_zero_of_ne_one (fun h => hp ((h14 cc).mp h)), select_zero, if_neg hp]
    exact ofBits_pos_inf_f32

/-! ## "Some column of the tile is a positive / a negative" -/

theorem cmpf_ogt_iff (x y : EReal) : FloatOps.cmpf (F := Ideal) (φ := .f32) .ogt x y = 1#1 ↔ y < x := by
  rw [Ideal.cmpf_def]
  unfold Ideal.cmp
  by_cases h : y < x
  · simp [h]
  · simp [h]

/-- A supremum of 0/1 values is positive exactly when one of them is 1. -/
theorem zero_lt_sup_ite {ι : Type} [Fintype ι] (P : ι → Prop) [DecidablePred P] :
    (0 : EReal) < (Finset.univ.sup fun c : ι => if P c then (1 : EReal) else 0) ↔ ∃ c, P c := by
  rw [Finset.lt_sup_iff]
  constructor
  · rintro ⟨c, _, hc⟩
    by_cases hp : P c
    · exact ⟨c, hp⟩
    · rw [if_neg hp] at hc; exact absurd hc (lt_irrefl _)
  · rintro ⟨c, hp⟩
    exact ⟨c, Finset.mem_univ c, by rw [if_pos hp]; exact zero_lt_one⟩

/-- "Some column of row `r` of the tile has its mask bit set", as the program computes it: the mask selects the
floats 1 and 0, the row maximum from the word of `-∞` is compared with zero. -/
theorem hasBit_iff (m : IVec S1024x2048 1) (r : Fin 1024) :
    shapeCast S1024x1
        (cmpf .ogt
          (multiReduction .maximumf [1] S1024
            (select m (broadcast S1024x2048 (Scalar.ofBits (F := Ideal) .f32 0x3F800000#32))
              (broadcast S1024x2048 (Scalar.ofBits (F := Ideal) .f32 0x00000000#32)))
            0xFF800000#32 reduces_S1024x2048_S1024 (.inl rfl) rfl)
          (broadcast S1024 (Scalar.ofBits (F := Ideal) .f32 0x00000000#32)))
        shapeCasts_S1024_S1024x1 (ix2 r (0 : Fin 1)) = 1#1
      ↔ ∃ cc : Fin 2048, m (ix2 r cc) = 1#1 := by
  rw [castCol_apply, cmpf_apply, rowMax_apply, broadcast_apply]
  have e0 : Scalar.ofBits (F := Ideal) .f32 0x00000000#32 = (0 : EReal) := Ideal.ofBits_zero_f32
  have e1 : Scalar.ofBits (F := Ideal) .f32 0x3F800000#32 = (1 : EReal) := Ideal.ofBits_one_f32
  have es : ∀ c : Fin 2048,
      select m (broadcast S1024x2048 (Scalar.ofBits (F := Ideal) .f32 0x3F800000#32))
          (broadcast S1024x2048 (Scalar.ofBits (F := Ideal) .f32 0x00000000#32)) (ix2 r c)
        = if m (ix2 r c) = 1#1 then (1 : EReal) else 0 := by
    intro c
    rw [select_apply, broadcast_apply, broadcast_apply, e0, e1]
    rfl
  simp only [es]
  rw [e0, cmpf_ogt_iff, zero_lt_sup_ite]

/-- The bit "some column of this tile is a positive of the row". -/
theorem pay15_iff (lab : Fin 8192 → BitVec 32) (row : Fin 8192) (colOf : Fin 2048 → Fin 8192)
    (v31 : IVec S1024x2048 1) (v36 v37 : IVec S1024x2048 32) (r : Fin 1024)
    (h13 : ∀ cc : Fin 2048, k0_pay13 v31 v36 v37 (ix2 r cc) = 1#1 ↔ Cert.Spec.pos lab row (colOf cc)) :
    k0_pay15 (F := Ideal) v31 v36 v37 (ix2 r (0 : Fin 1)) = 1#1 ↔ ∃ cc : Fin 2048, Cert.Spec.pos lab row (colOf cc) := by
  unfold k0_pay15
  exact (hasBit_iff (k0_pay13 v31 v36 v37) r).trans (exists_congr h13)

/-- The bit "some column of this tile is a negative of the row". -/
theorem pay16_iff (lab : Fin 8192 → BitVec 32) (row : Fin 8192) (colOf : Fin 2048 → Fin 8192)
    (v36 v37 : IVec S1024x2048 32) (r : Fin 1024)
    (h14 : ∀ cc : Fin 2048, k0_pay14 v36 v37 (ix2 r cc) = 1#1 ↔ Cert.Spec.neg lab row (colOf cc)) :
    k0_pay16 (F := Ideal) v36 v37 (ix2 r (0 : Fin 1)) = 1#1 ↔ ∃ cc : Fin 2048, Cert.Spec.neg lab row (colOf cc) := by
  unfold k0_pay16
  exact (hasBit_iff (k0_pay14 v36 v37) r).trans (exists_congr h14)

/-! ## The carried 0/1 words -/

/-- A carried word is the word 0 or the word 1. -/
def IsFlag (w : BitVec 32) : Prop := w = 0#32 ∨ w = 1#32

theorem pay1_apply (v56 : IVec S1024x1 1) (v74 : IVec S1024x1 32) (j : S1024x1.Idx) :
    k0_pay1 (F := Ideal) v56 v74 j = IntOp.maxsi (v74 j) ((v56 j).setWidth 32) := by
  unfold k0_pay1
  exact congrFun (shapeCast_self _ _) j

theorem pay2_apply (v63 : IVec S1024x1 1) (v80 : IVec S1024x1 32) (j : S1024x1.Idx) :
    k0_pay2 (F := Ideal) v63 v80 j = IntOp.maxsi (v80 j) ((v63 j).setWidth 32) := by
  unfold k0_pay2
  exact congrFun (shapeCast_self _ _) j

/-- The signed maximum of a 0/1 word with a bit is again a 0/1 word, and is 1 exactly when either was. -/
theorem maxsi_flag (w : BitVec 32) (b : BitVec 1) (hw : IsFlag w) :
    IsFlag (IntOp.maxsi w (b.setWidth 32)) ∧ (IntOp.maxsi w (b.setWidth 32) = 1#32 ↔ w = 1#32 ∨ b = 1#1) := by
  unfold IsFlag at hw ⊢
  rcases hw with h | h <;> rcases BitVec.eq_zero_or_eq_one b with hb | hb <;> subst h <;> subst hb <;> decide

/-- A 0/1 word is greater than zero, as a signed word, exactly when it is 1. -/
theorem sgt_zero_iff (w : BitVec 32) (hw : IsFlag w) : IntOp.cmpi .sgt w 0#32 = 1#1 ↔ w = 1#32 := by
  unfold IsFlag at hw
  rcases hw with h | h <;> subst h <;> decide

/-! ## The reset values -/

theorem pay4_apply (j : S1024x1.Idx) : k0_pay4 (F := Ideal) j = ⊥ := by
  unfold k0_pay4
  exact (congrFun (shapeCast_self _ _) j).trans ofBits_neg_inf_f32

theorem pay5_apply (j : S1024x1.Idx) : k0_pay5 (F := Ideal) j = ⊤ := by
  unfold k0_pay5
  exact (congrFun (shapeCast_self _ _) j).trans ofBits_pos_inf_f32

theorem pay6_apply (j : S1024x1.Idx) : k0_pay6 j = 0#32 := by
  unfold k0_pay6
  exact congrFun (shapeCast_self _ _) j

theorem pay7_apply (j : S1024x1.Idx) : k0_pay7 j = 0#32 := by
  unfold k0_pay7
  exact congrFun (shapeCast_self _ _) j

end Cert.KernelIdeal.Val

end
-- ==== Proof.KI.PayFin.lean ====
/-
  The finalize step of a row, read at the two columns of the output block. From the carried maximum `mp` of the
  positives' squared distances, the carried minimum `mn` of the negatives', and the two carried 0/1 words it forms
  the margin `max (√(max mp 0) - √(max mn 0) + 1) 0`, the bit "has a positive, has a negative, and the margin is
  positive", and writes the margin where the bit is set (zero elsewhere) in column 0 and the bit as the float 1 or 0 in
  column 1. With `mp`, `mn` the row's extremes over all columns these are the specification's `lossK` and `flagK`.
-/
import proofs.«108932_j15444702397006_2_alg».proof.Proof.Gen.KernelIdeal.Skeleton
import proofs.«108932_j15444702397006_2_alg».proof.Proof.SpecMath
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
set_option maxRecDepth 16384

noncomputable section

open scoped Classical

namespace Cert.KernelIdeal.Val

open Idealize.ShloMosaic Idealize.SL.Sem
open Cert.KernelIdeal Cert.KernelIdeal.Gen
open Idealize.ShloMosaic.ValueIdx

/-- The margin of a row from its two carried extremes. -/
def finTl (mp mn : EReal) : EReal :=
  max (Ideal.sqrt (max mp Cert.Spec.zero) - Ideal.sqrt (max mn Cert.Spec.zero) + Cert.Spec.one) Cert.Spec.zero

/-- The valid bit of a row from its two carried extremes and its two carried 0/1 words. -/
def finBit (mp mn : EReal) (wp wn : BitVec 32) : BitVec 1 :=
  IntOp.andi (IntOp.andi (IntOp.cmpi .sgt wp 0#32) (IntOp.cmpi .sgt wn 0#32))
    (FloatOps.cmpf (F := Ideal) (φ := .f32) .ogt (finTl mp mn) Cert.Spec.zero)

/-- Column 0 of the output block: the margin where the bit is set. -/
theorem pay3_col0 (v89 v93 : FVec Ideal S1024x1 .f32) (v102 v105 : IVec S1024x1 32) (r : Fin 1024) :
    k0_pay3 (F := Ideal) v89 v93 v102 v105 (ix2 r (0 : Fin 2))
      = Scalar.select (finBit (v89 (ix2 r (0 : Fin 1))) (v93 (ix2 r (0 : Fin 1))) (v102 (ix2 r (0 : Fin 1))) (v105 (ix2 r (0 : Fin 1))))
          (finTl (v89 (ix2 r (0 : Fin 1))) (v93 (ix2 r (0 : Fin 1)))) Cert.Spec.zero := by
  unfold k0_pay3
  exact (concatenate_pair_apply_left (t := S1024x2) (s₁ := S1024x1) (s₂ := S1024x1) (1 : Fin 2) _ _
    concatenates_S1024x1_S1024x1_S1024x2_d1 (ix2 r (0 : Fin 2)) (rfl : S1024x1.rank = S1024x2.rank)
    (ix2 r (0 : Fin 1)) (fun b => match b with | ⟨0, _⟩ => rfl | ⟨1, _⟩ => rfl)).trans rfl

/-- Column 1 of the output block: the bit as a float. -/
theorem pay3_col1 (v89 v93 : FVec Ideal S1024x1 .f32) (v102 v105 : IVec S1024x1 32) (r : Fin 1024) :
    k0_pay3 (F := Ideal) v89 v93 v102 v105 (ix2 r (1 : Fin 2))
      = FloatOps.sitofp (F := Ideal) .f32
          ((finBit (v89 (ix2 r (0 : Fin 1))) (v93 (ix2 r (0 : Fin 1))) (v102 (ix2 r (0 : Fin 1))) (v105 (ix2 r (0 : Fin 1)))).setWidth 32) := by
  unfold k0_pay3
  exact (concatenate_pair_apply_right (t := S1024x2) (s₁ := S1024x1) (s₂ := S1024x1) (1 : Fin 2) _ _
    concatenates_S1024x1_S1024x1_S1024x2_d1 (ix2 r (1 : Fin 2)) (rfl : S1024x1.rank = S1024x2.rank) (rfl : S1024x1.rank = S1024x2.rank)
    (ix2 r (0 : Fin 1))
    (fun b => match b with | ⟨0, _⟩ => fun _ => rfl | ⟨1, _⟩ => fun h => absurd rfl h)
    rfl).trans rfl

theorem andi_one_iff (a b : BitVec 1) : IntOp.andi a b = 1#1 ↔ a = 1#1 ∧ b = 1#1 := by
  rcases BitVec.eq_zero_or_eq_one a with ha | ha <;> rcases BitVec.eq_zero_or_eq_one b with hb | hb <;> subst ha <;> subst hb <;> decide

theorem cmpf_ogt_iff' (x y : EReal) : FloatOps.cmpf (F := Ideal) (φ := .f32) .ogt x y = 1#1 ↔ y < x := by
  rw [Ideal.cmpf_def]
  unfold Ideal.cmp
  by_cases h : y < x
  · simp [h]
  · simp [h]

theorem sitofp_bit_one : FloatOps.sitofp (F := Ideal) .f32 ((1#1 : BitVec 1).setWidth 32) = (1 : EReal) := by
  show ((((1#1 : BitVec 1).setWidth 32).toInt : ℝ) : EReal) = 1
  rw [show ((1#1 : BitVec 1).setWidth 32).toInt = 1 by decide]
  simp

theorem sitofp_bit_zero : FloatOps.sitofp (F := Ideal) .f32 ((0#1 : BitVec 1).setWidth 32) = (0 : EReal) := by
  show ((((0#1 : BitVec 1).setWidth 32).toInt : ℝ) : EReal) = 0
  rw [show ((0#1 : BitVec 1).setWidth 32).toInt = 0 by decide]
  simp

variable (X : Fin 8192 → Fin 128 → EReal) (lab : Fin 8192 → BitVec 32)

/-- With the row's extremes over all columns the margin is the specification's. -/
theorem finTl_eq (row : Fin 8192) : finTl (Cert.Spec.mposK X lab row) (Cert.Spec.mnegK X lab row) = Cert.Spec.tlK X lab row := rfl

/-- With the row's extremes and "word > 0 ↔ there is one" the bit is the specification's valid. -/
theorem finBit_iff (row : Fin 8192) (wp wn : BitVec 32)
    (hp : IntOp.cmpi .sgt wp 0#32 = 1#1 ↔ ∃ j, Cert.Spec.pos lab row j)
    (hn : IntOp.cmpi .sgt wn 0#32 = 1#1 ↔ ∃ j, Cert.Spec.neg lab row j) :
    finBit (Cert.Spec.mposK X lab row) (Cert.Spec.mnegK X lab row) wp wn = 1#1 ↔ Cert.Spec.validK X lab row := by
  unfold finBit Cert.Spec.validK
  rw [andi_one_iff, andi_one_iff, cmpf_ogt_iff', hp, hn, finTl_eq, and_assoc]

/-- Column 0 is the row's masked loss. -/
theorem pay3_loss (row : Fin 8192) (v89 v93 : FVec Ideal S1024x1 .f32) (v102 v105 : IVec S1024x1 32) (r : Fin 1024)
    (h89 : v89 (ix2 r (0 : Fin 1)) = Cert.Spec.mposK X lab row) (h93 : v93 (ix2 r (0 : Fin 1)) = Cert.Spec.mnegK X lab row)
    (h102 : IntOp.cmpi .sgt (v102 (ix2 r (0 : Fin 1))) 0#32 = 1#1 ↔ ∃ j, Cert.Spec.pos lab row j)
    (h105 : IntOp.cmpi .sgt (v105 (ix2 r (0 : Fin 1))) 0#32 = 1#1 ↔ ∃ j, Cert.Spec.neg lab row j) :
    k0_pay3 (F := Ideal) v89 v93 v102 v105 (ix2 r (0 : Fin 2)) = Cert.Spec.lossK X lab row := by
  rw [pay3_col0, h89, h93, finTl_eq]
  unfold Cert.Spec.lossK
  by_cases hv : Cert.Spec.validK X lab row
  · rw [(finBit_iff X lab row _ _ h102 h105).mpr hv, select_one, if_pos hv]
  · rw [eq_zero_of_ne_one (fun h => hv ((finBit_iff X lab row _ _ h102 h105).mp h)), select_zero, if_neg hv]

/-- Column 1 is the row's valid flag as the float 1 or 0. -/
theorem pay3_flag (row : Fin 8192) (v89 v93 : FVec Ideal S1024x1 .f32) (v102 v105 : IVec S1024x1 32) (r : Fin 1024)
    (h89 : v89 (ix2 r (0 : Fin 1)) = Cert.Spec.mposK X lab row) (h93 : v93 (ix2 r (0 : Fin 1)) = Cert.Spec.mnegK X lab row)
    (h102 : IntOp.cmpi .sgt (v102 (ix2 r (0 : Fin 1))) 0#32 = 1#1 ↔ ∃ j, Cert.Spec.pos lab row j)
    (h105 : IntOp.cmpi .sgt (v105 (ix2 r (0 : Fin 1))) 0#32 = 1#1 ↔ ∃ j, Cert.Spec.neg lab row j) :
    k0_pay3 (F := Ideal) v89 v93 v102 v105 (ix2 r (1 : Fin 2)) = Cert.Spec.flagK X lab row := by
  rw [pay3_col1, h89, h93]
  unfold Cert.Spec.flagK
  by_cases hv : Cert.Spec.validK X lab row
  · rw [(finBit_iff X lab row _ _ h102 h105).mpr hv, if_pos hv]; exact sitofp_bit_one
  · rw [eq_zero_of_ne_one (fun h => hv ((finBit_iff X lab row _ _ h102 h105).mp h)), if_neg hv]; exact sitofp_bit_zero

end Cert.KernelIdeal.Val

end
-- ==== Proof.KI.PayIdx.lean ====
/-
  The kernel's payloads read at an index: the squared-distance tile, the masks, the row reductions with the carried
  accumulators, and the finalize step.
-/
import proofs.«108932_j15444702397006_2_alg».proof.Proof.KI.PayD2
import proofs.«108932_j15444702397006_2_alg».proof.Proof.KI.PayMask
import proofs.«108932_j15444702397006_2_alg».proof.Proof.KI.PayRed
import proofs.«108932_j15444702397006_2_alg».proof.Proof.KI.PayFin
-- ==== Proof.KI.RowsMath.lean ====
/-
  Extremes and existence over a growing prefix of the 8192 columns, four key tiles of 2048 columns each.

  For a function `g` of the column, the supremum over the columns below `2048·(kk+1)` is the maximum of the supremum
  over the columns below `2048·kk` and the supremum over the 2048 columns of key tile `kk`; the prefix of length zero
  gives `⊥`, the prefix of length `2048·4` gives the supremum over all columns. The same with infima, `⊤` and `min`,
  and with "there is a column below the bound with property `P`" and "or".
-/
import proofs.«108932_j15444702397006_2_alg».proof.Proof.SpecMath

noncomputable section

open scoped Classical

namespace Cert.Spec

/-! ## Suprema -/

theorem sup_prefix_zero (g : Fin 8192 → EReal) :
    (Finset.univ.sup fun j : Fin 8192 => if j.val < 2048 * 0 then g j else ⊥) = ⊥ := by
  apply le_antisymm _ bot_le
  apply Finset.sup_le
  intro j _
  rw [if_neg (by omega)]

theorem sup_prefix_full (g : Fin 8192 → EReal) :
    (Finset.univ.sup fun j : Fin 8192 => if j.val < 2048 * (3 + 1) then g j else ⊥) = Finset.univ.sup g := by
  refine Finset.sup_congr rfl fun j _ => ?_
  rw [if_pos (by have := j.isLt; omega)]

theorem sup_prefix_succ (g : Fin 8192 → EReal) (kk : Nat) (col : Fin 2048 → Fin 8192)
    (hcol : ∀ cc, (col cc).val = 2048 * kk + cc.val) :
    (Finset.univ.sup fun j : Fin 8192 => if j.val < 2048 * (kk + 1) then g j else ⊥)
      = max (Finset.univ.sup fun j : Fin 8192 => if j.val < 2048 * kk then g j else ⊥)
          (Finset.univ.sup fun cc : Fin 2048 => g (col cc)) := by
  apply le_antisymm
  · apply Finset.sup_le
    intro j _
    by_cases hj : j.val < 2048 * (kk + 1)
    · rw [if_pos hj]
      by_cases hj' : j.val < 2048 * kk
      · refine le_trans ?_ (le_max_left _ _)
        have h := Finset.le_sup (f := fun j : Fin 8192 => if j.val < 2048 * kk then g j else ⊥) (Finset.mem_univ j)
        simp only [if_pos hj'] at h
        exact h
      · refine le_trans ?_ (le_max_right _ _)
        have hc : j.val - 2048 * kk < 2048 := by omega
        have hje : col ⟨j.val - 2048 * kk, hc⟩ = j := Fin.ext (by
          rw [hcol]
          show 2048 * kk + (j.val - 2048 * kk) = j.val
          omega)
        have h := Finset.le_sup (f := fun cc : Fin 2048 => g (col cc)) (Finset.mem_univ ⟨j.val - 2048 * kk, hc⟩)
        simp only [hje] at h
        exact h
    · rw [if_neg hj]; exact bot_le
  · apply max_le
    · apply Finset.sup_le
      intro j _
      by_cases hj' : j.val < 2048 * kk
      · rw [if_pos hj']
        have hj : j.val < 2048 * (kk + 1) := by omega
        have h := Finset.le_sup (f := fun j : Fin 8192 => if j.val < 2048 * (kk + 1) then g j else ⊥) (Finset.mem_univ j)
        simp only [if_pos hj] at h
        exact h
      · rw [if_neg hj']; exact bot_le
    · apply Finset.sup_le
      intro cc _
      have hj : (col cc).val < 2048 * (kk + 1) := by rw [hcol]; have := cc.isLt; omega
      have h := Finset.le_sup (f := fun j : Fin 8192 => if j.val < 2048 * (kk + 1) then g j else ⊥) (Finset.mem_univ (col cc))
      simp only [if_pos hj] at h
      exact h

/-! ## Infima -/

theorem inf_prefix_zero (g : Fin 8192 → EReal) :
    (Finset.univ.inf fun j : Fin 8192 => if j.val < 2048 * 0 then g j else ⊤) = ⊤ := by
  apply le_antisymm le_top
  apply Finset.le_inf
  intro j _
  rw [if_neg (by omega)]

theorem inf_prefix_full (g : Fin 8192 → EReal) :
    (Finset.univ.inf fun j : Fin 8192 => if j.val < 2048 * (3 + 1) then g j else ⊤) = Finset.univ.inf g := by
  refine Finset.inf_congr rfl fun j _ => ?_
  rw [if_pos (by have := j.isLt; omega)]

theorem inf_prefix_succ (g : Fin 8192 → EReal) (kk : Nat) (col : Fin 2048 → Fin 8192)
    (hcol : ∀ cc, (col cc).val = 2048 * kk + cc.val) :
    (Finset.univ.inf fun j : Fin 8192 => if j.val < 2048 * (kk + 1) then g j else ⊤)
      = min (Finset.univ.inf fun j : Fin 8192 => if j.val < 2048 * kk then g j else ⊤)
          (Finset.univ.inf fun cc : Fin 2048 => g (col cc)) := by
  apply le_antisymm
  · apply le_min
    · apply Finset.le_inf
      intro j _
      by_cases hj' : j.val < 2048 * kk
      · rw [if_pos hj']
        have hj : j.val < 2048 * (kk + 1) := by omega
        have h := Finset.inf_le (f := fun j : Fin 8192 => if j.val < 2048 * (kk + 1) then g j else ⊤) (Finset.mem_univ j)
        simp only [if_pos hj] at h
        exact h
      · rw [if_neg hj']; exact le_top
    · apply Finset.le_inf
      intro cc _
      have hj : (col cc).val < 2048 * (kk + 1) := by rw [hcol]; have := cc.isLt; omega
      have h := Finset.inf_le (f := fun j : Fin 8192 => if j.val < 2048 * (kk + 1) then g j else ⊤) (Finset.mem_univ (col cc))
      simp only [if_pos hj] at h
      exact h
  · apply Finset.le_inf
    intro j _
    by_cases hj : j.val < 2048 * (kk + 1)
    · rw [if_pos hj]
      by_cases hj' : j.val < 2048 * kk
      · refine le_trans (min_le_left _ _) ?_
        have h := Finset.inf_le (f := fun j : Fin 8192 => if j.val < 2048 * kk then g j else ⊤) (Finset.mem_univ j)
        simp only [if_pos hj'] at h
        exact h
      · refine le_trans (min_le_right _ _) ?_
        have hc : j.val - 2048 * kk < 2048 := by omega
        have hje : col ⟨j.val - 2048 * kk, hc⟩ = j := Fin.ext (by
          rw [hcol]
          show 2048 * kk + (j.val - 2048 * kk) = j.val
          omega)
        have h := Finset.inf_le (f := fun cc : Fin 2048 => g (col cc)) (Finset.mem_univ ⟨j.val - 2048 * kk, hc⟩)
        simp only [hje] at h
        exact h
    · rw [if_neg hj]; exact le_top

/-! ## Existence -/

theorem exists_prefix_zero (P : Fin 8192 → Prop) : ¬ ∃ j : Fin 8192, j.val < 2048 * 0 ∧ P j := by
  rintro ⟨j, hj, _⟩
  omega

theorem exists_prefix_full (P : Fin 8192 → Prop) : (∃ j : Fin 8192, j.val < 2048 * (3 + 1) ∧ P j) ↔ ∃ j, P j :=
  ⟨fun ⟨j, _, h⟩ => ⟨j, h⟩, fun ⟨j, h⟩ => ⟨j, by have := j.isLt; omega, h⟩⟩

theorem exists_prefix_succ (P : Fin 8192 → Prop) (kk : Nat) (col : Fin 2048 → Fin 8192)
    (hcol : ∀ cc, (col cc).val = 2048 * kk + cc.val) :
    (∃ j : Fin 8192, j.val < 2048 * (kk + 1) ∧ P j)
      ↔ (∃ j : Fin 8192, j.val < 2048 * kk ∧ P j) ∨ ∃ cc : Fin 2048, P (col cc) := by
  constructor
  · rintro ⟨j, hj, hp⟩
    by_cases hj' : j.val < 2048 * kk
    · exact Or.inl ⟨j, hj', hp⟩
    · have hc : j.val - 2048 * kk < 2048 := by omega
      have hje : col ⟨j.val - 2048 * kk, hc⟩ = j := Fin.ext (by
        rw [hcol]
        show 2048 * kk + (j.val - 2048 * kk) = j.val
        omega)
      exact Or.inr ⟨⟨j.val - 2048 * kk, hc⟩, by rw [hje]; exact hp⟩
  · rintro (⟨j, hj, hp⟩ | ⟨cc, hp⟩)
    · exact ⟨j, by omega, hp⟩
    · exact ⟨col cc, by rw [hcol]; have := cc.isLt; omega, hp⟩

end Cert.Spec

end
-- ==== Proof.KI.RowsTile.lean ====
/-
  One key tile's contribution to a row, at the launched arrays.

  At grid point `t` (query tile `t / 4`, key tile `t % 4`), row `r` of the tile is global row `qrow t r` and column
  `cc` is global column `kcol t cc`. The squared-distance tile holds `d2` of those two rows, the positive mask is
  `pos` of them and the negative mask `neg`. So if the carried running maximum is the supremum of the positives'
  squared distances over the columns below `2048·(t % 4)`, the new one is that over the columns below
  `2048·(t % 4 + 1)`; likewise the running minimum over the negatives, and the two 0/1 words "a positive (a negative)
  was seen among the columns so far".
-/
import proofs.«108932_j15444702397006_2_alg».proof.Proof.KI.BlocksIdeal
import proofs.«108932_j15444702397006_2_alg».proof.Proof.KI.PayIdx
import proofs.«108932_j15444702397006_2_alg».proof.Proof.KI.RowsMath

set_option maxRecDepth 16384

noncomputable section

open scoped Classical

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- The squared-distance tile of a point, its diagonal mask and its two label tiles, as the body's payloads over the
point's input blocks. -/
abbrev tD (c : Dev nD) (t : Fin cfg0.N) : FVec Ideal S1024x2048 .f32 :=
  k0_pay8 (F := Ideal) (iblk0 (V1 m ρ) c 0 t) (iblk0 (V1 m ρ) c 1 t) (iblk0 (V1 m ρ) c 2 t) (iblk0 (V1 m ρ) c 3 t)
abbrev tE (t : Fin cfg0.N) : IVec S1024x2048 1 := k0_pay9 (grid0.coords t)
abbrev tL (c : Dev nD) (t : Fin cfg0.N) : IVec S1024x2048 32 := k0_pay10 (F := Ideal) (iblk0 (V1 m ρ) c 4 t)
abbrev tR (c : Dev nD) (t : Fin cfg0.N) : IVec S1024x2048 32 := k0_pay11 (F := Ideal) (iblk0 (V1 m ρ) c 5 t)

/-- A grid point's two coordinates. -/
theorem coords_facts : ∀ t : Fin cfg0.N, (grid0.coords t 0).val = t.val / 4 ∧ (grid0.coords t 1).val = t.val % 4 :=
  (by decide +kernel : ∀ t : Fin grid0.N, _)

/-- The squared-distance tile holds `d2` of the global row and column. -/
theorem d_tile (c : Dev nD) (t : Fin cfg0.N) (r : Fin 1024) (cc : Fin 2048) :
    tD m ρ c t (ix2 r cc) = Cert.Spec.d2 (XK m c) (qrow t r) (kcol t cc) :=
  pay8_apply (XK m c) (qrow t r) (kcol t cc) (iblk0 (V1 m ρ) c 0 t) (iblk0 (V1 m ρ) c 1 t) (iblk0 (V1 m ρ) c 2 t)
    (iblk0 (V1 m ρ) c 3 t) r cc (blk0 m ρ c t r) (blk1 m ρ c t cc) (blk2 m ρ c t r) (blk3 m ρ c t cc)

/-- The diagonal bit is set where the global row is the global column. -/
theorem diag_tile (t : Fin cfg0.N) (r : Fin 1024) (cc : Fin 2048) :
    tE t (ix2 r cc) = 1#1 ↔ qrow t r = kcol t cc := by
  obtain ⟨e0, e1⟩ := coords_facts t
  refine (pay9_iff (grid0.coords t) r cc).trans ?_
  rw [e0, e1]
  constructor
  · intro h
    exact Fin.ext (by show 1024 * (t.val / 4) + r.val = 2048 * (t.val % 4) + cc.val; omega)
  · intro h
    have h' : 1024 * (t.val / 4) + r.val = 2048 * (t.val % 4) + cc.val := congrArg Fin.val h
    omega

/-- The positive mask of the tile. -/
theorem pos_tile (c : Dev nD) (t : Fin cfg0.N) (r : Fin 1024) (cc : Fin 2048) :
    k0_pay13 (tE t) (tL m ρ c t) (tR m ρ c t) (ix2 r cc) = 1#1 ↔ Cert.Spec.pos (labK m c) (qrow t r) (kcol t cc) :=
  pay13_iff (labK m c) (qrow t r) (kcol t cc) (tE t) (tL m ρ c t) (tR m ρ c t) (ix2 r cc)
    ((pay10_apply (iblk0 (V1 m ρ) c 4 t) r cc).trans (blk4 m ρ c t r))
    ((pay11_apply (iblk0 (V1 m ρ) c 5 t) r cc).trans (blk5 m ρ c t cc))
    (diag_tile t r cc)

/-- The negative mask of the tile. -/
theorem neg_tile (c : Dev nD) (t : Fin cfg0.N) (r : Fin 1024) (cc : Fin 2048) :
    k0_pay14 (tL m ρ c t) (tR m ρ c t) (ix2 r cc) = 1#1 ↔ Cert.Spec.neg (labK m c) (qrow t r) (kcol t cc) :=
  pay14_iff (labK m c) (qrow t r) (kcol t cc) (tL m ρ c t) (tR m ρ c t) (ix2 r cc)
    ((pay10_apply (iblk0 (V1 m ρ) c 4 t) r cc).trans (blk4 m ρ c t r))
    ((pay11_apply (iblk0 (V1 m ρ) c 5 t) r cc).trans (blk5 m ρ c t cc))

/-! ## The state of a row after the columns below a bound -/

/-- What the four accumulators hold at a row once the columns below `2048·kk` have been seen. -/
def RowInv (X : Fin 8192 → Fin 128 → EReal) (lab : Fin 8192 → BitVec 32) (row : Fin 8192) (kk : Nat)
    (a0 a1 : EReal) (w2 w3 : BitVec 32) : Prop :=
  a0 = (Finset.univ.sup fun j : Fin 8192 =>
          if j.val < 2048 * kk then (if Cert.Spec.pos lab row j then Cert.Spec.d2 X row j else ⊥) else ⊥)
  ∧ a1 = (Finset.univ.inf fun j : Fin 8192 =>
          if j.val < 2048 * kk then (if Cert.Spec.neg lab row j then Cert.Spec.d2 X row j else ⊤) else ⊤)
  ∧ (IsFlag w2 ∧ (w2 = 1#32 ↔ ∃ j : Fin 8192, j.val < 2048 * kk ∧ Cert.Spec.pos lab row j))
  ∧ (IsFlag w3 ∧ (w3 = 1#32 ↔ ∃ j : Fin 8192, j.val < 2048 * kk ∧ Cert.Spec.neg lab row j))

/-- Before any column: the reset values. -/
theorem rowInv_zero (X : Fin 8192 → Fin 128 → EReal) (lab : Fin 8192 → BitVec 32) (row : Fin 8192) :
    RowInv X lab row 0 ⊥ ⊤ 0#32 0#32 := by
  refine ⟨(Cert.Spec.sup_prefix_zero _).symm, (Cert.Spec.inf_prefix_zero _).symm, ⟨Or.inl rfl, ?_⟩, ⟨Or.inl rfl, ?_⟩⟩
  · exact ⟨fun h => absurd h (by decide), fun h => absurd h (Cert.Spec.exists_prefix_zero _)⟩
  · exact ⟨fun h => absurd h (by decide), fun h => absurd h (Cert.Spec.exists_prefix_zero _)⟩

/-- One key tile: from the columns below `2048·(t % 4)` to those below `2048·(t % 4 + 1)`. -/
theorem rowInv_step (c : Dev nD) (t : Fin cfg0.N) (r : Fin 1024)
    (c0 c1 : FVec Ideal S1024x1 .f32) (c2 c3 : IVec S1024x1 32)
    (h : RowInv (XK m c) (labK m c) (qrow t r) (t.val % 4) (c0 (ix2 r (0 : Fin 1))) (c1 (ix2 r (0 : Fin 1)))
      (c2 (ix2 r (0 : Fin 1))) (c3 (ix2 r (0 : Fin 1)))) :
    RowInv (XK m c) (labK m c) (qrow t r) (t.val % 4 + 1)
      (k0_pay17 (F := Ideal) (tD m ρ c t) (tE t) (tL m ρ c t) (tR m ρ c t) c0 (ix2 r (0 : Fin 1)))
      (k0_pay18 (F := Ideal) (tD m ρ c t) (tL m ρ c t) (tR m ρ c t) c1 (ix2 r (0 : Fin 1)))
      (k0_pay1 (F := Ideal) (k0_pay15 (F := Ideal) (tE t) (tL m ρ c t) (tR m ρ c t)) c2 (ix2 r (0 : Fin 1)))
      (k0_pay2 (F := Ideal) (k0_pay16 (F := Ideal) (tL m ρ c t) (tR m ρ c t)) c3 (ix2 r (0 : Fin 1))) := by
  obtain ⟨h0, h1, ⟨hf2, h2⟩, ⟨hf3, h3⟩⟩ := h
  have hcol : ∀ cc : Fin 2048, (kcol t cc).val = 2048 * (t.val % 4) + cc.val := fun _ => rfl
  refine ⟨?_, ?_, ?_, ?_⟩
  · refine (pay17_apply (XK m c) (labK m c) (qrow t r) (kcol t) (tD m ρ c t) (tE t) (tL m ρ c t) (tR m ρ c t) c0 r
      (fun cc => d_tile m ρ c t r cc) (fun cc => pos_tile m ρ c t r cc)).trans ?_
    rw [h0]
    exact (Cert.Spec.sup_prefix_succ
      (fun j => if Cert.Spec.pos (labK m c) (qrow t r) j then Cert.Spec.d2 (XK m c) (qrow t r) j else ⊥)
      (t.val % 4) (kcol t) hcol).symm
  · refine (pay18_apply (XK m c) (labK m c) (qrow t r) (kcol t) (tD m ρ c t) (tL m ρ c t) (tR m ρ c t) c1 r
      (fun cc => d_tile m ρ c t r cc) (fun cc => neg_tile m ρ c t r cc)).trans ?_
    rw [h1]
    exact (Cert.Spec.inf_prefix_succ
      (fun j => if Cert.Spec.neg (labK m c) (qrow t r) j then Cert.Spec.d2 (XK m c) (qrow t r) j else ⊤)
      (t.val % 4) (kcol t) hcol).symm
  · rw [pay1_apply]
    obtain ⟨hf', hiff⟩ := maxsi_flag (c2 (ix2 r (0 : Fin 1)))
      (k0_pay15 (F := Ideal) (tE t) (tL m ρ c t) (tR m ρ c t) (ix2 r (0 : Fin 1))) hf2
    refine ⟨hf', hiff.trans ?_⟩
    rw [h2, pay15_iff (labK m c) (qrow t r) (kcol t) (tE t) (tL m ρ c t) (tR m ρ c t) r (fun cc => pos_tile m ρ c t r cc)]
    exact (Cert.Spec.exists_prefix_succ (fun j => Cert.Spec.pos (labK m c) (qrow t r) j) (t.val % 4) (kcol t) hcol).symm
  · rw [pay2_apply]
    obtain ⟨hf', hiff⟩ := maxsi_flag (c3 (ix2 r (0 : Fin 1)))
      (k0_pay16 (F := Ideal) (tL m ρ c t) (tR m ρ c t) (ix2 r (0 : Fin 1))) hf3
    refine ⟨hf', hiff.trans ?_⟩
    rw [h3, pay16_iff (labK m c) (qrow t r) (kcol t) (tL m ρ c t) (tR m ρ c t) r (fun cc => neg_tile m ρ c t r cc)]
    exact (Cert.Spec.exists_prefix_succ (fun j => Cert.Spec.neg (labK m c) (qrow t r) j) (t.val % 4) (kcol t) hcol).symm

/-- After all four key tiles the accumulators are the row's extremes over all columns, and the finalize payload is the
row's masked loss and valid flag. -/
theorem rowInv_final (X : Fin 8192 → Fin 128 → EReal) (lab : Fin 8192 → BitVec 32) (row : Fin 8192)
    (v89 v93 : FVec Ideal S1024x1 .f32) (v102 v105 : IVec S1024x1 32) (r : Fin 1024)
    (h : RowInv X lab row (3 + 1) (v89 (ix2 r (0 : Fin 1))) (v93 (ix2 r (0 : Fin 1))) (v102 (ix2 r (0 : Fin 1)))
      (v105 (ix2 r (0 : Fin 1)))) :
    k0_pay3 (F := Ideal) v89 v93 v102 v105 (ix2 r (0 : Fin 2)) = Cert.Spec.lossK X lab row
    ∧ k0_pay3 (F := Ideal) v89 v93 v102 v105 (ix2 r (1 : Fin 2)) = Cert.Spec.flagK X lab row := by
  obtain ⟨h0, h1, ⟨hf2, h2⟩, ⟨hf3, h3⟩⟩ := h
  have e89 : v89 (ix2 r (0 : Fin 1)) = Cert.Spec.mposK X lab row := h0.trans (Cert.Spec.sup_prefix_full _)
  have e93 : v93 (ix2 r (0 : Fin 1)) = Cert.Spec.mnegK X lab row := h1.trans (Cert.Spec.inf_prefix_full _)
  have e102 : IntOp.cmpi .sgt (v102 (ix2 r (0 : Fin 1))) 0#32 = 1#1 ↔ ∃ j, Cert.Spec.pos lab row j :=
    (sgt_zero_iff _ hf2).trans (h2.trans (Cert.Spec.exists_prefix_full _))
  have e105 : IntOp.cmpi .sgt (v105 (ix2 r (0 : Fin 1))) 0#32 = 1#1 ↔ ∃ j, Cert.Spec.neg lab row j :=
    (sgt_zero_iff _ hf3).trans (h3.trans (Cert.Spec.exists_prefix_full _))
  exact ⟨pay3_loss X lab row v89 v93 v102 v105 r e89 e93 e102 e105, pay3_flag X lab row v89 v93 v102 v105 r e89 e93 e102 e105⟩

end Cert.KernelIdeal.Val

end
-- ==== Proof.KI.Pieces.lean ====
/- What each case of the kernel body leaves, as the payload terms of the body over the input blocks and over what
   the accumulators held when the point started: the pieces the runs found, read back. In the first key tile of a
   query tile the accumulators start from the reset values; in the last one the output block is computed from the
   four accumulators as that same point leaves them. -/
import proofs.«108932_j15444702397006_2_alg».proof.Proof.KI.Body
import Idealize.ShloMosaic.Lib.Pipeline.Value

-- the blocks have production extents: 1024, 2048 and 8192 along the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however spelt. -/
theorem hz2 : (![0, 0] : Fin 2 → Nat) = fun _ => 0 := funext fun a => by fin_cases a <;> rfl

/-- Case A, accumulator 0 (the running maximum of squared distance over positives): the body leaves the block's contribution combined with the reset value. -/
theorem sout0_A_0_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 = k0_pay17 (k0_pay8 x0 x1 x2 x3) (k0_pay9 i) (k0_pay10 x4) (k0_pay11 x5) (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1024x1) hz2, View.readCov_unit_zero (S := S1024x1) _ hz2]
  simp only [View.readAt_eq_ld, harg2.read_unread, harg3.read_unread, harg4.read_unread, harg5.read_unread, harg6.read_unread, harg7.read_unread, harg9.read_unread, harg10.read_unread, harg11.read_unread, harg12.read_unread,
    View.ld_unit_zero (S := S1024x128) hz2, View.ld_unit_zero (S := S2048x128) hz2, View.ld_unit_zero (S := S1024x1) hz2, View.ld_unit_zero (S := S1x2048) hz2]

/-- Case A, accumulator 1 (the running minimum of squared distance over negatives): the body leaves the block's contribution combined with the reset value. -/
theorem sout0_A_1_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 = k0_pay18 (k0_pay8 x0 x1 x2 x3) (k0_pay10 x4) (k0_pay11 x5) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1024x1) hz2, View.readCov_unit_zero (S := S1024x1) _ hz2]
  simp only [View.readAt_eq_ld, harg2.read_unread, harg3.read_unread, harg4.read_unread, harg5.read_unread, harg6.read_unread, harg7.read_unread, harg9.read_unread, harg10.read_unread, harg11.read_unread, harg12.read_unread,
    View.ld_unit_zero (S := S1024x128) hz2, View.ld_unit_zero (S := S2048x128) hz2, View.ld_unit_zero (S := S1024x1) hz2, View.ld_unit_zero (S := S1x2048) hz2]

/-- Case A, accumulator 2 (the flag that some positive was met): the body leaves the block's contribution combined with the reset value. -/
theorem sout0_A_2_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 x5 = k0_pay1 (F := F) (k0_pay15 (F := F) (k0_pay9 i) (k0_pay10 x4) (k0_pay11 x5)) k0_pay6 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1024x1) hz2, View.readCov_unit_zero (S := S1024x1) _ hz2]
  simp only [View.readAt_eq_ld, harg2.read_unread, harg3.read_unread, harg4.read_unread, harg5.read_unread, harg6.read_unread, harg7.read_unread, harg9.read_unread, harg10.read_unread, harg11.read_unread, harg12.read_unread,
    View.ld_unit_zero (S := S1024x128) hz2, View.ld_unit_zero (S := S2048x128) hz2, View.ld_unit_zero (S := S1024x1) hz2, View.ld_unit_zero (S := S1x2048) hz2]

/-- Case A, accumulator 3 (the flag that some negative was met): the body leaves the block's contribution combined with the reset value. -/
theorem sout0_A_3_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) :
    sout0_A_3 c i arg2 harg2 arg3 harg3 arg4 harg4 arg5 harg5 arg6 harg6 arg7 harg7 arg8 harg8 arg9 harg9 arg10 harg10 arg11 harg11 arg12 harg12 hc0 hc1 x0 x1 x2 x3 x4 x5 = k0_pay2 (F := F) (k0_pay16 (F := F) (k0_pay10 x4) (k0_pay11 x5)) k0_pay7 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1024x1) hz2, View.readCov_unit_zero (S := S1024x1) _ hz2]
  simp only [View.readAt_eq_ld, harg2.read_unread, harg3.read_unread, harg4.read_unread, harg5.read_unread, harg6.read_unread, harg7.read_unread, harg9.read_unread, harg10.read_unread, harg11.read_unread, harg12.read_unread,
    View.ld_unit_zero (S := S1024x128) hz2, View.ld_unit_zero (S := S2048x128) hz2, View.ld_unit_zero (S := S1024x1) hz2, View.ld_unit_zero (S := S1x2048) hz2]

/-- Case B, accumulator 0 (the running maximum of squared distance over positives): the body leaves the block's contribution combined with what it held when the point started. -/
theorem sout0_B_0_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay17 (k0_pay8 x0 x1 x2 x3) (k0_pay9 i) (k0_pay10 x4) (k0_pay11 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_unit_zero (S := S1024x1) hz2]
  simp only [View.readAt_eq_ld, harg2.read_unread, harg3.read_unread, harg4.read_unread, harg5.read_unread, harg6.read_unread, harg7.read_unread, harg9.read_unread, harg10.read_unread, harg11.read_unread, harg12.read_unread,
    View.ld_unit_zero (S := S1024x128) hz2, View.ld_unit_zero (S := S2048x128) hz2, View.ld_unit_zero (S := S1024x1) hz2, View.ld_unit_zero (S := S1x2048) hz2]

/-- Case B, accumulator 1 (the running minimum of squared distance over negatives): the body leaves the block's contribution combined with what it held when the point started. -/
theorem sout0_B_1_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay18 (k0_pay8 x0 x1 x2 x3) (k0_pay10 x4) (k0_pay11 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_unit_zero (S := S1024x1) hz2]
  simp only [View.readAt_eq_ld, harg2.read_unread, harg3.read_unread, harg4.read_unread, harg5.read_unread, harg6.read_unread, harg7.read_unread, harg9.read_unread, harg10.read_unread, harg11.read_unread, harg12.read_unread,
    View.ld_unit_zero (S := S1024x128) hz2, View.ld_unit_zero (S := S2048x128) hz2, View.ld_unit_zero (S := S1024x1) hz2, View.ld_unit_zero (S := S1x2048) hz2]

/-- Case B, accumulator 2 (the flag that some positive was met): the body leaves the block's contribution combined with what it held when the point started. -/
theorem sout0_B_2_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay1 (F := F) (k0_pay15 (F := F) (k0_pay9 i) (k0_pay10 x4) (k0_pay11 x5)) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_unit_zero (S := S1024x1) hz2]
  simp only [View.readAt_eq_ld, harg2.read_unread, harg3.read_unread, harg4.read_unread, harg5.read_unread, harg6.read_unread, harg7.read_unread, harg9.read_unread, harg10.read_unread, harg11.read_unread, harg12.read_unread,
    View.ld_unit_zero (S := S1024x128) hz2, View.ld_unit_zero (S := S2048x128) hz2, View.ld_unit_zero (S := S1024x1) hz2, View.ld_unit_zero (S := S1x2048) hz2]

/-- Case B, accumulator 3 (the flag that some negative was met): the body leaves the block's contribution combined with what it held when the point started. -/
theorem sout0_B_3_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : ¬cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) :
    sout0_B_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay2 (F := F) (k0_pay16 (F := F) (k0_pay10 x4) (k0_pay11 x5)) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_unit_zero (S := S1024x1) hz2]
  simp only [View.readAt_eq_ld, harg2.read_unread, harg3.read_unread, harg4.read_unread, harg5.read_unread, harg6.read_unread, harg7.read_unread, harg9.read_unread, harg10.read_unread, harg11.read_unread, harg12.read_unread,
    View.ld_unit_zero (S := S1024x128) hz2, View.ld_unit_zero (S := S2048x128) hz2, View.ld_unit_zero (S := S1024x1) hz2, View.ld_unit_zero (S := S1x2048) hz2]

/-- Case C, accumulator 0 (the running maximum of squared distance over positives): the body leaves the block's contribution combined with what it held when the point started. -/
theorem sout0_C_0_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay17 (k0_pay8 x0 x1 x2 x3) (k0_pay9 i) (k0_pay10 x4) (k0_pay11 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero (S := S1024x1) hz2]
  simp only [View.readAt_eq_ld, harg2.read_unread, harg3.read_unread, harg4.read_unread, harg5.read_unread, harg6.read_unread, harg7.read_unread, harg9.read_unread, harg10.read_unread, harg11.read_unread, harg12.read_unread,
    View.ld_unit_zero (S := S1024x128) hz2, View.ld_unit_zero (S := S2048x128) hz2, View.ld_unit_zero (S := S1024x1) hz2, View.ld_unit_zero (S := S1x2048) hz2]

/-- Case C, accumulator 1 (the running minimum of squared distance over negatives): the body leaves the block's contribution combined with what it held when the point started. -/
theorem sout0_C_1_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay18 (k0_pay8 x0 x1 x2 x3) (k0_pay10 x4) (k0_pay11 x5) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero (S := S1024x1) hz2]
  simp only [View.readAt_eq_ld, harg2.read_unread, harg3.read_unread, harg4.read_unread, harg5.read_unread, harg6.read_unread, harg7.read_unread, harg9.read_unread, harg10.read_unread, harg11.read_unread, harg12.read_unread,
    View.ld_unit_zero (S := S1024x128) hz2, View.ld_unit_zero (S := S2048x128) hz2, View.ld_unit_zero (S := S1024x1) hz2, View.ld_unit_zero (S := S1x2048) hz2]

/-- Case C, accumulator 2 (the flag that some positive was met): the body leaves the block's contribution combined with what it held when the point started. -/
theorem sout0_C_2_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay1 (F := F) (k0_pay15 (F := F) (k0_pay9 i) (k0_pay10 x4) (k0_pay11 x5)) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero (S := S1024x1) hz2]
  simp only [View.readAt_eq_ld, harg2.read_unread, harg3.read_unread, harg4.read_unread, harg5.read_unread, harg6.read_unread, harg7.read_unread, harg9.read_unread, harg10.read_unread, harg11.read_unread, harg12.read_unread,
    View.ld_unit_zero (S := S1024x128) hz2, View.ld_unit_zero (S := S2048x128) hz2, View.ld_unit_zero (S := S1024x1) hz2, View.ld_unit_zero (S := S1x2048) hz2]

/-- Case C, accumulator 3 (the flag that some negative was met): the body leaves the block's contribution combined with what it held when the point started. -/
theorem sout0_C_3_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) :
    sout0_C_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay2 (F := F) (k0_pay16 (F := F) (k0_pay10 x4) (k0_pay11 x5)) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero (S := S1024x1) hz2]
  simp only [View.readAt_eq_ld, harg2.read_unread, harg3.read_unread, harg4.read_unread, harg5.read_unread, harg6.read_unread, harg7.read_unread, harg9.read_unread, harg10.read_unread, harg11.read_unread, harg12.read_unread,
    View.ld_unit_zero (S := S1024x128) hz2, View.ld_unit_zero (S := S2048x128) hz2, View.ld_unit_zero (S := S1024x1) hz2, View.ld_unit_zero (S := S1x2048) hz2]

/-- Case C, the output block: the loss column and the validity column computed from the four accumulators as this
    same point leaves them. -/
theorem out0_C_6_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .i32) (harg6 : arg6.IsWhole) (arg7 : Memref sig .tc .vmem S1x2048 .i32) (harg7 : arg7.IsWhole) (arg8 : Memref sig .tc .vmem S1024x2 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .i32) (harg11 : arg11.IsWhole) (arg12 : Memref sig .tc .vmem S1024x1 .i32) (harg12 : arg12.IsWhole) (hc0 : ¬cond0_0 i) (hc1 : cond0_1 i)
    (x0 : Vec F S1024x128 .f32) (x1 : Vec F S2048x128 .f32) (x2 : Vec F S1024x1 .f32) (x3 : Vec F S1x2048 .f32) (x4 : Vec F S1024x1 .i32) (x5 : Vec F S1x2048 .i32) (xs0 : Vec F S1024x1 .f32) (xs1 : Vec F S1024x1 .f32) (xs2 : Vec F S1024x1 .i32) (xs3 : Vec F S1024x1 .i32) :
    out0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay3 (k0_pay17 (k0_pay8 x0 x1 x2 x3) (k0_pay9 i) (k0_pay10 x4) (k0_pay11 x5) xs0) (k0_pay18 (k0_pay8 x0 x1 x2 x3) (k0_pay10 x4) (k0_pay11 x5) xs1) (k0_pay1 (F := F) (k0_pay15 (F := F) (k0_pay9 i) (k0_pay10 x4) (k0_pay11 x5)) xs2) (k0_pay2 (F := F) (k0_pay16 (F := F) (k0_pay10 x4) (k0_pay11 x5)) xs3) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero (S := S1024x2) hz2]
  simp only [View.readCov_unit_zero (S := S1024x1) _ hz2]
  simp only [View.readAt_eq_ld, harg2.read_unread, harg3.read_unread, harg4.read_unread, harg5.read_unread, harg6.read_unread, harg7.read_unread, harg9.read_unread, harg10.read_unread, harg11.read_unread, harg12.read_unread,
    View.ld_unit_zero (S := S1024x128) hz2, View.ld_unit_zero (S := S2048x128) hz2, View.ld_unit_zero (S := S1024x1) hz2, View.ld_unit_zero (S := S1x2048) hz2]

end Cert.KernelIdeal.Hand

end
-- ==== Proof.KI.Steps.lean ====
/- The accumulators point by point, as ONE step equation per accumulator: at the first key tile of a query tile the
   body combines the tile's contribution with the reset value, at every other point with what the point before
   left; and at the last key tile the output block is computed from the four accumulators as that point leaves them.
   The cases of the body, its memrefs and its runs do not appear in these statements. -/
import proofs.«108932_j15444702397006_2_alg».proof.Proof.KI.Pieces

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem

variable {F : FTy → Type} [FloatOps F]

-- the TensorCore's buffer contents when the region is entered
variable (V : (c : Dev nD) → (b : Ref sig .tc) → Buf (Elt F) ((c : Thread nD τ).loc b))

/-! ## The tile's ingredients at a point -/

/-- The tile of squared distances at point `t`: query rows of the point's query tile against key rows of its key tile. -/
def d2blk (c : Dev nD) (t : Fin cfg0.N) : FVec F S1024x2048 .f32 :=
  k0_pay8 (iblk0 V c 0 t) (iblk0 V c 1 t) (iblk0 V c 2 t) (iblk0 V c 3 t)
/-- The tile's diagonal mask: where the global row is the global column. -/
def eyeblk (t : Fin cfg0.N) : IVec S1024x2048 1 := k0_pay9 (grid0.coords t)
/-- The query labels, one per row, spread over the tile. -/
def qlab (c : Dev nD) (t : Fin cfg0.N) : IVec S1024x2048 32 := k0_pay10 (iblk0 V c 4 t)
/-- The key labels, one per column, spread over the tile. -/
def klab (c : Dev nD) (t : Fin cfg0.N) : IVec S1024x2048 32 := k0_pay11 (iblk0 V c 5 t)

/-- The point before `t` (itself at the first point, where nothing reads it). -/
def prevPt (t : Fin cfg0.N) : Fin cfg0.N := ⟨t.val - 1, Nat.lt_of_le_of_lt (Nat.sub_le _ _) t.isLt⟩
theorem prevPt_val (t : Fin cfg0.N) : (prevPt t).val = t.val - 1 := rfl

/-! ## The accumulators after a point -/

/-- Accumulator 0 after point `t`: the running maximum of squared distance over the positives met so far. -/
def acc0 (c : Dev nD) (t : Fin cfg0.N) : Vec F S1024x1 .f32 := (outsAt0 V c t.val t.isLt).2.1
/-- Accumulator 1 after point `t`: the running minimum of squared distance over the negatives met so far. -/
def acc1 (c : Dev nD) (t : Fin cfg0.N) : Vec F S1024x1 .f32 := (outsAt0 V c t.val t.isLt).2.2.1
/-- Accumulator 2 after point `t`: the word saying whether a positive was met so far. -/
def acc2 (c : Dev nD) (t : Fin cfg0.N) : Vec F S1024x1 .i32 := (outsAt0 V c t.val t.isLt).2.2.2.1
/-- Accumulator 3 after point `t`: the word saying whether a negative was met so far. -/
def acc3 (c : Dev nD) (t : Fin cfg0.N) : Vec F S1024x1 .i32 := (outsAt0 V c t.val t.isLt).2.2.2.2

/-- Accumulator 0 at the first key tile of a query tile: the tile's contribution combined with the reset value. -/
theorem acc0_first (c : Dev nD) (t : Fin cfg0.N) (h0 : t.val % 4 = 0) :
    acc0 V c t = k0_pay17 (d2blk V c t) (eyeblk t) (qlab V c t) (klab V c t) (k0_pay4 (F := F) : Vec F S1024x1 .f32) := by
  have h1 : ¬t.val % 4 = 3 := by omega
  unfold acc0 d2blk eyeblk qlab klab
  rw [outsAt0_A V c t h0 h1]
  dsimp only
  rw [sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)]

/-- Accumulator 0 at any other point: the tile's contribution combined with what the point before left. -/
theorem acc0_next (c : Dev nD) (t : Fin cfg0.N) (h0 : ¬t.val % 4 = 0) :
    acc0 V c t = k0_pay17 (d2blk V c t) (eyeblk t) (qlab V c t) (klab V c t) (acc0 V c (prevPt t)) := by
  unfold acc0 d2blk eyeblk qlab klab prevPt
  by_cases h1 : t.val % 4 = 3
  · rw [outsAt0_C V c t h0 h1]
    dsimp only
    rw [sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2]
  · rw [outsAt0_B V c t h0 h1]
    dsimp only
    rw [sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2]

/-- The two in one. -/
theorem acc0_step (c : Dev nD) (t : Fin cfg0.N) :
    acc0 V c t = k0_pay17 (d2blk V c t) (eyeblk t) (qlab V c t) (klab V c t) (if t.val % 4 = 0 then (k0_pay4 (F := F) : Vec F S1024x1 .f32) else acc0 V c (prevPt t)) := by
  by_cases h0 : t.val % 4 = 0
  · rw [if_pos h0]; exact acc0_first V c t h0
  · rw [if_neg h0]; exact acc0_next V c t h0

/-- Accumulator 1 at the first key tile of a query tile: the tile's contribution combined with the reset value. -/
theorem acc1_first (c : Dev nD) (t : Fin cfg0.N) (h0 : t.val % 4 = 0) :
    acc1 V c t = k0_pay18 (d2blk V c t) (qlab V c t) (klab V c t) (k0_pay5 (F := F) : Vec F S1024x1 .f32) := by
  have h1 : ¬t.val % 4 = 3 := by omega
  unfold acc1 d2blk qlab klab
  rw [outsAt0_A V c t h0 h1]
  dsimp only
  rw [sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)]

/-- Accumulator 1 at any other point: the tile's contribution combined with what the point before left. -/
theorem acc1_next (c : Dev nD) (t : Fin cfg0.N) (h0 : ¬t.val % 4 = 0) :
    acc1 V c t = k0_pay18 (d2blk V c t) (qlab V c t) (klab V c t) (acc1 V c (prevPt t)) := by
  unfold acc1 d2blk qlab klab prevPt
  by_cases h1 : t.val % 4 = 3
  · rw [outsAt0_C V c t h0 h1]
    dsimp only
    rw [sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2]
  · rw [outsAt0_B V c t h0 h1]
    dsimp only
    rw [sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2]

/-- The two in one. -/
theorem acc1_step (c : Dev nD) (t : Fin cfg0.N) :
    acc1 V c t = k0_pay18 (d2blk V c t) (qlab V c t) (klab V c t) (if t.val % 4 = 0 then (k0_pay5 (F := F) : Vec F S1024x1 .f32) else acc1 V c (prevPt t)) := by
  by_cases h0 : t.val % 4 = 0
  · rw [if_pos h0]; exact acc1_first V c t h0
  · rw [if_neg h0]; exact acc1_next V c t h0

/-- Accumulator 2 at the first key tile of a query tile: the tile's contribution combined with the reset value. -/
theorem acc2_first (c : Dev nD) (t : Fin cfg0.N) (h0 : t.val % 4 = 0) :
    acc2 V c t = k0_pay1 (F := F) (k0_pay15 (F := F) (eyeblk t) (qlab V c t) (klab V c t)) (k0_pay6 : Vec F S1024x1 .i32) := by
  have h1 : ¬t.val % 4 = 3 := by omega
  unfold acc2 eyeblk qlab klab
  rw [outsAt0_A V c t h0 h1]
  dsimp only
  rw [sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)]

/-- Accumulator 2 at any other point: the tile's contribution combined with what the point before left. -/
theorem acc2_next (c : Dev nD) (t : Fin cfg0.N) (h0 : ¬t.val % 4 = 0) :
    acc2 V c t = k0_pay1 (F := F) (k0_pay15 (F := F) (eyeblk t) (qlab V c t) (klab V c t)) (acc2 V c (prevPt t)) := by
  unfold acc2 eyeblk qlab klab prevPt
  by_cases h1 : t.val % 4 = 3
  · rw [outsAt0_C V c t h0 h1]
    dsimp only
    rw [sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2]
  · rw [outsAt0_B V c t h0 h1]
    dsimp only
    rw [sout0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2]

/-- The two in one. -/
theorem acc2_step (c : Dev nD) (t : Fin cfg0.N) :
    acc2 V c t = k0_pay1 (F := F) (k0_pay15 (F := F) (eyeblk t) (qlab V c t) (klab V c t)) (if t.val % 4 = 0 then (k0_pay6 : Vec F S1024x1 .i32) else acc2 V c (prevPt t)) := by
  by_cases h0 : t.val % 4 = 0
  · rw [if_pos h0]; exact acc2_first V c t h0
  · rw [if_neg h0]; exact acc2_next V c t h0

/-- Accumulator 3 at the first key tile of a query tile: the tile's contribution combined with the reset value. -/
theorem acc3_first (c : Dev nD) (t : Fin cfg0.N) (h0 : t.val % 4 = 0) :
    acc3 V c t = k0_pay2 (F := F) (k0_pay16 (F := F) (qlab V c t) (klab V c t)) (k0_pay7 : Vec F S1024x1 .i32) := by
  have h1 : ¬t.val % 4 = 3 := by omega
  unfold acc3 qlab klab
  rw [outsAt0_A V c t h0 h1]
  dsimp only
  rw [sout0_A_3_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)]

/-- Accumulator 3 at any other point: the tile's contribution combined with what the point before left. -/
theorem acc3_next (c : Dev nD) (t : Fin cfg0.N) (h0 : ¬t.val % 4 = 0) :
    acc3 V c t = k0_pay2 (F := F) (k0_pay16 (F := F) (qlab V c t) (klab V c t)) (acc3 V c (prevPt t)) := by
  unfold acc3 qlab klab prevPt
  by_cases h1 : t.val % 4 = 3
  · rw [outsAt0_C V c t h0 h1]
    dsimp only
    rw [sout0_C_3_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2]
  · rw [outsAt0_B V c t h0 h1]
    dsimp only
    rw [sout0_B_3_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2]

/-- The two in one. -/
theorem acc3_step (c : Dev nD) (t : Fin cfg0.N) :
    acc3 V c t = k0_pay2 (F := F) (k0_pay16 (F := F) (qlab V c t) (klab V c t)) (if t.val % 4 = 0 then (k0_pay7 : Vec F S1024x1 .i32) else acc3 V c (prevPt t)) := by
  by_cases h0 : t.val % 4 = 0
  · rw [if_pos h0]; exact acc3_first V c t h0
  · rw [if_neg h0]; exact acc3_next V c t h0

/-- At the last key tile of a query tile the output block is the finalization of the four accumulators as that point
    leaves them. -/
theorem out_step (c : Dev nD) (t : Fin cfg0.N) (h1 : t.val % 4 = 3) :
    (outsAt0 V c t.val t.isLt).1 = k0_pay3 (acc0 V c t) (acc1 V c t) (acc2 V c t) (acc3 V c t) := by
  have h0 : ¬t.val % 4 = 0 := by omega
  unfold acc0 acc1 acc2 acc3
  rw [outsAt0_C V c t h0 h1]
  dsimp only
  rw [out0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
    sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
    sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
    sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
    sout0_C_3_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2]

end Cert.KernelIdeal.Hand

end
-- ==== Proof.KI.Final.lean ====
/- The output array after the region, read at an index: the output window is written back exactly at the last key
   tile of each query tile, and the block written back at point `4q + 3` is rows `1024·q … 1024·q + 1023` of the
   array; so row `1024·q + r` of the array ends holding row `r` of what the body left in the output's staging buffer
   at point `4q + 3`. -/
import proofs.«108932_j15444702397006_2_alg».proof.Proof.KI.Body
import proofs.«108932_j15444702397006_2_alg».proof.Proof.KI.Blocks
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable {F : FTy → Type} [FloatOps F]

-- the TensorCore's buffer contents when the region is entered
variable (V : (c : Dev nD) → (b : Ref sig .tc) → Buf (Elt F) ((c : Thread nD τ).loc b))

/-- What the output's staging buffer holds after a point depends on the point's number only (not on the proof that it
    is a point), and is a function of the index. -/
theorem outsAt0_fst_congr (c : Dev nD) {n n' : ℕ} (h : n < cfg0.N) (h' : n' < cfg0.N) (e : n = n')
    {y y' : S1024x2.Idx} (ey : y = y') : (outsAt0 V c n h).1 y = (outsAt0 V c n' h').1 y' := by
  subst e; subst ey; rfl

/-- The last key tile of query tile `q` is a point of the grid. -/
theorem lastPt_lt (q : ℕ) (hq : q < 8) : 4 * q + 3 < cfg0.N := by
  rw [show cfg0.N = 32 from N_0]; omega

/-- THE OUTPUT ARRAY the region leaves: row `i₀` is row `i₀ % 1024` of what the last key tile of query tile
    `i₀ / 1024` left in the output's staging buffer. -/
def outArr (c : Dev nD) : S8192x2.Idx → Elt F .f32 := fun i =>
  (outsAt0 V c (4 * ((i 0).val / 1024) + 3) (lastPt_lt _ (by have h0 : (i 0).val < 8192 := (i 0).isLt; omega))).1
    (ix2 (⟨(i 0).val % 1024, Nat.mod_lt _ (by decide)⟩ : Fin 1024) (⟨(i 1).val, (i 1).isLt⟩ : Fin 2))

/-- What a write-back writes is the block of `outArr` at its point: the written-back points are the last key tiles,
    point `t`'s block is rows `1024·(t/4) …`, and `4·(t/4) + 3 = t` there. -/
theorem flushed6_eq (c : Dev nD) (t : Fin cfg0.N) (hf : (cfg0.win 6).flush t = true) :
    (dat0 V c).flushed 6 t = ((cfg0.win 6).blk t).view.read (Elt F) (outArr V c) := by
  have h3 : t.val % 4 = 3 := (flush0_6 t).mp hf
  have hN := tN t
  obtain ⟨-, -, -, -, -, -, -, -, -, -, -, -, e0, e1⟩ := idx_facts t
  show (cfg0.win 6).cut (grid0.coords t) ((dat0 V c).after 6 t) = _
  rw [after0_6]
  funext j
  have hj0 : (j 0).val < 1024 := (j 0).isLt
  have hj1 : (j 1).val < 2 := (j 1).isLt
  show (outsAt0 V c t.val t.isLt).1 j = outArr V c (((cfg0.win 6).blk t).view.emb j)
  have E0 : ((((cfg0.win 6).blk t).view.emb j) 0).val = win0_6.index t (0 : Fin 2) * 1024 + 1 * (j 0).val := rfl
  have E1 : ((((cfg0.win 6).blk t).view.emb j) 1).val = win0_6.index t (1 : Fin 2) * 2 + 1 * (j 1).val := rfl
  unfold outArr
  refine outsAt0_fst_congr V c _ _ (by rw [E0, e0]; omega) ?_
  funext a; apply Fin.ext
  match a with
  | ⟨0, _⟩ => show (j 0).val = ((((cfg0.win 6).blk t).view.emb j) 0).val % 1024; rw [E0, e0]; omega
  | ⟨1, _⟩ => show (j 1).val = ((((cfg0.win 6).blk t).view.emb j) 1).val; rw [E1, e1]; omega

/-- An index of the array is in point `t`'s block iff each coordinate is in the block's range on its axis. -/
theorem mem_blk6 (t : Fin cfg0.N) (i : S8192x2.Idx) :
    i ∈ ((cfg0.win 6).blk t).view.set ↔ ∀ a : Fin 2, win0_6.index t a * S1024x2.size a ≤ (i a).val ∧ (i a).val < win0_6.index t a * S1024x2.size a + S1024x2.size a := by
  show i ∈ ((View.whole main_v6).slice (win0_6.rect t)).set ↔ _
  rw [View.set_slice_whole, Rect.mem_set_unit]
  exact Iff.rfl

/-- Every index of the array is in the block some write-back writes: row `i₀` in that of point `4·(i₀ / 1024) + 3`. -/
theorem covered6 (i : S8192x2.Idx) :
    ∃ t : Fin cfg0.N, (cfg0.win 6).flush t = true ∧ i ∈ ((cfg0.win 6).blk t).view.set := by
  have h0 : (i 0).val < 8192 := (i 0).isLt
  have h1 : (i 1).val < 2 := (i 1).isLt
  let t : Fin cfg0.N := ⟨4 * ((i 0).val / 1024) + 3, lastPt_lt _ (by omega)⟩
  have ht : t.val = 4 * ((i 0).val / 1024) + 3 := rfl
  obtain ⟨-, -, -, -, -, -, -, -, -, -, -, -, e0, e1⟩ := idx_facts t
  refine ⟨t, (flush0_6 t).mpr (by rw [ht]; omega), ?_⟩
  rw [mem_blk6]
  intro a
  match a with
  | ⟨0, _⟩ => show win0_6.index t (0 : Fin 2) * 1024 ≤ (i 0).val ∧ (i 0).val < win0_6.index t (0 : Fin 2) * 1024 + 1024; rw [e0, ht]; omega
  | ⟨1, _⟩ => show win0_6.index t (1 : Fin 2) * 2 ≤ (i 1).val ∧ (i 1).val < win0_6.index t (1 : Fin 2) * 2 + 2; rw [e1]; omega

/-- THE ARRAY after the region: `outArr`. -/
theorem final6_arr (c : Dev nD) : (dat0 V c).arrAt 6 cfg0.N = outArr V c :=
  (dat0 V c).arrAt_eq_of_cover 6 (outArr V c) (flushed6_eq V c) covered6

/-- The same at an index: row `1024·q + r`, column `col`, is row `r`, column `col`, of what the last key tile of
    query tile `q` left in the output's staging buffer. -/
theorem final6 (c : Dev nD) (q : Fin 8) (r : Fin 1024) (col : Fin 2) :
    (dat0 V c).arrAt 6 cfg0.N (ix2 (⟨1024 * q.val + r.val, by have := q.isLt; have := r.isLt; omega⟩ : Fin 8192) col)
      = (outsAt0 V c (4 * q.val + 3) (lastPt_lt _ q.isLt)).1 (ix2 r col) := by
  have hq := q.isLt
  have hr := r.isLt
  rw [final6_arr]
  unfold outArr
  refine outsAt0_fst_congr V c _ _ ?_ ?_
  · show 4 * ((1024 * q.val + r.val) / 1024) + 3 = 4 * q.val + 3; omega
  · funext a; apply Fin.ext
    match a with
    | ⟨0, _⟩ => show (1024 * q.val + r.val) % 1024 = r.val; omega
    | ⟨1, _⟩ => rfl

end Cert.KernelIdeal.Hand

end
-- ==== Proof.KI.Rows.lean ====
/-
  The region's output array, row by row: the masked loss in column 0 and the valid flag in column 1.

  Within a query tile the four accumulators of a row are reset at key tile 0 and carried from one key tile to the
  next; by induction over the grid points, after point `t` they hold the row's extremes and flags over the columns
  below `2048·(t % 4 + 1)`. After key tile 3 that is every column, the output block is the finalize payload of the
  accumulators, and the output array's row `1024·q + r` is row `r` of the block that point `4·q + 3` leaves.
-/
import proofs.«108932_j15444702397006_2_alg».proof.Proof.KI.RowsTile
import proofs.«108932_j15444702397006_2_alg».proof.Proof.KI.Steps
import proofs.«108932_j15444702397006_2_alg».proof.Proof.KI.Final

set_option maxRecDepth 16384

noncomputable section

open scoped Classical

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- A point that starts a query tile: the accumulators hold the first key tile's columns. -/
theorem inv_first (c : Dev nD) (r : Fin 1024) (t : Fin cfg0.N) (h0 : t.val % 4 = 0) :
    RowInv (XK m c) (labK m c) (qrow t r) (t.val % 4 + 1)
      (acc0 (V1 m ρ) c t (ix2 r (0 : Fin 1))) (acc1 (V1 m ρ) c t (ix2 r (0 : Fin 1)))
      (acc2 (V1 m ρ) c t (ix2 r (0 : Fin 1))) (acc3 (V1 m ρ) c t (ix2 r (0 : Fin 1))) := by
  rw [acc0_first (V1 m ρ) c t h0, acc1_first (V1 m ρ) c t h0, acc2_first (V1 m ρ) c t h0, acc3_first (V1 m ρ) c t h0]
  have hb : RowInv (XK m c) (labK m c) (qrow t r) (t.val % 4) (k0_pay4 (F := Ideal) (ix2 r (0 : Fin 1))) (k0_pay5 (F := Ideal) (ix2 r (0 : Fin 1)))
      (k0_pay6 (ix2 r (0 : Fin 1))) (k0_pay7 (ix2 r (0 : Fin 1))) := by
    rw [h0, pay4_apply, pay5_apply, pay6_apply, pay7_apply]
    exact rowInv_zero (XK m c) (labK m c) (qrow t r)
  exact rowInv_step m ρ c t r (k0_pay4 (F := Ideal)) (k0_pay5 (F := Ideal)) k0_pay6 k0_pay7 hb

/-- Any other point: one more key tile over what the point before left. -/
theorem inv_next (c : Dev nD) (r : Fin 1024) (t : Fin cfg0.N) (h0 : ¬t.val % 4 = 0)
    (ih : RowInv (XK m c) (labK m c) (qrow t r) (t.val % 4)
      (acc0 (V1 m ρ) c (prevPt t) (ix2 r (0 : Fin 1))) (acc1 (V1 m ρ) c (prevPt t) (ix2 r (0 : Fin 1)))
      (acc2 (V1 m ρ) c (prevPt t) (ix2 r (0 : Fin 1))) (acc3 (V1 m ρ) c (prevPt t) (ix2 r (0 : Fin 1)))) :
    RowInv (XK m c) (labK m c) (qrow t r) (t.val % 4 + 1)
      (acc0 (V1 m ρ) c t (ix2 r (0 : Fin 1))) (acc1 (V1 m ρ) c t (ix2 r (0 : Fin 1)))
      (acc2 (V1 m ρ) c t (ix2 r (0 : Fin 1))) (acc3 (V1 m ρ) c t (ix2 r (0 : Fin 1))) := by
  rw [acc0_next (V1 m ρ) c t h0, acc1_next (V1 m ρ) c t h0, acc2_next (V1 m ρ) c t h0, acc3_next (V1 m ρ) c t h0]
  exact rowInv_step m ρ c t r (acc0 (V1 m ρ) c (prevPt t)) (acc1 (V1 m ρ) c (prevPt t)) (acc2 (V1 m ρ) c (prevPt t))
    (acc3 (V1 m ρ) c (prevPt t)) ih

/-- After point `n` the accumulators of row `r` hold the row's extremes and flags over the columns below
`2048·(n % 4 + 1)`. -/
theorem rows_inv (c : Dev nD) (r : Fin 1024) : ∀ (n : Nat) (hn : n < cfg0.N),
    RowInv (XK m c) (labK m c) (qrow ⟨n, hn⟩ r) (n % 4 + 1)
      (acc0 (V1 m ρ) c ⟨n, hn⟩ (ix2 r (0 : Fin 1))) (acc1 (V1 m ρ) c ⟨n, hn⟩ (ix2 r (0 : Fin 1)))
      (acc2 (V1 m ρ) c ⟨n, hn⟩ (ix2 r (0 : Fin 1))) (acc3 (V1 m ρ) c ⟨n, hn⟩ (ix2 r (0 : Fin 1))) := by
  intro n
  induction n with
  | zero =>
    intro hn
    exact inv_first m ρ c r ⟨0, hn⟩ rfl
  | succ k ih =>
    intro hn
    by_cases h0 : (k + 1) % 4 = 0
    · exact inv_first m ρ c r ⟨k + 1, hn⟩ h0
    · have hk : k < cfg0.N := Nat.lt_of_succ_lt hn
      have ihk := ih hk
      have e1 : qrow ⟨k, hk⟩ r = qrow ⟨k + 1, hn⟩ r :=
        Fin.ext (by show 1024 * (k / 4) + r.val = 1024 * ((k + 1) / 4) + r.val; omega)
      have e2 : k % 4 + 1 = (k + 1) % 4 := by omega
      rw [e1, e2] at ihk
      exact inv_next m ρ c r ⟨k + 1, hn⟩ h0 ihk

theorem split_row (i : Fin 8192) : ∃ (q : Fin 8) (r : Fin 1024), i.val = 1024 * q.val + r.val :=
  ⟨⟨i.val / 1024, by have := i.isLt; omega⟩, ⟨i.val % 1024, Nat.mod_lt _ (by decide)⟩,
    by show i.val = 1024 * (i.val / 1024) + i.val % 1024; omega⟩

/-- The two columns of the output array at a row. -/
theorem out_both (c : Dev nD) (i : Fin 8192) :
    outK m ρ c (ix2 i (0 : Fin 2)) = Cert.Spec.lossK (XK m c) (labK m c) i
    ∧ outK m ρ c (ix2 i (1 : Fin 2)) = Cert.Spec.flagK (XK m c) (labK m c) i := by
  obtain ⟨q, r, hqr⟩ := split_row i
  have hi' : i = (⟨1024 * q.val + r.val, by have := q.isLt; have := r.isLt; omega⟩ : Fin 8192) := Fin.ext hqr
  have hinv := rows_inv m ρ c r (4 * q.val + 3) (lastPt_lt _ q.isLt)
  have e3 : (4 * q.val + 3) % 4 + 1 = 3 + 1 := by omega
  have hrow : qrow ⟨4 * q.val + 3, lastPt_lt _ q.isLt⟩ r = i :=
    Fin.ext (by show 1024 * ((4 * q.val + 3) / 4) + r.val = i.val; omega)
  rw [e3, hrow] at hinv
  have hfin := rowInv_final (XK m c) (labK m c) i
    (acc0 (V1 m ρ) c ⟨4 * q.val + 3, lastPt_lt _ q.isLt⟩) (acc1 (V1 m ρ) c ⟨4 * q.val + 3, lastPt_lt _ q.isLt⟩)
    (acc2 (V1 m ρ) c ⟨4 * q.val + 3, lastPt_lt _ q.isLt⟩) (acc3 (V1 m ρ) c ⟨4 * q.val + 3, lastPt_lt _ q.isLt⟩) r hinv
  have ho := out_step (V1 m ρ) c ⟨4 * q.val + 3, lastPt_lt _ q.isLt⟩ (by show (4 * q.val + 3) % 4 = 3; omega)
  constructor
  · refine (congrArg (fun j : Fin 8192 => outK m ρ c (ix2 j (0 : Fin 2))) hi').trans ?_
    refine (final6 (V1 m ρ) c q r (0 : Fin 2)).trans ?_
    exact (congrFun ho (ix2 r (0 : Fin 2))).trans hfin.1
  · refine (congrArg (fun j : Fin 8192 => outK m ρ c (ix2 j (1 : Fin 2))) hi').trans ?_
    refine (final6 (V1 m ρ) c q r (1 : Fin 2)).trans ?_
    exact (congrFun ho (ix2 r (1 : Fin 2))).trans hfin.2

/-- Column 0 of the output array is the rows' masked loss. -/
theorem out_loss (c : Dev nD) (i : Fin 8192) :
    outK m ρ c (ix2 i (0 : Fin 2)) = Cert.Spec.lossK (XK m c) (labK m c) i := (out_both m ρ c i).1

/-- Column 1 of the output array is the rows' valid flag. -/
theorem out_flag (c : Dev nD) (i : Fin 8192) :
    outK m ρ c (ix2 i (1 : Fin 2)) = Cert.Spec.flagK (XK m c) (labK m c) i := (out_both m ρ c i).2

end Cert.KernelIdeal.Val

end
-- ==== Proof.RefRunChunks.lean ====
/-
  The reference's memory after its 86 host operations, read back through the named stages.

  The memory after a straight line of operations is the fold of the operations' results over the contents it starts
  from. The line is cut into six stretches: the distance matrix (operations 1 to 29), the two masks (30 to 43), the
  rows' extremes, the two `any` and the triplet loss (44 to 64), the valid rows and their losses (65 to 73), the total,
  the count and the quotient (74 to 84), and the final select (85 and 86). After each stretch the few arrays the later
  stretches read are the named stages of the two argument arrays; so after the whole line the result array is the
  last stage, and the two arguments, which no operation writes, hold what they held. The last operation is spelt here
  over its four buffers directly; it is the same operation as the one the program spells over typed references.
-/
import proofs.«108932_j15444702397006_2_alg».proof.Proof.RefReadP
import Idealize.ShloMosaic.Lib.StableHlo.Run
import Idealize.ShloMosaic.Lib.Pipeline.Regions

noncomputable section

namespace Cert.RefBridge

open Cert.ReferenceIdeal Cert.ReferenceIdeal.Gen Cert.ReferenceIdeal.ReadP Idealize.ShloMosaic Idealize.ShloMosaic.TcCoe Idealize.SL.Sem Idealize.ShloMosaic.StableHlo Idealize.ShloMosaic.Pipeline

variable {F : FTy → Type} [FloatOps F]

/-- Operations 1 to 29: the distance matrix. -/
abbrev opsA : List (HloOp τ sig (Elt F)) :=
  [ binary main_arg0 main_arg0 main_v0 (mulf : (⟨S8192x128, .f32⟩ : BufTy).Contents (Elt F) → (⟨S8192x128, .f32⟩ : BufTy).Contents (Elt F) → (⟨S8192x128, .f32⟩ : BufTy).Contents (Elt F)),
    nullary main_cst (constant S_ .f32 0x00000000#32),
    binary main_v0 main_cst main_v1 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    unary main_v1 main_v3 (broadcastInDim S1x8192 ![1] bcast_S8192_S1x8192_1 : (⟨S8192, .f32⟩ : BufTy).Contents (Elt F) → (⟨S1x8192, .f32⟩ : BufTy).Contents (Elt F)),
    unary main_v2 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    unary main_arg0 main_v7 ((transpose S128x8192 [1, 0] · transposes_S8192x128_S128x8192_1_0) : (⟨S8192x128, .f32⟩ : BufTy).Contents (Elt F) → (⟨S128x8192, .f32⟩ : BufTy).Contents (Elt F)),
    binary main_arg0 main_v7 main_v8 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst_0 (constant S_ .f32 0x40000000#32),
    unary main_cst_0 main_v9 (broadcastInDim S8192x8192 ![] bcast_S_S8192x8192 : (⟨S_, .f32⟩ : BufTy).Contents (Elt F) → (⟨S8192x8192, .f32⟩ : BufTy).Contents (Elt F)),
    binary main_v9 main_v8 main_v10 (mulf : (⟨S8192x8192, .f32⟩ : BufTy).Contents (Elt F) → (⟨S8192x8192, .f32⟩ : BufTy).Contents (Elt F) → (⟨S8192x8192, .f32⟩ : BufTy).Contents (Elt F)),
    binary main_v6 main_v10 main_v11 (subf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0x00000000#32),
    unary main_cst_1 main_v12 (broadcastInDim S8192x8192 ![] bcast_S_S8192x8192 : (⟨S_, .f32⟩ : BufTy).Contents (Elt F) → (⟨S8192x8192, .f32⟩ : BufTy).Contents (Elt F)),
    binary main_v11 main_v12 main_v13 (maximumf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x00000000#32),
    unary main_cst_2 main_v14 (broadcastInDim S8192x8192 ![] bcast_S_S8192x8192 : (⟨S_, .f32⟩ : BufTy).Contents (Elt F) → (⟨S8192x8192, .f32⟩ : BufTy).Contents (Elt F)),
    binary main_v13 main_v14 main_v15 (cmpf .ogt : (⟨S8192x8192, .f32⟩ : BufTy).Contents (Elt F) → (⟨S8192x8192, .f32⟩ : BufTy).Contents (Elt F) → (⟨S8192x8192, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.ternary (TRef.of (T := ⟨S8192x8192, .i1⟩) main_v15) (TRef.of (T := ⟨S8192x8192, .f32⟩) main_v13) (TRef.of (T := ⟨S8192x8192, .f32⟩) main_call0_v1) (TRef.of (T := ⟨S8192x8192, .f32⟩) main_v16) select,
    unary main_v16 main_v17 (Host.sqrt : (⟨S8192x8192, .f32⟩ : BufTy).Contents (Elt F) → (⟨S8192x8192, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v15) (TRef.of (T := ⟨S8192x8192, .f32⟩) main_v17) (TRef.of (T := ⟨S8192x8192, .f32⟩) main_call1_v1) (TRef.of (T := ⟨S8192x8192, .f32⟩) main_v18) select ]

/-- Operations 30 to 43: the two masks. -/
abbrev opsB : List (HloOp τ sig (Elt F)) :=
  [ unary main_arg1 main_v19 (broadcastInDim S8192x1 ![0] bcast_S8192_S8192x1_0 : (⟨S8192, .i32⟩ : BufTy).Contents (Elt F) → (⟨S8192x1, .i32⟩ : BufTy).Contents (Elt F)),
    unary main_arg1 main_v20 (broadcastInDim S1x8192 ![1] bcast_S8192_S1x8192_1 : (⟨S8192, .i32⟩ : BufTy).Contents (Elt F) → (⟨S1x8192, .i32⟩ : BufTy).Contents (Elt F)),
    unary main_v19 main_v21 (broadcastInDim S8192x8192 ![0, 1] bcast_S8192x1_S8192x8192_0_1 : (⟨S8192x1, .i32⟩ : BufTy).Contents (Elt F) → (⟨S8192x8192, .i32⟩ : BufTy).Contents (Elt F)),
    unary main_v20 main_v22 (broadcastInDim S8192x8192 ![0, 1] bcast_S1x8192_S8192x8192_0_1 : (⟨S1x8192, .i32⟩ : BufTy).Contents (Elt F) → (⟨S8192x8192, .i32⟩ : BufTy).Contents (Elt F)),
    binary main_v21 main_v22 main_v23 (cmpi .eq : (⟨S8192x8192, .i32⟩ : BufTy).Contents (Elt F) → (⟨S8192x8192, .i32⟩ : BufTy).Contents (Elt F) → (⟨S8192x8192, .i1⟩ : BufTy).Contents (Elt F)),
    nullary main_v24 (iotaInDim S8192x8192 32 0),
    nullary main_v25 (iotaInDim S8192x8192 32 1),
    nullary main_c (constantI S_ 32 0#32),
    unary main_c main_v26 (broadcastInDim S8192x8192 ![] bcast_S_S8192x8192 : (⟨S_, .i32⟩ : BufTy).Contents (Elt F) → (⟨S8192x8192, .i32⟩ : BufTy).Contents (Elt F)),
    binary main_v24 main_v26 main_v27 (addi : (⟨S8192x8192, .i32⟩ : BufTy).Contents (Elt F) → (⟨S8192x8192, .i32⟩ : BufTy).Contents (Elt F) → (⟨S8192x8192, .i32⟩ : BufTy).Contents (Elt F)),
    binary main_v27 main_v25 main_v28 (cmpi .eq : (⟨S8192x8192, .i32⟩ : BufTy).Contents (Elt F) → (⟨S8192x8192, .i32⟩ : BufTy).Contents (Elt F) → (⟨S8192x8192, .i1⟩ : BufTy).Contents (Elt F)),
    unary main_v28 main_v29 (noti : (⟨S8192x8192, .i1⟩ : BufTy).Contents (Elt F) → (⟨S8192x8192, .i1⟩ : BufTy).Contents (Elt F)),
    binary main_v23 main_v29 main_v30 (andi : (⟨S8192x8192, .i1⟩ : BufTy).Contents (Elt F) → (⟨S8192x8192, .i1⟩ : BufTy).Contents (Elt F) → (⟨S8192x8192, .i1⟩ : BufTy).Contents (Elt F)),
    unary main_v23 main_v31 (noti : (⟨S8192x8192, .i1⟩ : BufTy).Contents (Elt F) → (⟨S8192x8192, .i1⟩ : BufTy).Contents (Elt F)) ]

/-- Operations 44 to 64: the rows' extremes, the two `any`, the triplet loss. -/
abbrev opsC : List (HloOp τ sig (Elt F)) :=
  [ nullary main_cst_5 (constant S_ .f32 0xFF800000#32),
    TRef.unary (TRef.of (T := ⟨S_, .f32⟩) main_cst_5) (TRef.of (T := ⟨S8192x8192, .f32⟩) main_call2_v0) (broadcastInDim S8192x8192 ![] bcast_S_S8192x8192),
    TRef.ternary (TRef.of (T := ⟨S8192x8192, .i1⟩) main_v30) (TRef.of (T := ⟨S8192x8192, .f32⟩) main_v18) (TRef.of (T := ⟨S8192x8192, .f32⟩) main_call2_v0) (TRef.of (T := ⟨S8192x8192, .f32⟩) main_v32) select,
    nullary main_cst_6 (constant S_ .f32 0xFF800000#32),
    binary main_v32 main_cst_6 main_v33 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_7 (constant S_ .f32 0x7F800000#32),
    TRef.unary (TRef.of (T := ⟨S_, .f32⟩) main_cst_7) (TRef.of (T := ⟨S8192x8192, .f32⟩) main_call3_v0) (broadcastInDim S8192x8192 ![] bcast_S_S8192x8192),
    TRef.ternary (TRef.of (T := ⟨S8192x8192, .i1⟩) main_v31) (TRef.of (T := ⟨S8192x8192, .f32⟩) main_v18) (TRef.of (T := ⟨S8192x8192, .f32⟩) main_call3_v0) (TRef.of (T := ⟨S8192x8192, .f32⟩) main_v34) select,
    nullary main_cst_8 (constant S_ .f32 0x7F800000#32),
    binary main_v34 main_cst_8 main_v35 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_c_9 (constantI S_ 1 0#1),
    binary main_v30 main_c_9 main_v36 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    nullary main_c_10 (constantI S_ 1 0#1),
    binary main_v31 main_c_10 main_v37 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    binary main_v33 main_v35 main_v38 (subf : (⟨S8192, .f32⟩ : BufTy).Contents (Elt F) → (⟨S8192, .f32⟩ : BufTy).Contents (Elt F) → (⟨S8192, .f32⟩ : BufTy).Contents (Elt F)),
    nullary main_cst_11 (constant S_ .f32 0x3F800000#32),
    unary main_cst_11 main_v39 (broadcastInDim S8192 ![] bcast_S_S8192 : (⟨S_, .f32⟩ : BufTy).Contents (Elt F) → (⟨S8192, .f32⟩ : BufTy).Contents (Elt F)),
    binary main_v38 main_v39 main_v40 (addf : (⟨S8192, .f32⟩ : BufTy).Contents (Elt F) → (⟨S8192, .f32⟩ : BufTy).Contents (Elt F) → (⟨S8192, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8192, .f32⟩) main_call4_v0) (broadcastInDim S8192 ![] bcast_S_S8192),
    TRef.binary (TRef.of (T := ⟨S8192, .f32⟩) main_v40) (TRef.of (T := ⟨S8192, .f32⟩) main_call4_v0) (TRef.of (T := ⟨S8192, .f32⟩) main_v41) maximumf ]

/-- Operations 65 to 73: the valid rows and their losses. -/
abbrev opsD : List (HloOp τ sig (Elt F)) :=
  [ binary main_v36 main_v37 main_v42 (andi : (⟨S8192, .i1⟩ : BufTy).Contents (Elt F) → (⟨S8192, .i1⟩ : BufTy).Contents (Elt F) → (⟨S8192, .i1⟩ : BufTy).Contents (Elt F)),
    nullary main_cst_12 (constant S_ .f32 0x00000000#32),
    unary main_cst_12 main_v43 (broadcastInDim S8192 ![] bcast_S_S8192 : (⟨S_, .f32⟩ : BufTy).Contents (Elt F) → (⟨S8192, .f32⟩ : BufTy).Contents (Elt F)),
    binary main_v41 main_v43 main_v44 (cmpf .ogt : (⟨S8192, .f32⟩ : BufTy).Contents (Elt F) → (⟨S8192, .f32⟩ : BufTy).Contents (Elt F) → (⟨S8192, .i1⟩ : BufTy).Contents (Elt F)),
    binary main_v42 main_v44 main_v45 (andi : (⟨S8192, .i1⟩ : BufTy).Contents (Elt F) → (⟨S8192, .i1⟩ : BufTy).Contents (Elt F) → (⟨S8192, .i1⟩ : BufTy).Contents (Elt F)),
    nullary main_cst_13 (constant S_ .f32 0x00000000#32),
    TRef.unary (TRef.of (T := ⟨S_, .f32⟩) main_cst_13) (TRef.of (T := ⟨S_, .f32⟩) main_call5_v0) id,
    TRef.unary (TRef.of (T := ⟨S_, .f32⟩) main_call5_v0) (TRef.of (T := ⟨S8192, .f32⟩) main_call5_v1) (broadcastInDim S8192 ![] bcast_S_S8192),
    TRef.ternary (TRef.of (T := ⟨S8192, .i1⟩) main_v45) (TRef.of (T := ⟨S8192, .f32⟩) main_v41) (TRef.of (T := ⟨S8192, .f32⟩) main_call5_v1) (TRef.of (T := ⟨S8192, .f32⟩) main_v46) select ]

/-- Operations 74 to 84: the total, the count, the quotient. -/
abbrev opsE : List (HloOp τ sig (Elt F)) :=
  [ nullary main_cst_14 (constant S_ .f32 0x00000000#32),
    binary main_v46 main_cst_14 main_v47 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v45 main_v48 ((extui 32 · natLt_1_32) : (⟨S8192, .i1⟩ : BufTy).Contents (Elt F) → (⟨S8192, .i32⟩ : BufTy).Contents (Elt F)),
    nullary main_c_15 (constantI S_ 32 0#32),
    binary main_v48 main_c_15 main_v49 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    nullary main_c_16 (constantI S_ 32 0#32),
    binary main_v49 main_c_16 main_v50 (cmpi .sgt : (⟨S_, .i32⟩ : BufTy).Contents (Elt F) → (⟨S_, .i32⟩ : BufTy).Contents (Elt F) → (⟨S_, .i1⟩ : BufTy).Contents (Elt F)),
    nullary main_c_17 (constantI S_ 32 1#32),
    binary main_v49 main_c_17 main_v51 (maxsi : (⟨S_, .i32⟩ : BufTy).Contents (Elt F) → (⟨S_, .i32⟩ : BufTy).Contents (Elt F) → (⟨S_, .i32⟩ : BufTy).Contents (Elt F)),
    unary main_v51 main_v52 (sitofp .f32 : (⟨S_, .i32⟩ : BufTy).Contents (Elt F) → (⟨S_, .f32⟩ : BufTy).Contents (Elt F)),
    binary main_v47 main_v52 main_v53 (Host.divf : (⟨S_, .f32⟩ : BufTy).Contents (Elt F) → (⟨S_, .f32⟩ : BufTy).Contents (Elt F) → (⟨S_, .f32⟩ : BufTy).Contents (Elt F)) ]

/-- The last operation, the select between the quotient and zero, over its four buffers. -/
abbrev opLast : HloOp τ sig (Elt F) :=
  ternary main_v50 main_v53 main_cst_18 main_v54 (select : (⟨S_, .i1⟩ : BufTy).Contents (Elt F) → (⟨S_, .f32⟩ : BufTy).Contents (Elt F) → (⟨S_, .f32⟩ : BufTy).Contents (Elt F) → (⟨S_, .f32⟩ : BufTy).Contents (Elt F))

/-- It is the operation the program spells over typed references. -/
theorem opLast_eq : (TRef.ternary (TRef.of (T := ⟨S_, .i1⟩) main_v50) (TRef.of (T := ⟨S_, .f32⟩) main_v53) (TRef.of (T := ⟨S_, .f32⟩) main_cst_18) (TRef.of (T := ⟨S_, .f32⟩) main_v54) select : HloOp τ sig (Elt F)) = opLast := by
  chain_rfl

/-- Operations 85 and 86: the zero constant and the final select. -/
abbrev opsG : List (HloOp τ sig (Elt F)) :=
  [ nullary main_cst_18 (constant S_ .f32 0x00000000#32),
    opLast ]

/-- The memory after two lines run one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- After the first stretch the distance matrix is its stage. -/
theorem afterA (V : Valuation τ sig (Elt F)) :
    after (opsA (F := F)) V (Proc.devRef .tc main_v18) = val_main_v18 (F := F) (V (Proc.devRef .tc main_arg0)) := by
  after_results_simp
  rfl

/-- After the second stretch the two masks are their stages, and the distance matrix is untouched. -/
theorem afterB (W : Valuation τ sig (Elt F)) :
    after (opsB (F := F)) W (Proc.devRef .tc main_v30) = val_main_v30 (F := F) (W (Proc.devRef .tc main_arg1))
    ∧ after (opsB (F := F)) W (Proc.devRef .tc main_v31) = val_main_v31 (F := F) (W (Proc.devRef .tc main_arg1))
    ∧ after (opsB (F := F)) W (Proc.devRef .tc main_v18) = W (Proc.devRef .tc main_v18) := by
  refine ⟨?_, ?_, ?_⟩
  · after_results_simp
    rfl
  · after_results_simp
    rfl
  · after_results_simp

/-- After the third stretch the two `any` and the triplet loss are their stages. -/
theorem afterC (W : Valuation τ sig (Elt F)) (x0 : (⟨S8192x128, .f32⟩ : BufTy).Contents (Elt F)) (x1 : (⟨S8192, .i32⟩ : BufTy).Contents (Elt F))
    (h18 : W (Proc.devRef .tc main_v18) = val_main_v18 (F := F) x0)
    (h30 : W (Proc.devRef .tc main_v30) = val_main_v30 (F := F) x1)
    (h31 : W (Proc.devRef .tc main_v31) = val_main_v31 (F := F) x1) :
    after (opsC (F := F)) W (Proc.devRef .tc main_v36) = val_main_v36 (F := F) x1
    ∧ after (opsC (F := F)) W (Proc.devRef .tc main_v37) = val_main_v37 (F := F) x1
    ∧ after (opsC (F := F)) W (Proc.devRef .tc main_v41) = val_main_v41 (F := F) x0 x1 := by
  refine ⟨?_, ?_, ?_⟩
  · after_results_simp
    rw [h30]
    rfl
  · after_results_simp
    rw [h31]
    rfl
  · after_results_simp
    rw [h18, h30, h31]
    rfl

/-- After the fourth stretch the valid bits and the rows' losses are their stages. -/
theorem afterD (W : Valuation τ sig (Elt F)) (x0 : (⟨S8192x128, .f32⟩ : BufTy).Contents (Elt F)) (x1 : (⟨S8192, .i32⟩ : BufTy).Contents (Elt F))
    (h36 : W (Proc.devRef .tc main_v36) = val_main_v36 (F := F) x1)
    (h37 : W (Proc.devRef .tc main_v37) = val_main_v37 (F := F) x1)
    (h41 : W (Proc.devRef .tc main_v41) = val_main_v41 (F := F) x0 x1) :
    after (opsD (F := F)) W (Proc.devRef .tc main_v45) = val_main_v45 (F := F) x0 x1
    ∧ after (opsD (F := F)) W (Proc.devRef .tc main_v46) = val_main_v46 (F := F) x0 x1 := by
  refine ⟨?_, ?_⟩
  · after_results_simp
    rw [h36, h37, h41]
    rfl
  · after_results_simp
    rw [h36, h37, h41]
    rfl

/-- After the fifth stretch the "some row is valid" bit and the quotient are their stages. -/
theorem afterE (W : Valuation τ sig (Elt F)) (x0 : (⟨S8192x128, .f32⟩ : BufTy).Contents (Elt F)) (x1 : (⟨S8192, .i32⟩ : BufTy).Contents (Elt F))
    (h45 : W (Proc.devRef .tc main_v45) = val_main_v45 (F := F) x0 x1)
    (h46 : W (Proc.devRef .tc main_v46) = val_main_v46 (F := F) x0 x1) :
    after (opsE (F := F)) W (Proc.devRef .tc main_v50) = val_main_v50 (F := F) x0 x1
    ∧ after (opsE (F := F)) W (Proc.devRef .tc main_v53) = val_main_v53 (F := F) x0 x1 := by
  refine ⟨?_, ?_⟩
  · after_results_simp
    rw [h45]
    rfl
  · after_results_simp
    rw [h45, h46]
    rfl

/-- After the last stretch the result is the last stage. -/
theorem afterG (W : Valuation τ sig (Elt F)) (x0 : (⟨S8192x128, .f32⟩ : BufTy).Contents (Elt F)) (x1 : (⟨S8192, .i32⟩ : BufTy).Contents (Elt F))
    (h50 : W (Proc.devRef .tc main_v50) = val_main_v50 (F := F) x0 x1)
    (h53 : W (Proc.devRef .tc main_v53) = val_main_v53 (F := F) x0 x1) :
    after (opsG (F := F)) W (Proc.devRef .tc main_v54) = val_main_v54 (F := F) x0 x1 := by
  after_results_simp
  rw [h50, h53]
  rfl

/-- No stretch writes an argument. -/
theorem argsA (W : Valuation τ sig (Elt F)) :
    after (opsA (F := F)) W (Proc.devRef .tc main_arg0) = W (Proc.devRef .tc main_arg0) ∧ after (opsA (F := F)) W (Proc.devRef .tc main_arg1) = W (Proc.devRef .tc main_arg1) := by
  refine ⟨?_, ?_⟩ <;> after_results_simp
theorem argsB (W : Valuation τ sig (Elt F)) :
    after (opsB (F := F)) W (Proc.devRef .tc main_arg0) = W (Proc.devRef .tc main_arg0) ∧ after (opsB (F := F)) W (Proc.devRef .tc main_arg1) = W (Proc.devRef .tc main_arg1) := by
  refine ⟨?_, ?_⟩ <;> after_results_simp
theorem argsC (W : Valuation τ sig (Elt F)) :
    after (opsC (F := F)) W (Proc.devRef .tc main_arg0) = W (Proc.devRef .tc main_arg0) ∧ after (opsC (F := F)) W (Proc.devRef .tc main_arg1) = W (Proc.devRef .tc main_arg1) := by
  refine ⟨?_, ?_⟩ <;> after_results_simp
theorem argsD (W : Valuation τ sig (Elt F)) :
    after (opsD (F := F)) W (Proc.devRef .tc main_arg0) = W (Proc.devRef .tc main_arg0) ∧ after (opsD (F := F)) W (Proc.devRef .tc main_arg1) = W (Proc.devRef .tc main_arg1) := by
  refine ⟨?_, ?_⟩ <;> after_results_simp
theorem argsE (W : Valuation τ sig (Elt F)) :
    after (opsE (F := F)) W (Proc.devRef .tc main_arg0) = W (Proc.devRef .tc main_arg0) ∧ after (opsE (F := F)) W (Proc.devRef .tc main_arg1) = W (Proc.devRef .tc main_arg1) := by
  refine ⟨?_, ?_⟩ <;> after_results_simp
theorem argsG (W : Valuation τ sig (Elt F)) :
    after (opsG (F := F)) W (Proc.devRef .tc main_arg0) = W (Proc.devRef .tc main_arg0) ∧ after (opsG (F := F)) W (Proc.devRef .tc main_arg1) = W (Proc.devRef .tc main_arg1) := by
  refine ⟨?_, ?_⟩ <;> after_results_simp

/-- Six lines with those properties, run one after the other: the result is the last stage of the two arguments, and
    the arguments are unchanged. (Stated over any six lines, so that the composition never looks inside one.) -/
theorem after_line_of (lA lB lC lD lE lG : List (HloOp τ sig (Elt F)))
    (hA : ∀ V : Valuation τ sig (Elt F), after lA V (Proc.devRef .tc main_v18) = val_main_v18 (F := F) (V (Proc.devRef .tc main_arg0)))
    (hB : ∀ W : Valuation τ sig (Elt F),
      after lB W (Proc.devRef .tc main_v30) = val_main_v30 (F := F) (W (Proc.devRef .tc main_arg1))
      ∧ after lB W (Proc.devRef .tc main_v31) = val_main_v31 (F := F) (W (Proc.devRef .tc main_arg1))
      ∧ after lB W (Proc.devRef .tc main_v18) = W (Proc.devRef .tc main_v18))
    (hC : ∀ (W : Valuation τ sig (Elt F)) (x0 : (⟨S8192x128, .f32⟩ : BufTy).Contents (Elt F)) (x1 : (⟨S8192, .i32⟩ : BufTy).Contents (Elt F)),
      W (Proc.devRef .tc main_v18) = val_main_v18 (F := F) x0 → W (Proc.devRef .tc main_v30) = val_main_v30 (F := F) x1 →
      W (Proc.devRef .tc main_v31) = val_main_v31 (F := F) x1 →
      after lC W (Proc.devRef .tc main_v36) = val_main_v36 (F := F) x1 ∧ after lC W (Proc.devRef .tc main_v37) = val_main_v37 (F := F) x1
      ∧ after lC W (Proc.devRef .tc main_v41) = val_main_v41 (F := F) x0 x1)
    (hD : ∀ (W : Valuation τ sig (Elt F)) (x0 : (⟨S8192x128, .f32⟩ : BufTy).Contents (Elt F)) (x1 : (⟨S8192, .i32⟩ : BufTy).Contents (Elt F)),
      W (Proc.devRef .tc main_v36) = val_main_v36 (F := F) x1 → W (Proc.devRef .tc main_v37) = val_main_v37 (F := F) x1 →
      W (Proc.devRef .tc main_v41) = val_main_v41 (F := F) x0 x1 →
      after lD W (Proc.devRef .tc main_v45) = val_main_v45 (F := F) x0 x1 ∧ after lD W (Proc.devRef .tc main_v46) = val_main_v46 (F := F) x0 x1)
    (hE : ∀ (W : Valuation τ sig (Elt F)) (x0 : (⟨S8192x128, .f32⟩ : BufTy).Contents (Elt F)) (x1 : (⟨S8192, .i32⟩ : BufTy).Contents (Elt F)),
      W (Proc.devRef .tc main_v45) = val_main_v45 (F := F) x0 x1 → W (Proc.devRef .tc main_v46) = val_main_v46 (F := F) x0 x1 →
      after lE W (Proc.devRef .tc main_v50) = val_main_v50 (F := F) x0 x1 ∧ after lE W (Proc.devRef .tc main_v53) = val_main_v53 (F := F) x0 x1)
    (hG : ∀ (W : Valuation τ sig (Elt F)) (x0 : (⟨S8192x128, .f32⟩ : BufTy).Contents (Elt F)) (x1 : (⟨S8192, .i32⟩ : BufTy).Contents (Elt F)),
      W (Proc.devRef .tc main_v50) = val_main_v50 (F := F) x0 x1 → W (Proc.devRef .tc main_v53) = val_main_v53 (F := F) x0 x1 →
      after lG W (Proc.devRef .tc main_v54) = val_main_v54 (F := F) x0 x1)
    (gA : ∀ W : Valuation τ sig (Elt F), after lA W (Proc.devRef .tc main_arg0) = W (Proc.devRef .tc main_arg0) ∧ after lA W (Proc.devRef .tc main_arg1) = W (Proc.devRef .tc main_arg1))
    (gB : ∀ W : Valuation τ sig (Elt F), after lB W (Proc.devRef .tc main_arg0) = W (Proc.devRef .tc main_arg0) ∧ after lB W (Proc.devRef .tc main_arg1) = W (Proc.devRef .tc main_arg1))
    (gC : ∀ W : Valuation τ sig (Elt F), after lC W (Proc.devRef .tc main_arg0) = W (Proc.devRef .tc main_arg0) ∧ after lC W (Proc.devRef .tc main_arg1) = W (Proc.devRef .tc main_arg1))
    (gD : ∀ W : Valuation τ sig (Elt F), after lD W (Proc.devRef .tc main_arg0) = W (Proc.devRef .tc main_arg0) ∧ after lD W (Proc.devRef .tc main_arg1) = W (Proc.devRef .tc main_arg1))
    (gE : ∀ W : Valuation τ sig (Elt F), after lE W (Proc.devRef .tc main_arg0) = W (Proc.devRef .tc main_arg0) ∧ after lE W (Proc.devRef .tc main_arg1) = W (Proc.devRef .tc main_arg1))
    (gG : ∀ W : Valuation τ sig (Elt F), after lG W (Proc.devRef .tc main_arg0) = W (Proc.devRef .tc main_arg0) ∧ after lG W (Proc.devRef .tc main_arg1) = W (Proc.devRef .tc main_arg1))
    (V : Valuation τ sig (Elt F)) :
    after (lA ++ (lB ++ (lC ++ (lD ++ (lE ++ lG))))) V (Proc.devRef .tc main_v54)
        = val_main_v54 (F := F) (V (Proc.devRef .tc main_arg0)) (V (Proc.devRef .tc main_arg1))
    ∧ after (lA ++ (lB ++ (lC ++ (lD ++ (lE ++ lG))))) V (Proc.devRef .tc main_arg0) = V (Proc.devRef .tc main_arg0)
    ∧ after (lA ++ (lB ++ (lC ++ (lD ++ (lE ++ lG))))) V (Proc.devRef .tc main_arg1) = V (Proc.devRef .tc main_arg1) := by
  rw [after_append, after_append, after_append, after_append, after_append]
  have a18 := hA V
  obtain ⟨a0, a1⟩ := gA V
  generalize after lA V = WA at a18 a0 a1 ⊢
  obtain ⟨b30, b31, b18⟩ := hB WA
  obtain ⟨b0, b1⟩ := gB WA
  rw [a1] at b30 b31 b1
  rw [a18] at b18
  rw [a0] at b0
  generalize after lB WA = WB at b30 b31 b18 b0 b1 ⊢
  obtain ⟨c36, c37, c41⟩ := hC WB _ _ b18 b30 b31
  obtain ⟨c0, c1⟩ := gC WB
  rw [b0] at c0
  rw [b1] at c1
  generalize after lC WB = WC at c36 c37 c41 c0 c1 ⊢
  obtain ⟨d45, d46⟩ := hD WC _ _ c36 c37 c41
  obtain ⟨d0, d1⟩ := gD WC
  rw [c0] at d0
  rw [c1] at d1
  generalize after lD WC = WD at d45 d46 d0 d1 ⊢
  obtain ⟨e50, e53⟩ := hE WD _ _ d45 d46
  obtain ⟨e0, e1⟩ := gE WD
  rw [d0] at e0
  rw [d1] at e1
  generalize after lE WD = WE at e50 e53 e0 e1 ⊢
  obtain ⟨g0, g1⟩ := gG WE
  exact ⟨hG WE _ _ e50 e53, g0.trans e0, g1.trans e1⟩

/-- After the whole line. -/
theorem after_line (V : Valuation τ sig (Elt F)) :
    after (opsA (F := F) ++ (opsB ++ (opsC ++ (opsD ++ (opsE ++ opsG))))) V (Proc.devRef .tc main_v54)
        = val_main_v54 (F := F) (V (Proc.devRef .tc main_arg0)) (V (Proc.devRef .tc main_arg1))
    ∧ after (opsA (F := F) ++ (opsB ++ (opsC ++ (opsD ++ (opsE ++ opsG))))) V (Proc.devRef .tc main_arg0) = V (Proc.devRef .tc main_arg0)
    ∧ after (opsA (F := F) ++ (opsB ++ (opsC ++ (opsD ++ (opsE ++ opsG))))) V (Proc.devRef .tc main_arg1) = V (Proc.devRef .tc main_arg1) :=
  after_line_of opsA opsB opsC opsD opsE opsG afterA afterB afterC afterD afterE afterG argsA argsB argsC argsD argsE argsG V

end Cert.RefBridge

end
-- ==== Proof.RefArgs.lean ====
/-
  The two arguments of the reference as plain functions: the embeddings by row and column, the labels by row.
-/
import proofs.«108932_j15444702397006_2_alg».proof.ReferenceIdeal
import Idealize.ShloMosaic.Lib.ValueIdx

noncomputable section

namespace Cert.RefBridge

open Cert.ReferenceIdeal Idealize.ShloMosaic Idealize.SL.Sem Idealize.ShloMosaic.ValueIdx

/-- The embeddings array as a function of row and column. -/
def Xof (x0 : (⟨S8192x128, .f32⟩ : BufTy).Contents (Elt Ideal)) (i : Fin 8192) (k : Fin 128) : EReal := x0 (ix2 i k)
/-- The labels array as a function of the row. -/
def labOf (x1 : (⟨S8192, .i32⟩ : BufTy).Contents (Elt Ideal)) (i : Fin 8192) : BitVec 32 := x1 (ix1 i)

/-- The embeddings a memory holds on device `c`, by row and column. -/
def XofR (m : (ℓ : Loc nD τ sig) → Buf (Elt Ideal) ℓ) (c : Dev nD) (i : Fin 8192) (k : Fin 128) : EReal := m ((c.tc : Thread nD τ).loc main_arg0) (ix2 i k)
/-- The labels a memory holds on device `c`, by row. -/
def labOfR (m : (ℓ : Loc nD τ sig) → Buf (Elt Ideal) ℓ) (c : Dev nD) (i : Fin 8192) : BitVec 32 := m ((c.tc : Thread nD τ).loc main_arg1) (ix1 i)

theorem XofR_eq (m : (ℓ : Loc nD τ sig) → Buf (Elt Ideal) ℓ) (c : Dev nD) : XofR m c = Xof (m ((c.tc : Thread nD τ).loc main_arg0)) := rfl
theorem labOfR_eq (m : (ℓ : Loc nD τ sig) → Buf (Elt Ideal) ℓ) (c : Dev nD) : labOfR m c = labOf (m ((c.tc : Thread nD τ).loc main_arg1)) := rfl

end Cert.RefBridge

end
-- ==== Proof.RefDist.lean ====
/-
  The reference's distance matrix, entry by entry.

  With `X i k` the embeddings array read at row `i`, column `k`: the row sums of squares are `Spec.sq`, the
  contraction of the array with its transpose is the Gram matrix `Spec.dot`, their combination clamped at zero is the
  squared distance `Spec.d2`, and the guarded square root (the root is taken of `d2` where `d2` is positive and of the
  constant one elsewhere, and the result is kept only where `d2` is positive) is `Spec.dist`.
-/
import proofs.«108932_j15444702397006_2_alg».proof.Proof.RefReadP
import proofs.«108932_j15444702397006_2_alg».proof.Proof.RefArgs
import proofs.«108932_j15444702397006_2_alg».proof.Proof.Spec

noncomputable section

open scoped Classical

namespace Cert.RefBridge

open Cert.ReferenceIdeal Cert.ReferenceIdeal.ReadP Idealize.ShloMosaic Idealize.ShloMosaic.ValueIdx

variable (x0 : (⟨S8192x128, .f32⟩ : BufTy).Contents (Elt Ideal))

/-- A row's sum of squares, from the zero word. -/
theorem sq_at (i : Fin 8192) : val_main_v1 (F := Ideal) x0 (ix1 i) = Spec.sq (Xof x0) i := by
  rw [val_main_v1_apply]
  unfold Spec.sq
  refine congrArg₂ (· + ·) rfl (Finset.sum_congr rfl fun k _ => ?_)
  have e : idx_main_v1 (ix1 i) k = ix2 i k := funext fun a => by match a with | ⟨0, _⟩ => rfl | ⟨1, _⟩ => rfl
  rw [val_main_v0_apply, e]
  rfl

/-- The contraction with the transpose: the Gram entry. -/
theorem dot_at (i j : Fin 8192) : val_main_v8 (F := Ideal) x0 (ix2 i j) = Spec.dot (Xof x0) i j := by
  rw [val_main_v8_apply]
  unfold Spec.dot
  refine Finset.sum_congr rfl fun k _ => ?_
  have el : lidx_main_v8 (ix2 i j) k = ix2 i k := funext fun a => by match a with | ⟨0, _⟩ => rfl | ⟨1, _⟩ => rfl
  have er : idx_main_v7 (ridx_main_v8 (ix2 i j) k) = ix2 j k := funext fun a => by match a with | ⟨0, _⟩ => rfl | ⟨1, _⟩ => rfl
  rw [val_main_v7_apply, el, er]
  rfl

/-- The squared distance: the two broadcast norms added, twice the Gram entry subtracted, clamped at zero. -/
theorem d2_at (i j : Fin 8192) : val_main_v13 (F := Ideal) x0 (ix2 i j) = Spec.d2 (Xof x0) i j := by
  have e4 : idx_main_v2 (idx_main_v4 (ix2 i j)) = ix1 i := funext fun a => by match a with | ⟨0, _⟩ => rfl
  have e5 : idx_main_v3 (idx_main_v5 (ix2 i j)) = ix1 j := funext fun a => by match a with | ⟨0, _⟩ => rfl
  rw [val_main_v13_apply, val_main_v11_apply, val_main_v6_apply, val_main_v4_apply, val_main_v2_apply, e4, sq_at,
    val_main_v5_apply, val_main_v3_apply, e5, sq_at, val_main_v10_apply, val_main_v9_apply, val_main_cst_0_apply, dot_at,
    val_main_v12_apply, val_main_cst_1_apply]
  rfl

/-- The comparison bit of an extended real against another is one exactly when the order holds. -/
theorem cmp_ogt_pos {x y : EReal} (h : y < x) : Ideal.cmp .ogt x y = 1#1 := by simp [Ideal.cmp, h]
theorem cmp_ogt_neg {x y : EReal} (h : ¬ y < x) : Ideal.cmp .ogt x y = 0#1 := by simp [Ideal.cmp, h]
theorem cmp_ogt_iff {x y : EReal} : Ideal.cmp .ogt x y = 1#1 ↔ y < x := by
  by_cases h : y < x
  · simp [cmp_ogt_pos h, h]
  · simp [cmp_ogt_neg h, h]

/-- The distance: the guarded square root of the squared distance. -/
theorem dist_at (i j : Fin 8192) : val_main_v18 (F := Ideal) x0 (ix2 i j) = Spec.dist (Xof x0) i j := by
  rw [val_main_v18_apply, val_main_v17_apply, val_main_v16_apply, val_main_v15_apply, d2_at, val_main_v14_apply,
    val_main_cst_2_apply, val_main_call0_v1_apply, val_main_call0_v0_apply, val_main_cst_3_apply, val_main_call1_v1_apply,
    val_main_call1_v0_apply, val_main_cst_4_apply]
  show Scalar.select (Ideal.cmp .ogt (Spec.d2 (Xof x0) i j) Spec.zero)
      (Ideal.sqrt (Scalar.select (Ideal.cmp .ogt (Spec.d2 (Xof x0) i j) Spec.zero) (Spec.d2 (Xof x0) i j) Spec.one)) Spec.zero = _
  unfold Spec.dist
  by_cases h : Spec.zero < Spec.d2 (Xof x0) i j
  · rw [cmp_ogt_pos h, if_pos h, select_one, select_one]
  · rw [cmp_ogt_neg h, if_neg h, select_zero]

end Cert.RefBridge

end
-- ==== Proof.RefMask.lean ====
/-
  The reference's two masks, entry by entry.

  The labels are broadcast along rows and along columns and compared: the bit at `(i, j)` is one exactly when the two
  rows carry the same label. The identity is the comparison of the row counter with the column counter (both below
  `2 ^ 32`, so the words are equal exactly when the coordinates are). The positive mask is "same label and off the
  diagonal", the negative mask is "other label".
-/
import proofs.«108932_j15444702397006_2_alg».proof.Proof.RefReadP
import proofs.«108932_j15444702397006_2_alg».proof.Proof.RefArgs
import proofs.«108932_j15444702397006_2_alg».proof.Proof.Spec
import Idealize.ShloMosaic.Lib.Affine

noncomputable section

open scoped Classical

namespace Cert.RefBridge

open Cert.ReferenceIdeal Cert.ReferenceIdeal.ReadP Idealize.ShloMosaic Idealize.ShloMosaic.ValueIdx

variable (x1 : (⟨S8192, .i32⟩ : BufTy).Contents (Elt Ideal))

/-- The comparison of the two broadcast label arrays. -/
theorem same_at (i j : Fin 8192) : val_main_v23 (F := Ideal) x1 (ix2 i j) = 1#1 ↔ labOf x1 i = labOf x1 j := by
  have e1 : idx_main_v19 (idx_main_v21 (ix2 i j)) = ix1 i := funext fun a => by match a with | ⟨0, _⟩ => rfl
  have e2 : idx_main_v20 (idx_main_v22 (ix2 i j)) = ix1 j := funext fun a => by match a with | ⟨0, _⟩ => rfl
  rw [val_main_v23_apply, val_main_v21_apply, val_main_v19_apply, e1, val_main_v22_apply, val_main_v20_apply, e2,
    IntOp.cmpi_eq]
  rfl

/-- The identity matrix: row counter against column counter. -/
theorem eye_at (i j : Fin 8192) : val_main_v28 (F := Ideal) (ix2 i j) = 1#1 ↔ i = j := by
  rw [val_main_v28_apply, val_main_v27_apply, val_main_v24_apply, val_main_v26_apply, val_main_c_apply,
    val_main_v25_apply, IntOp.cmpi_eq]
  show IntOp.addi (BitVec.ofNat 32 i.val) 0#32 = BitVec.ofNat 32 j.val ↔ i = j
  unfold IntOp.addi
  rw [BitVec.add_zero]
  constructor
  · intro h
    have h' := congrArg BitVec.toNat h
    simp only [BitVec.toNat_ofNat] at h'
    have hi := i.isLt
    have hj := j.isLt
    exact Fin.ext (by omega)
  · rintro rfl
    rfl

/-- The positive mask: same label, off the diagonal. -/
theorem pos_at (i j : Fin 8192) : val_main_v30 (F := Ideal) x1 (ix2 i j) = 1#1 ↔ Spec.pos (labOf x1) i j := by
  rw [val_main_v30_apply, val_main_v29_apply, IntOp.andi_eq_one, IntOp.not_eq_one, same_at, eye_at]
  rfl

/-- The negative mask: another label. -/
theorem neg_at (i j : Fin 8192) : val_main_v31 (F := Ideal) x1 (ix2 i j) = 1#1 ↔ Spec.neg (labOf x1) i j := by
  rw [val_main_v31_apply, IntOp.not_eq_one, same_at]
  rfl

end Cert.RefBridge

end
-- ==== Proof.RefFold.lean ====
/-
  Reductions of the reference read as folds over plain index ranges.

  A reduce along the second axis of an 8192 × 8192 array, read at row `i`, is the fold of the row's entries from the
  initial value; a reduce of a length-8192 array over its only axis is the fold of all its entries. A fold of `max` from
  the bottom element is the supremum, a fold of `min` from the top element the infimum, and a fold of one-bit words by
  `or` from zero is one exactly when some word is one. The words `0xFF800000` and `0x7F800000` denote the two infinities.
-/
import proofs.«108932_j15444702397006_2_alg».proof.Proof.Gen.ReferenceIdeal
import Idealize.ShloMosaic.Lib.ValueIdx
import Idealize.ShloMosaic.Lib.Affine
import Idealize.ShloMosaic.PureOps.Reduce
import Idealize.ShloMosaic.PureOps.Ideal.Laws

noncomputable section

open scoped Classical

namespace Cert.RefBridge

open Cert.ReferenceIdeal Cert.ReferenceIdeal.Gen Idealize.ShloMosaic Idealize.ShloMosaic.ValueIdx

/-- The word of minus infinity. -/
theorem negInf_f32 : Ideal.ofBits .f32 0xFF800000#32 = ⊥ := by simp [Ideal.ofBits, Ideal.ieee]
/-- The word of plus infinity. -/
theorem posInf_f32 : Ideal.ofBits .f32 0x7F800000#32 = ⊤ := by simp [Ideal.ofBits, Ideal.ieee]

/-- Dropping the column axis of the square array leaves the rows. -/
theorem red_rows : S8192x8192.Reduces [1] S8192 := by decide

/-- Row `i` with column `k` put back is the entry `(i, k)`. -/
theorem lift_rows (i k : Fin 8192) : red_rows.lift (ix1 i) k = ix2 i k :=
  funext fun c => Fin.ext (by match c with | ⟨0, _⟩ => rfl | ⟨1, _⟩ => rfl)

/-- A reduce along the columns, read at row `i`: the fold of that row's entries from the initial value. -/
theorem reduce_rows {α : Type} (f : α → α → α) [Std.Commutative f] [Std.Associative f] (x : S8192x8192.Idx → α)
    (init : S_.Idx → α) (i : Fin 8192) :
    Host.reduce f x init reducesTo_S8192x8192_S8192_d1 h_S_ (ix1 i)
      = (Finset.univ : Finset (Fin 8192)).fold f (init ix0) (fun j => x (ix2 i j)) := by
  rw [Host.reduce_eq_fold_single f x init reducesTo_S8192x8192_S8192_d1 red_rows h_S_ (ix1 i)]
  have e1 : init (Shape.Idx.first h_S_) = init ix0 := congrArg init (funext fun a => a.elim0)
  have e2 : (x ∘ red_rows.lift (ix1 i)) = fun j : Fin 8192 => x (ix2 i j) := funext fun k => congrArg x (lift_rows i k)
  rw [e1]
  exact congrArg (fun g => Finset.fold f (init ix0) g (Finset.univ : Finset (Fin 8192))) e2

/-- The indices of a length-8192 array are its coordinates. -/
def idxEquiv1 : S8192.Idx ≃ Fin 8192 where
  toFun j := j 0
  invFun := ix1
  left_inv j := (eq_ix1 j).symm
  right_inv _ := rfl

/-- A reduce of a length-8192 array over its only axis: the fold of all its entries from the initial value. -/
theorem reduce_all {α : Type} (f : α → α → α) [Std.Commutative f] [Std.Associative f] (x : S8192.Idx → α)
    (init : S_.Idx → α) (j : S_.Idx) :
    Host.reduce f x init reducesTo_S8192_S_d0 h_S_ j = (Finset.univ : Finset S8192.Idx).fold f (init ix0) x := by
  rw [Host.reduce_eq_fold, Finset.filter_true_of_mem fun i _ => funext fun b => b.elim0]
  exact congrArg (fun b => Finset.fold f b x Finset.univ) (congrArg init (funext fun a => a.elim0))

/-- A fold of `max` from the bottom element is the supremum. -/
theorem fold_max_bot {ι : Type} (S : Finset ι) (g : ι → EReal) :
    S.fold (FloatOps.maximumf (F := Ideal) (φ := .f32)) (⊥ : EReal) g = S.sup g := by
  induction S using Finset.induction_on with
  | empty => simp
  | insert a S ha ih => rw [Finset.fold_insert ha, Finset.sup_insert, ih]; rfl

/-- A fold of `min` from the top element is the infimum. -/
theorem fold_min_top {ι : Type} (S : Finset ι) (g : ι → EReal) :
    S.fold (FloatOps.minimumf (F := Ideal) (φ := .f32)) (⊤ : EReal) g = S.inf g := by
  induction S using Finset.induction_on with
  | empty => simp
  | insert a S ha ih => rw [Finset.fold_insert ha, Finset.inf_insert, ih]; rfl

/-- A fold of one-bit words by `or` from zero is one exactly when one of the words is. -/
theorem fold_ori_eq_one {ι : Type} (S : Finset ι) (g : ι → BitVec 1) :
    S.fold IntOp.ori 0#1 g = 1#1 ↔ ∃ k ∈ S, g k = 1#1 := by
  induction S using Finset.induction_on with
  | empty => simp
  | insert a S ha ih => rw [Finset.fold_insert ha, IntOp.ori_eq_one, ih, Finset.exists_mem_insert]

end Cert.RefBridge

end
-- ==== Proof.RefRows.lean ====
/-
  The reference's rows.

  Row `i`'s hardest positive is the maximum, from minus infinity, of the distances at the positives of the row (minus
  infinity elsewhere): the supremum `Spec.hpR`. Its hardest negative is the minimum, from plus infinity, of the distances
  at the negatives: the infimum `Spec.hnR`. The two `any` are folds of `or` over the masks' rows. The triplet loss is the
  difference plus the margin, clamped at zero; a row is valid when it has a positive, has a negative, and its loss is
  positive; the loss of a row that is not valid is replaced by zero.
-/
import proofs.«108932_j15444702397006_2_alg».proof.Proof.RefReadP
import proofs.«108932_j15444702397006_2_alg».proof.Proof.RefArgs
import proofs.«108932_j15444702397006_2_alg».proof.Proof.RefDist
import proofs.«108932_j15444702397006_2_alg».proof.Proof.RefMask
import proofs.«108932_j15444702397006_2_alg».proof.Proof.RefFold
import proofs.«108932_j15444702397006_2_alg».proof.Proof.Spec

noncomputable section

open scoped Classical

namespace Cert.RefBridge

open Cert.ReferenceIdeal Cert.ReferenceIdeal.Gen Cert.ReferenceIdeal.ReadP Idealize.ShloMosaic Idealize.ShloMosaic.ValueIdx

variable (x0 : (⟨S8192x128, .f32⟩ : BufTy).Contents (Elt Ideal)) (x1 : (⟨S8192, .i32⟩ : BufTy).Contents (Elt Ideal))

/-- The entries the row maximum runs over: the distance at a positive, minus infinity elsewhere. -/
theorem posEntry_at (i j : Fin 8192) :
    val_main_v32 (F := Ideal) x0 x1 (ix2 i j) = if Spec.pos (labOf x1) i j then Spec.dist (Xof x0) i j else ⊥ := by
  rw [val_main_v32_apply, dist_at, val_main_call2_v0_apply, val_main_cst_5_apply]
  by_cases h : Spec.pos (labOf x1) i j
  · rw [(pos_at x1 i j).2 h, select_one, if_pos h]
  · rw [eq_zero_of_ne_one (fun e => h ((pos_at x1 i j).1 e)), select_zero, if_neg h]
    exact negInf_f32

/-- The entries the row minimum runs over: the distance at a negative, plus infinity elsewhere. -/
theorem negEntry_at (i j : Fin 8192) :
    val_main_v34 (F := Ideal) x0 x1 (ix2 i j) = if Spec.neg (labOf x1) i j then Spec.dist (Xof x0) i j else ⊤ := by
  rw [val_main_v34_apply, dist_at, val_main_call3_v0_apply, val_main_cst_7_apply]
  by_cases h : Spec.neg (labOf x1) i j
  · rw [(neg_at x1 i j).2 h, select_one, if_pos h]
  · rw [eq_zero_of_ne_one (fun e => h ((neg_at x1 i j).1 e)), select_zero, if_neg h]
    exact posInf_f32

/-- The hardest positive of a row. -/
theorem hp_at (i : Fin 8192) : val_main_v33 (F := Ideal) x0 x1 (ix1 i) = Spec.hpR (Xof x0) (labOf x1) i := by
  unfold val_main_v33
  rw [reduce_rows, show (val_main_cst_6 (F := Ideal)) ix0 = (⊥ : EReal) from negInf_f32,
    show (fun j => val_main_v32 (F := Ideal) x0 x1 (ix2 i j))
      = fun j => if Spec.pos (labOf x1) i j then Spec.dist (Xof x0) i j else ⊥ from funext fun j => posEntry_at x0 x1 i j]
  exact fold_max_bot _ _

/-- The hardest negative of a row. -/
theorem hn_at (i : Fin 8192) : val_main_v35 (F := Ideal) x0 x1 (ix1 i) = Spec.hnR (Xof x0) (labOf x1) i := by
  unfold val_main_v35
  rw [reduce_rows, show (val_main_cst_8 (F := Ideal)) ix0 = (⊤ : EReal) from posInf_f32,
    show (fun j => val_main_v34 (F := Ideal) x0 x1 (ix2 i j))
      = fun j => if Spec.neg (labOf x1) i j then Spec.dist (Xof x0) i j else ⊤ from funext fun j => negEntry_at x0 x1 i j]
  exact fold_min_top _ _

/-- A row has a positive. -/
theorem hasPos_at (i : Fin 8192) : val_main_v36 (F := Ideal) x1 (ix1 i) = 1#1 ↔ ∃ j, Spec.pos (labOf x1) i j := by
  unfold val_main_v36
  rw [reduce_rows, show (val_main_c_9 (F := Ideal)) ix0 = 0#1 from rfl, fold_ori_eq_one]
  constructor
  · rintro ⟨j, -, hj⟩
    exact ⟨j, (pos_at x1 i j).1 hj⟩
  · rintro ⟨j, hj⟩
    exact ⟨j, Finset.mem_univ _, (pos_at x1 i j).2 hj⟩

/-- A row has a negative. -/
theorem hasNeg_at (i : Fin 8192) : val_main_v37 (F := Ideal) x1 (ix1 i) = 1#1 ↔ ∃ j, Spec.neg (labOf x1) i j := by
  unfold val_main_v37
  rw [reduce_rows, show (val_main_c_10 (F := Ideal)) ix0 = 0#1 from rfl, fold_ori_eq_one]
  constructor
  · rintro ⟨j, -, hj⟩
    exact ⟨j, (neg_at x1 i j).1 hj⟩
  · rintro ⟨j, hj⟩
    exact ⟨j, Finset.mem_univ _, (neg_at x1 i j).2 hj⟩

/-- The triplet loss of a row: hardest positive minus hardest negative plus the margin, clamped at zero. -/
theorem tl_at (i : Fin 8192) : val_main_v41 (F := Ideal) x0 x1 (ix1 i) = Spec.tlR (Xof x0) (labOf x1) i := by
  rw [val_main_v41_apply, val_main_v40_apply, val_main_v38_apply, hp_at, hn_at, val_main_v39_apply, val_main_cst_11_apply,
    val_main_call4_v0_apply, val_main_call4_cst_apply]
  rfl

/-- The valid bit of a row. -/
theorem valid_at (i : Fin 8192) : val_main_v45 (F := Ideal) x0 x1 (ix1 i) = 1#1 ↔ Spec.validR (Xof x0) (labOf x1) i := by
  rw [val_main_v45_apply, val_main_v42_apply, IntOp.andi_eq_one, IntOp.andi_eq_one, hasPos_at, hasNeg_at, val_main_v44_apply,
    tl_at, val_main_v43_apply, val_main_cst_12_apply]
  unfold Spec.validR
  rw [and_assoc]
  exact and_congr Iff.rfl (and_congr Iff.rfl cmp_ogt_iff)

/-- The loss a row contributes: its triplet loss when valid, zero otherwise. -/
theorem loss_at (i : Fin 8192) : val_main_v46 (F := Ideal) x0 x1 (ix1 i) = Spec.lossR (Xof x0) (labOf x1) i := by
  rw [val_main_v46_apply, tl_at, val_main_call5_v1_apply, val_main_call5_v0_apply, val_main_cst_13_apply]
  unfold Spec.lossR
  by_cases h : Spec.validR (Xof x0) (labOf x1) i
  · rw [(valid_at x0 x1 i).2 h, select_one, if_pos h]
  · rw [eq_zero_of_ne_one (fun e => h ((valid_at x0 x1 i).1 e)), select_zero, if_neg h]
    rfl

end Cert.RefBridge

end
-- ==== Proof.RefTail.lean ====
/-
  The reference's result.

  The total is the float sum, from the zero word, of the rows' losses. The count is the integer sum of the valid bits
  widened to 32 bits: a sum of at most 8192 ones, so the 32-bit word is the count itself, it reads the same signed and
  unsigned, the signed comparison with zero says whether there is a valid row, the signed maximum with one is the
  maximum of the numbers, and the conversion to a float is exact. The result is the total divided by that maximum
  when there is a valid row, and zero otherwise.
-/
import proofs.«108932_j15444702397006_2_alg».proof.Proof.RefReadP
import proofs.«108932_j15444702397006_2_alg».proof.Proof.RefArgs
import proofs.«108932_j15444702397006_2_alg».proof.Proof.RefRows
import proofs.«108932_j15444702397006_2_alg».proof.Proof.RefFold
import proofs.«108932_j15444702397006_2_alg».proof.Proof.Spec
import Idealize.ShloMosaic.Lib.IndicatorCount

noncomputable section

open scoped Classical

namespace Cert.RefBridge

open Cert.ReferenceIdeal Cert.ReferenceIdeal.Gen Cert.ReferenceIdeal.ReadP Idealize.ShloMosaic Idealize.ShloMosaic.ValueIdx

/-- A count of at most 8192, as a 32-bit word, reads signed as itself. -/
theorem toInt_ofNat_small (n : ℕ) (hn : n ≤ 8192) : (BitVec.ofNat 32 n).toInt = (n : ℤ) := by
  have h1 : (BitVec.ofNat 32 n).toNat = n := by rw [BitVec.toNat_ofNat]; omega
  rw [BitVec.toInt_eq_toNat_of_lt (by rw [h1]; omega), h1]

/-- Its signed comparison with zero. -/
theorem sgt_zero_iff (n : ℕ) (hn : n ≤ 8192) : IntOp.cmpi .sgt (BitVec.ofNat 32 n) 0#32 = 1#1 ↔ 0 < n := by
  rw [IntOp.cmpi_sgt, toInt_ofNat_small n hn, show (0#32 : BitVec 32).toInt = 0 from by decide]
  exact Int.natCast_pos

/-- Its signed maximum with one. -/
theorem maxsi_one (n : ℕ) (hn : n ≤ 8192) : IntOp.maxsi (BitVec.ofNat 32 n) 1#32 = BitVec.ofNat 32 (max n 1) := by
  unfold IntOp.maxsi
  split <;> rename_i h
  · rw [BitVec.slt_iff_toInt_lt, toInt_ofNat_small n hn, show (1#32 : BitVec 32).toInt = 1 from by decide] at h
    rw [max_eq_left (by omega)]
  · rw [BitVec.slt_iff_toInt_lt, toInt_ofNat_small n hn, show (1#32 : BitVec 32).toInt = 1 from by decide] at h
    rw [max_eq_right (by omega)]

/-- Its conversion to a float: the number itself. -/
theorem sitofp_small (n : ℕ) (hn : n ≤ 8192) :
    FloatOps.sitofp (F := Ideal) .f32 (BitVec.ofNat 32 n) = (((n : ℕ) : ℝ) : EReal) := by
  show (((BitVec.ofNat 32 n).toInt : ℝ) : EReal) = _
  rw [toInt_ofNat_small n hn, Int.cast_natCast]

variable (x0 : (⟨S8192x128, .f32⟩ : BufTy).Contents (Elt Ideal)) (x1 : (⟨S8192, .i32⟩ : BufTy).Contents (Elt Ideal))

/-- There are at most 8192 valid rows. -/
theorem count_le : Spec.countR (Xof x0) (labOf x1) ≤ 8192 := by
  unfold Spec.countR
  exact (Finset.card_filter_le _ _).trans (by simp)

/-- The integer sum of the widened valid bits is the number of valid rows. -/
theorem count_at (j : S_.Idx) :
    val_main_v49 (F := Ideal) x0 x1 j = BitVec.ofNat 32 (Spec.countR (Xof x0) (labOf x1)) := by
  unfold val_main_v49
  rw [reduce_all, show (val_main_c_15 (F := Ideal)) ix0 = 0#32 from rfl,
    show (val_main_v48 (F := Ideal) x0 x1) = fun k => (val_main_v45 (F := Ideal) x0 x1 k).setWidth 32 from rfl,
    IndicatorCount.fold_addi_setWidth_eq_card]
  refine congrArg (BitVec.ofNat 32) ?_
  unfold Spec.countR
  refine Finset.card_equiv idxEquiv1 fun k => ?_
  obtain ⟨a, rfl⟩ : ∃ a : Fin 8192, k = ix1 a := ⟨k 0, eq_ix1 k⟩
  simp only [Finset.mem_filter, Finset.mem_univ, true_and]
  exact valid_at x0 x1 a

/-- The float sum of the rows' losses, from the zero word. -/
theorem total_at (j : S_.Idx) :
    val_main_v47 (F := Ideal) x0 x1 j = Spec.zero + ∑ i : Fin 8192, Spec.lossR (Xof x0) (labOf x1) i := by
  rw [val_main_v47_apply]
  refine congrArg₂ (· + ·) rfl ?_
  rw [← Equiv.sum_comp idxEquiv1.symm]
  exact Finset.sum_congr rfl fun i _ => loss_at x0 x1 i

/-- The reference's result. -/
theorem result_eq : val_main_v54 (F := Ideal) x0 x1 = fun _ => Spec.resultR (Xof x0) (labOf x1) := by
  funext j
  have hle := count_le x0 x1
  rw [val_main_v54_apply, val_main_v50_apply, count_at, val_main_c_16_apply, val_main_v53_apply, total_at,
    val_main_v52_apply, val_main_v51_apply, count_at, val_main_c_17_apply, val_main_cst_18_apply, maxsi_one _ hle,
    sitofp_small _ (max_le hle (by decide))]
  unfold Spec.resultR
  by_cases h : 0 < Spec.countR (Xof x0) (labOf x1)
  · rw [(sgt_zero_iff _ hle).2 h, select_one, if_pos h]
    rfl
  · rw [eq_zero_of_ne_one (fun e => h ((sgt_zero_iff _ hle).1 e)), select_zero, if_neg h]
    rfl

end Cert.RefBridge

end
-- ==== Proof.RefBridge.lean ====
/-
  The reference's run.

  The reference is a straight line of host operations and no kernel. From any memory with zero counters every weakly
  fair execution of it terminates; each buffer then holds the fold of the operations' results over the launch
  contents. The result buffer is therefore the last named stage of the two launched arguments, which is the
  specification's `Spec.resultR` of the embeddings and the labels; the two argument buffers hold what they held.
-/
import proofs.«108932_j15444702397006_2_alg».proof.Proof.RefRunMain
import proofs.«108932_j15444702397006_2_alg».proof.Proof.RefRunChunks
import proofs.«108932_j15444702397006_2_alg».proof.Proof.RefTail
import proofs.«108932_j15444702397006_2_alg».proof.Proof.RefArgs
import proofs.«108932_j15444702397006_2_alg».proof.Proof.Spec

noncomputable section

namespace Cert.RefBridge

open Idealize.ShloMosaic Idealize.ShloMosaic.TcCoe Idealize.SL.Sem Idealize.ShloMosaic.StableHlo Idealize.ShloMosaic.Pipeline

/-- The whole line is the six stretches in order. -/
theorem ops_split {F : FTy → Type} [FloatOps F] :
    (ops : List (HloOp Cert.ReferenceIdeal.τ Cert.ReferenceIdeal.sig (Elt F))) = opsA ++ (opsB ++ (opsC ++ (opsD ++ (opsE ++ opsG)))) := by
  chain_rfl

/-- The memory after the whole line, from the contents a memory launches with. -/
theorem after_ops (V : Valuation Cert.ReferenceIdeal.τ Cert.ReferenceIdeal.sig (Elt Ideal)) :
    after (ops (F := Ideal)) V (Proc.devRef .tc Cert.ReferenceIdeal.main_v54)
        = Cert.ReferenceIdeal.ReadP.val_main_v54 (F := Ideal) (V (Proc.devRef .tc Cert.ReferenceIdeal.main_arg0)) (V (Proc.devRef .tc Cert.ReferenceIdeal.main_arg1))
    ∧ after (ops (F := Ideal)) V (Proc.devRef .tc Cert.ReferenceIdeal.main_arg0) = V (Proc.devRef .tc Cert.ReferenceIdeal.main_arg0)
    ∧ after (ops (F := Ideal)) V (Proc.devRef .tc Cert.ReferenceIdeal.main_arg1) = V (Proc.devRef .tc Cert.ReferenceIdeal.main_arg1) := by
  rw [ops_split]
  exact after_line V

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread Cert.ReferenceIdeal.nD Cert.ReferenceIdeal.τ).loc Cert.ReferenceIdeal.main_v54) = (fun _ => Cert.Spec.resultR (Cert.RefBridge.XofR m c) (Cert.RefBridge.labOfR m c))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun _ h c =>
      ⟨(h c Cert.ReferenceIdeal.main_v54).trans ((after_ops (launchContents m c)).1.trans (result_eq _ _)),
        (h c Cert.ReferenceIdeal.main_arg0).trans (after_ops (launchContents m c)).2.1,
        (h c Cert.ReferenceIdeal.main_arg1).trans (after_ops (launchContents m c)).2.2⟩)
    (run_seq scopedRefs_eq scopedSems_eq Cert.ReferenceIdeal.defs Cert.ReferenceIdeal.main (fun _ => ops) main_eq (fun _ => ops_sub) m ρ)

end Cert.RefBridge

end
-- ==== Proof.lean ====
/-
  The certificate of the batch-hard triplet loss: three frames, the (empty) idealization ledger, and the equality of
  the kernel's and the reference's results over the extended reals.

  Both programs form the same clamped squared distances `d2 i j = max (|x_i|² + |x_j|² - 2·<x_i, x_j>) 0`. The
  reference takes square roots and then, row by row, the largest distance to a row of the same label and the smallest
  distance to a row of another label. The kernel walks an 8 × 4 grid of (query tile, key tile) pairs, keeps per query
  row the running largest positive and smallest negative SQUARED distance and two flags saying whether any positive
  and any negative was met, and at the last key tile takes the square roots of the two extremes, forms the loss
  `max (hardest_pos - hardest_neg + 1) 0`, masks it by validity and writes it beside the valid flag; the host then
  averages the masked losses over the valid rows. The square root is monotone with `√0 = 0` and `√⊤ = ⊤` and the
  squared distances are non-negative, so extremes commute with it on a row that has both a positive and a negative,
  and a row lacking either is masked on both sides (`Cert.Spec.result_eq`). No input needs to be finite for this:
  only order facts are used, no distributivity.

  The frames: each kernel program runs as host lines, the kernel's region, host lines (`Hand.frame`); the region's
  two embedding windows share one array, which is split along its share on entry and joined on exit. The reference
  is host lines only; its frame is its run with the result dropped.
-/
import proofs.«108932_j15444702397006_2_alg».proof.Defs
import proofs.«108932_j15444702397006_2_alg».proof.Proof.Gen.Kernel
import proofs.«108932_j15444702397006_2_alg».proof.Proof.Gen.KernelIdeal
import proofs.«108932_j15444702397006_2_alg».proof.Proof.Gen.ReferenceIdeal
import proofs.«108932_j15444702397006_2_alg».proof.Proof.Gen.Pre_finite_inputs
import proofs.«108932_j15444702397006_2_alg».proof.Proof.K.Launch
import proofs.«108932_j15444702397006_2_alg».proof.Proof.KI.Rows
import proofs.«108932_j15444702397006_2_alg».proof.Proof.RefBridge
import proofs.«108932_j15444702397006_2_alg».proof.Proof.SpecMath

noncomputable section

open Idealize.ShloMosaic Idealize.ShloMosaic.TcCoe Idealize.SL.Sem

namespace Cert.Proof

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.RefBridge.run m ρ)

/-- The kernel's run at the extended reals ends with the specification's kernel-form result of the launched
    embeddings and labels. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v16) = (fun _ => Cert.Spec.resultK (Cert.KernelIdeal.Val.XK m c) (Cert.KernelIdeal.Val.labK m c))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ h c =>
    ⟨(h c).1.trans (Cert.KernelIdeal.Val.W4_result m ρ c (Cert.KernelIdeal.Val.out_loss m ρ c) (Cert.KernelIdeal.Val.out_flag m ρ c)), (h c).2⟩)
    (Cert.KernelIdeal.Hand.run_result m ρ)

/-- From memories agreeing on the two arguments the kernel ends at `resultK` and the reference at `resultR` of the
    same embeddings and labels: one value. -/
theorem algebraic : Cert.algebraic_KernelIdeal_ReferenceIdeal := by
  intro m ρ m' ρ' _ hagree
  refine ⟨fun c _ => Cert.Spec.resultK (Cert.KernelIdeal.Val.XK m c) (Cert.KernelIdeal.Val.labK m c), kernel_run m ρ, ?_⟩
  refine (θ_run Cert.ReferenceIdeal.defs _ _).mono (fun _ h c => ⟨(h c).1.trans ?_, (h c).2⟩) (Cert.RefBridge.run m' ρ')
  funext _
  have hX : Cert.RefBridge.XofR m' c = Cert.KernelIdeal.Val.XK m c := by
    funext i k; unfold Cert.RefBridge.XofR Cert.KernelIdeal.Val.XK Cert.KernelIdeal.Val.Xof; rw [(hagree c).1]
  have hl : Cert.RefBridge.labOfR m' c = Cert.KernelIdeal.Val.labK m c := by
    funext i; unfold Cert.RefBridge.labOfR Cert.KernelIdeal.Val.labK Cert.KernelIdeal.Val.labOf; rw [(hagree c).2]
  rw [hX, hl]
  exact (Cert.Spec.result_eq _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
